-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x16 : Shape := ⟨2, ![1600000, 16]⟩
abbrev S16x64 : Shape := ⟨2, ![16, 64]⟩
abbrev S64 : Shape := ⟨1, ![64]⟩
abbrev S64x1 : Shape := ⟨2, ![64, 1]⟩
abbrev S1 : Shape := ⟨1, ![1]⟩
abbrev S128x64 : Shape := ⟨2, ![128, 64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S128x64 : S_.BroadcastsInDim S128x64 (![] : Fin 0 → Fin S128x64.rank)
  reducesTo_S128x64_S_d0_1 : S128x64.ReducesTo [0, 1] S_
  bcast_S_S64x64 : S_.BroadcastsInDim S64x64 (![] : Fin 0 → Fin S64x64.rank)
  reducesTo_S64x64_S_d0_1 : S64x64.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S64 .f32) (main_arg13 : FVec F S64x64 .f32) (main_arg14 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg13
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg8 : FVec F S64x64 .f32) (main_arg9 : FVec F S128x64 .f32) (main_arg10 : FVec F S128x64 .f32) (main_arg11 : FVec F S64 .f32) (main_arg12 : FVec F S64 .f32) (main_arg13 : FVec F S64x64 .f32) (main_arg14 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_v48 main_v49 main_v50

def fn_part1 {F : FTy → Type} [FloatOps F] (main_arg5 : FVec F S64x1 .f32) (main_arg6 : FVec F S1 .f32) (main_arg7 : FVec F S128x64 .f32) (main_arg8 : FVec F S64x64 .f32) (main_arg9 : FVec F S128x64 .f32) (main_arg10 : FVec F S128x64 .f32) (main_arg11 : FVec F S64 .f32) (main_arg12 : FVec F S64 .f32) (main_arg13 : FVec F S64x64 .f32) (main_arg14 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x1 .f32 := Host.absf main_arg5
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x128 .f32) (main_arg1 : IVec S2x1600000 32) (main_arg2 : FVec F S1600000x16 .f32) (main_arg3 : FVec F S16x64 .f32) (main_arg4 : FVec F S64 .f32) (main_arg5 : FVec F S64x1 .f32) (main_arg6 : FVec F S1 .f32) (main_arg7 : FVec F S128x64 .f32) (main_arg8 : FVec F S64x64 .f32) (main_arg9 : FVec F S128x64 .f32) (main_arg10 : FVec F S128x64 .f32) (main_arg11 : FVec F S64 .f32) (main_arg12 : FVec F S64 .f32) (main_arg13 : FVec F S64x64 .f32) (main_arg14 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x16 .f32 := Host.absf main_arg2
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S16x64 .f32 := Host.absf main_arg3
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x128 : Shape := ⟨2, ![100000, 128]⟩
abbrev S2x1600000 : Shape := ⟨2, ![2, 1600000]⟩
abbrev S1600000x16 : Shape := ⟨2, ![1600000, 16]⟩
abbrev S16x64 : Shape := ⟨2, ![16, 64]⟩
abbrev S64 : Shape := ⟨1, ![64]⟩
abbrev S64x1 : Shape := ⟨2, ![64, 1]⟩
abbrev S1 : Shape := ⟨1, ![1]⟩
abbrev S128x64 : Shape := ⟨2, ![128, 64]⟩
abbrev S64x64 : Shape := ⟨2, ![64, 64]⟩
abbrev S1x1600000 : Shape := ⟨2, ![1, 1600000]⟩
abbrev S1600000 : Shape := ⟨1, ![1600000]⟩
abbrev S1x64 : Shape := ⟨2, ![1, 64]⟩
abbrev S1x1 : Shape := ⟨2, ![1, 1]⟩
abbrev S1600000x1 : Shape := ⟨2, ![1600000, 1]⟩
abbrev S12800x16 : Shape := ⟨2, ![12800, 16]⟩
abbrev S12800x1 : Shape := ⟨2, ![12800, 1]⟩
abbrev S12800x64 : Shape := ⟨2, ![12800, 64]⟩
abbrev S_ : Shape := ⟨0, ![]⟩
abbrev S100000 : Shape := ⟨1, ![100000]⟩
abbrev S128x192 : Shape := ⟨2, ![128, 192]⟩
abbrev S192 : Shape := ⟨1, ![192]⟩
abbrev S1x192 : Shape := ⟨2, ![1, 192]⟩
abbrev S100000x192 : Shape := ⟨2, ![100000, 192]⟩
abbrev S5000x128 : Shape := ⟨2, ![5000, 128]⟩
abbrev S5000x192 : Shape := ⟨2, ![5000, 192]⟩
abbrev S100000x64 : Shape := ⟨2, ![100000, 64]⟩
abbrev S1600000x64 : Shape := ⟨2, ![1600000, 64]⟩
abbrev S5000x64 : Shape := ⟨2, ![5000, 64]⟩

abbrev nBuf : Space → Nat
  | .hbm => 122
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x16, .f32⟩
  | .hbm, ⟨3, _⟩ => ⟨S16x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S128x64, .f32⟩
  | .hbm, ⟨8, _⟩ => ⟨S64x64, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S1x64, .f32⟩
  | .hbm, ⟨20, _⟩ => ⟨S1x1, .f32⟩
  | .hbm, ⟨21, _⟩ => ⟨S1600000x1, .f32⟩
  | .hbm, ⟨22, _⟩ => ⟨S1600000, .f32⟩
  | .hbm, ⟨23, _⟩ => ⟨S_, .f32⟩
  | .hbm, ⟨24, _⟩ => ⟨S100000, .f32⟩
  | .hbm, ⟨25, _⟩ => ⟨S1600000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .i1⟩
  | .hbm, ⟨37, _⟩ => ⟨S100000, .f32⟩
  | .hbm, ⟨38, _⟩ => ⟨S_, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000, .f32⟩
  | .hbm, ⟨51, _⟩ => ⟨S1600000, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000, .f32⟩
  | .hbm, ⟨61, _⟩ => ⟨S1600000, .f32⟩
  | .hbm, ⟨62, _⟩ => ⟨S128x192, .f32⟩
  | .hbm, ⟨63, _⟩ => ⟨S_, .f32⟩
  | .hbm, ⟨64, _⟩ => ⟨S192, .f32⟩
  | .hbm, ⟨65, _⟩ => ⟨S1x192, .f32⟩
  | .hbm, ⟨66, _⟩ => ⟨S100000x192, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S1600000x1, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x64, .f32⟩
  | .hbm, ⟨80, _⟩ => ⟨S1600000x64, .f32⟩
  | .hbm, ⟨81, _⟩ => ⟨S1600000x64, .f32⟩
  | .hbm, ⟨82, _⟩ => ⟨S_, .f32⟩
  | .hbm, ⟨83, _⟩ => ⟨S100000x64, .f32⟩
  | .hbm, ⟨84, _⟩ => ⟨S1600000x1, .i32⟩
  | .hbm, ⟨85, _⟩ => ⟨S100000x64, .f32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S100000x64, .f32⟩
  | .hbm, ⟨90, _⟩ => ⟨S_, .f32⟩
  | .hbm, ⟨91, _⟩ => ⟨S100000x64, .f32⟩
  | .hbm, ⟨92, _⟩ => ⟨S100000x64, .f32⟩
  | .hbm, ⟨93, _⟩ => ⟨S_, .f32⟩
  | .hbm, ⟨94, _⟩ => ⟨S64, .f32⟩
  | .hbm, ⟨95, _⟩ => ⟨S1x64, .f32⟩
  | .hbm, ⟨96, _⟩ => ⟨S100000x64, .f32⟩
  | .hbm, ⟨97, _⟩ => ⟨S1600000x1, .f32⟩
  | .hbm, ⟨98, _⟩ => ⟨S_, .i32⟩
  | .hbm, ⟨99, _⟩ => ⟨S1600000, .i32⟩
  | .hbm, ⟨100, _⟩ => ⟨S1600000, .i1⟩
  | .hbm, ⟨101, _⟩ => ⟨S_, .i32⟩
  | .hbm, ⟨102, _⟩ => ⟨S1600000, .i32⟩
  | .hbm, ⟨103, _⟩ => ⟨S1600000, .i32⟩
  | .hbm, ⟨104, _⟩ => ⟨S1600000, .i32⟩
  | .hbm, ⟨105, _⟩ => ⟨S1600000x1, .i32⟩
  | .hbm, ⟨106, _⟩ => ⟨S1600000x64, .f32⟩
  | .hbm, ⟨107, _⟩ => ⟨S1600000x64, .f32⟩
  | .hbm, ⟨108, _⟩ => ⟨S1600000x64, .f32⟩
  | .hbm, ⟨109, _⟩ => ⟨S_, .f32⟩
  | .hbm, ⟨110, _⟩ => ⟨S100000x64, .f32⟩
  | .hbm, ⟨111, _⟩ => ⟨S1600000x1, .i32⟩
  | .hbm, ⟨112, _⟩ => ⟨S100000x64, .f32⟩
  | .hbm, ⟨113, _⟩ => ⟨S100000x64, .f32⟩
  | .hbm, ⟨114, _⟩ => ⟨S1x64, .f32⟩
  | .hbm, ⟨115, _⟩ => ⟨S100000x64, .f32⟩
  | .hbm, ⟨116, _⟩ => ⟨S100000x64, .f32⟩
  | .hbm, ⟨117, _⟩ => ⟨S_, .f32⟩
  | .hbm, ⟨118, _⟩ => ⟨S100000x64, .f32⟩
  | .hbm, ⟨119, _⟩ => ⟨S100000x64, .f32⟩
  | .hbm, ⟨120, _⟩ => ⟨S1x64, .f32⟩
  | .hbm, ⟨121, _⟩ => ⟨S100000x64, .f32⟩
  | .local _ .vmem, ⟨0, _⟩ => ⟨S12800x16, .f32⟩
  | .local _ .vmem, ⟨1, _⟩ => ⟨S12800x16, .f32⟩
  | .local _ .vmem, ⟨2, _⟩ => ⟨S16x64, .f32⟩
  | .local _ .vmem, ⟨3, _⟩ => ⟨S1x64, .f32⟩
  | .local _ .vmem, ⟨4, _⟩ => ⟨S64x1, .f32⟩
  | .local _ .vmem, ⟨5, _⟩ => ⟨S1x1, .f32⟩
  | .local _ .vmem, ⟨6, _⟩ => ⟨S12800x1, .f32⟩
  | .local _ .vmem, ⟨7, _⟩ => ⟨S12800x1, .f32⟩
  | .local _ .vmem, ⟨8, _⟩ => ⟨S5000x128, .f32⟩
  | .local _ .vmem, ⟨9, _⟩ => ⟨S5000x128, .f32⟩
  | .local _ .vmem, ⟨10, _⟩ => ⟨S128x192, .f32⟩
  | .local _ .vmem, ⟨11, _⟩ => ⟨S1x192, .f32⟩
  | .local _ .vmem, ⟨12, _⟩ => ⟨S5000x192, .f32⟩
  | .local _ .vmem, ⟨13, _⟩ => ⟨S5000x192, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_0 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_call0_v0 : Ref sig .tc := ⟨.hbm, 31, rfl⟩
abbrev main_call0_v1 : Ref sig .tc := ⟨.hbm, 32, rfl⟩
abbrev main_v13 : Ref sig .tc := ⟨.hbm, 33, rfl⟩
abbrev main_cst_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_3 : Ref sig .tc := ⟨.hbm, 38, rfl⟩
abbrev main_call1_v0 : Ref sig .tc := ⟨.hbm, 39, rfl⟩
abbrev main_call1_v1 : Ref sig .tc := ⟨.hbm, 40, rfl⟩
abbrev main_v17 : Ref sig .tc := ⟨.hbm, 41, rfl⟩
abbrev main_c : Ref sig .tc := ⟨.hbm, 42, rfl⟩
abbrev main_v18 : Ref sig .tc := ⟨.hbm, 43, rfl⟩
abbrev main_v19 : Ref sig .tc := ⟨.hbm, 44, rfl⟩
abbrev main_c_4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c_5 : Ref sig .tc := ⟨.hbm, 52, rfl⟩
abbrev main_v26 : Ref sig .tc := ⟨.hbm, 53, rfl⟩
abbrev main_v27 : Ref sig .tc := ⟨.hbm, 54, rfl⟩
abbrev main_c_6 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_7 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_c_8 : Ref sig .tc := ⟨.hbm, 71, rfl⟩
abbrev main_v42 : Ref sig .tc := ⟨.hbm, 72, rfl⟩
abbrev main_v43 : Ref sig .tc := ⟨.hbm, 73, rfl⟩
abbrev main_c_9 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_10 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_call2_cst : Ref sig .tc := ⟨.hbm, 90, rfl⟩
abbrev main_call2_v0 : Ref sig .tc := ⟨.hbm, 91, rfl⟩
abbrev main_v58 : Ref sig .tc := ⟨.hbm, 92, rfl⟩
abbrev main_cst_11 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_c_12 : Ref sig .tc := ⟨.hbm, 98, rfl⟩
abbrev main_v63 : Ref sig .tc := ⟨.hbm, 99, rfl⟩
abbrev main_v64 : Ref sig .tc := ⟨.hbm, 100, rfl⟩
abbrev main_c_13 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_14 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_call3_cst : Ref sig .tc := ⟨.hbm, 117, rfl⟩
abbrev main_call3_v0 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12800x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S12800x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S64_S1x64 : S64.ShapeCasts S1x64
  shapeCasts_S1_S1x1 : S1.ShapeCasts S1x1
  inb_S12800x16_S12800x16_0_0 : ∀ a, (![0, 0] : Fin 2 → Nat) a + S12800x16.size a ≤ S12800x16.size a
  h_S12800x16 : 0 < S12800x16.numel
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S12800x64 : S1x64.Broadcasts S12800x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S12800x1 : S1x1.Broadcasts S12800x1
  inb_S12800x1_S12800x1_0_0 : ∀ a, (![0, 0] : Fin 2 → Nat) a + S12800x1.size a ≤ S12800x1.size a
  h_S12800x1 : 0 < S12800x1.numel
  shapeCasts_S1600000x1_S1600000 : S1600000x1.ShapeCasts S1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  concatenates_S128x64_S128x64_S128x64_S128x192_d1 : Shape.Concatenates [S128x64, S128x64, S128x64] S128x192 1
  bcast_S_S192 : S_.BroadcastsInDim S192 (![] : Fin 0 → Fin S192.rank)
  shapeCasts_S192_S1x192 : S192.ShapeCasts S1x192
  inb_S5000x128_S5000x128_0_0 : ∀ a, (![0, 0] : Fin 2 → Nat) a + S5000x128.size a ≤ S5000x128.size a
  h_S5000x128 : 0 < S5000x128.numel
  inb_S128x192_S128x192_0_0 : ∀ a, (![0, 0] : Fin 2 → Nat) a + S128x192.size a ≤ S128x192.size a
  h_S128x192 : 0 < S128x192.numel
  shapeCasts_S128x192_S128x192 : S128x192.ShapeCasts S128x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S5000x192 : S1x192.Broadcasts S5000x192
  inb_S5000x192_S5000x192_0_0 : ∀ a, (![0, 0] : Fin 2 → Nat) a + S5000x192.size a ≤ S5000x192.size a
  h_S5000x192 : 0 < S5000x192.numel
  slices_S100000x192_S100000x64_0_0 : S100000x192.Slices ![0, 0] S100000x64
  slices_S100000x192_S100000x64_0_64 : S100000x192.Slices ![0, 64] S100000x64
  slices_S100000x192_S100000x64_0_128 : S100000x192.Slices ![0, 128] S100000x64
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  broadcasts_S1x64_S5000x64 : S1x64.Broadcasts S5000x64
  dot_S12800x16_S16x64_S12800x64_1_0_0_1_n_n_wf : DotDims.WF S12800x16 S16x64 S12800x64 [1] [0] [0] [1] [] []
  dot_S12800x64_S64x1_S12800x1_1_0_0_1_n_n_wf : DotDims.WF S12800x64 S64x1 S12800x1 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x192_S5000x192_1_0_0_1_n_n_wf : DotDims.WF S5000x128 S128x192 S5000x192 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12800x16.size a ≤ S1600000x16.size a
  hwx0_0 : ∀ i : grid0.Coords, EltTy.bits .f32 = 32 ∨ (Rect.block (s := S1600000x16) S12800x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S12800x1.size a ≤ S1600000x1.size a
  hwx0_5 : ∀ i : grid0.Coords, EltTy.bits .f32 = 32 ∨ (Rect.block (s := S1600000x1) S12800x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x192.size a ≤ S128x192.size a
  hwx1_1 : ∀ i : grid1.Coords, EltTy.bits .f32 = 32 ∨ (Rect.block (s := S128x192) S128x192.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x192.size a ≤ S1x192.size a
  hwx1_2 : ∀ i : grid1.Coords, EltTy.bits .f32 = 32 ∨ (Rect.block (s := S1x192) S1x192.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x192.size a ≤ S100000x192.size a
  hwx1_3 : ∀ i : grid1.Coords, EltTy.bits .f32 = 32 ∨ (Rect.block (s := S100000x192) S5000x192.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)

variable [Facts₀]

def dot_S12800x16_S16x64_S12800x64_1_0_0_1_n_n : DotDims S12800x16 S16x64 S12800x64 where
  lhsContracting := [1]
  rhsContracting := [0]
  lhsNonContracting := [0]
  rhsNonContracting := [1]
  lhsBatch := []
  rhsBatch := []
  wf := dot_S12800x16_S16x64_S12800x64_1_0_0_1_n_n_wf
def dot_S12800x64_S64x1_S12800x1_1_0_0_1_n_n : DotDims S12800x64 S64x1 S12800x1 where
  lhsContracting := [1]
  rhsContracting := [0]
  lhsNonContracting := [0]
  rhsNonContracting := [1]
  lhsBatch := []
  rhsBatch := []
  wf := dot_S12800x64_S64x1_S12800x1_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x192_S5000x192_1_0_0_1_n_n : DotDims S5000x128 S128x192 S5000x192 where
  lhsContracting := [1]
  rhsContracting := [0]
  lhsNonContracting := [0]
  rhsNonContracting := [1]
  lhsBatch := []
  rhsBatch := []
  wf := dot_S5000x128_S128x192_S5000x192_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg2) S12800x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S12800x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S128x192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1x192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S5000x192.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v79) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg13) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v80) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v81) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x16 : Shape := ⟨2, ![1600000, 16]⟩
abbrev S16x64 : Shape := ⟨2, ![16, 64]⟩
abbrev S64 : Shape := ⟨1, ![64]⟩
abbrev S64x1 : Shape := ⟨2, ![64, 1]⟩
abbrev S1 : Shape := ⟨1, ![1]⟩
abbrev S128x64 : Shape := ⟨2, ![128, 64]⟩
abbrev S64x64 : Shape := ⟨2, ![64, 64]⟩
abbrev S1x1600000 : Shape := ⟨2, ![1, 1600000]⟩
abbrev S1600000 : Shape := ⟨1, ![1600000]⟩
abbrev S1600000x64 : Shape := ⟨2, ![1600000, 64]⟩
abbrev S1x64 : Shape := ⟨2, ![1, 64]⟩
abbrev S_ : Shape := ⟨0, ![]⟩
abbrev S1600000x1 : Shape := ⟨2, ![1600000, 1]⟩
abbrev S1x1 : Shape := ⟨2, ![1, 1]⟩
abbrev S100000 : Shape := ⟨1, ![100000]⟩
abbrev S100000x64 : Shape := ⟨2, ![100000, 64]⟩

abbrev nBuf : Space → Nat
  | .hbm => 127
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x16, .f32⟩
  | .hbm, ⟨3, _⟩ => ⟨S16x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S128x64, .f32⟩
  | .hbm, ⟨8, _⟩ => ⟨S64x64, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S1600000x64, .f32⟩
  | .hbm, ⟨20, _⟩ => ⟨S1x64, .f32⟩
  | .hbm, ⟨21, _⟩ => ⟨S1600000x64, .f32⟩
  | .hbm, ⟨22, _⟩ => ⟨S1600000x64, .f32⟩
  | .hbm, ⟨23, _⟩ => ⟨S_, .f32⟩
  | .hbm, ⟨24, _⟩ => ⟨S1600000x64, .f32⟩
  | .hbm, ⟨25, _⟩ => ⟨S1600000x64, .f32⟩
  | .hbm, ⟨26, _⟩ => ⟨S1600000x1, .f32⟩
  | .hbm, ⟨27, _⟩ => ⟨S1x1, .f32⟩
  | .hbm, ⟨28, _⟩ => ⟨S1600000x1, .f32⟩
  | .hbm, ⟨29, _⟩ => ⟨S1600000x1, .f32⟩
  | .hbm, ⟨30, _⟩ => ⟨S_, .f32⟩
  | .hbm, ⟨31, _⟩ => ⟨S1600000x1, .f32⟩
  | .hbm, ⟨32, _⟩ => ⟨S1600000x1, .f32⟩
  | .hbm, ⟨33, _⟩ => ⟨S1600000, .f32⟩
  | .hbm, ⟨34, _⟩ => ⟨S_, .f32⟩
  | .hbm, ⟨35, _⟩ => ⟨S100000, .f32⟩
  | .hbm, ⟨36, _⟩ => ⟨S1600000x1, .i32⟩
  | .hbm, ⟨37, _⟩ => ⟨S100000, .f32⟩
  | .hbm, ⟨38, _⟩ => ⟨S_, .f32⟩
  | .hbm, ⟨39, _⟩ => ⟨S100000, .f32⟩
  | .hbm, ⟨40, _⟩ => ⟨S100000, .i1⟩
  | .hbm, ⟨41, _⟩ => ⟨S_, .f32⟩
  | .hbm, ⟨42, _⟩ => ⟨S_, .f32⟩
  | .hbm, ⟨43, _⟩ => ⟨S100000, .f32⟩
  | .hbm, ⟨44, _⟩ => ⟨S100000, .f32⟩
  | .hbm, ⟨45, _⟩ => ⟨S_, .f32⟩
  | .hbm, ⟨46, _⟩ => ⟨S100000, .f32⟩
  | .hbm, ⟨47, _⟩ => ⟨S100000, .i1⟩
  | .hbm, ⟨48, _⟩ => ⟨S100000, .f32⟩
  | .hbm, ⟨49, _⟩ => ⟨S_, .f32⟩
  | .hbm, ⟨50, _⟩ => ⟨S_, .f32⟩
  | .hbm, ⟨51, _⟩ => ⟨S100000, .f32⟩
  | .hbm, ⟨52, _⟩ => ⟨S100000, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000, .f32⟩
  | .hbm, ⟨62, _⟩ => ⟨S1600000, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000, .f32⟩
  | .hbm, ⟨72, _⟩ => ⟨S1600000, .f32⟩
  | .hbm, ⟨73, _⟩ => ⟨S100000x64, .f32⟩
  | .hbm, ⟨74, _⟩ => ⟨S1600000x1, .f32⟩
  | .hbm, ⟨75, _⟩ => ⟨S_, .i32⟩
  | .hbm, ⟨76, _⟩ => ⟨S1600000, .i32⟩
  | .hbm, ⟨77, _⟩ => ⟨S1600000, .i1⟩
  | .hbm, ⟨78, _⟩ => ⟨S_, .i32⟩
  | .hbm, ⟨79, _⟩ => ⟨S1600000, .i32⟩
  | .hbm, ⟨80, _⟩ => ⟨S1600000, .i32⟩
  | .hbm, ⟨81, _⟩ => ⟨S1600000, .i32⟩
  | .hbm, ⟨82, _⟩ => ⟨S1600000x1, .i32⟩
  | .hbm, ⟨83, _⟩ => ⟨S1600000x64, .f32⟩
  | .hbm, ⟨84, _⟩ => ⟨S1600000x64, .f32⟩
  | .hbm, ⟨85, _⟩ => ⟨S1600000x64, .f32⟩
  | .hbm, ⟨86, _⟩ => ⟨S_, .f32⟩
  | .hbm, ⟨87, _⟩ => ⟨S100000x64, .f32⟩
  | .hbm, ⟨88, _⟩ => ⟨S1600000x1, .i32⟩
  | .hbm, ⟨89, _⟩ => ⟨S100000x64, .f32⟩
  | .hbm, ⟨90, _⟩ => ⟨S100000x64, .f32⟩
  | .hbm, ⟨91, _⟩ => ⟨S100000x64, .f32⟩
  | .hbm, ⟨92, _⟩ => ⟨S1x64, .f32⟩
  | .hbm, ⟨93, _⟩ => ⟨S100000x64, .f32⟩
  | .hbm, ⟨94, _⟩ => ⟨S100000x64, .f32⟩
  | .hbm, ⟨95, _⟩ => ⟨S_, .f32⟩
  | .hbm, ⟨96, _⟩ => ⟨S100000x64, .f32⟩
  | .hbm, ⟨97, _⟩ => ⟨S100000x64, .f32⟩
  | .hbm, ⟨98, _⟩ => ⟨S100000x64, .f32⟩
  | .hbm, ⟨99, _⟩ => ⟨S1600000x1, .f32⟩
  | .hbm, ⟨100, _⟩ => ⟨S_, .i32⟩
  | .hbm, ⟨101, _⟩ => ⟨S1600000, .i32⟩
  | .hbm, ⟨102, _⟩ => ⟨S1600000, .i1⟩
  | .hbm, ⟨103, _⟩ => ⟨S_, .i32⟩
  | .hbm, ⟨104, _⟩ => ⟨S1600000, .i32⟩
  | .hbm, ⟨105, _⟩ => ⟨S1600000, .i32⟩
  | .hbm, ⟨106, _⟩ => ⟨S1600000, .i32⟩
  | .hbm, ⟨107, _⟩ => ⟨S1600000x1, .i32⟩
  | .hbm, ⟨108, _⟩ => ⟨S1600000x64, .f32⟩
  | .hbm, ⟨109, _⟩ => ⟨S1600000x64, .f32⟩
  | .hbm, ⟨110, _⟩ => ⟨S1600000x64, .f32⟩
  | .hbm, ⟨111, _⟩ => ⟨S_, .f32⟩
  | .hbm, ⟨112, _⟩ => ⟨S100000x64, .f32⟩
  | .hbm, ⟨113, _⟩ => ⟨S1600000x1, .i32⟩
  | .hbm, ⟨114, _⟩ => ⟨S100000x64, .f32⟩
  | .hbm, ⟨115, _⟩ => ⟨S100000x64, .f32⟩
  | .hbm, ⟨116, _⟩ => ⟨S100000x64, .f32⟩
  | .hbm, ⟨117, _⟩ => ⟨S1x64, .f32⟩
  | .hbm, ⟨118, _⟩ => ⟨S100000x64, .f32⟩
  | .hbm, ⟨119, _⟩ => ⟨S100000x64, .f32⟩
  | .hbm, ⟨120, _⟩ => ⟨S_, .f32⟩
  | .hbm, ⟨121, _⟩ => ⟨S100000x64, .f32⟩
  | .hbm, ⟨122, _⟩ => ⟨S100000x64, .f32⟩
  | .hbm, ⟨123, _⟩ => ⟨S100000x64, .f32⟩
  | .hbm, ⟨124, _⟩ => ⟨S1x64, .f32⟩
  | .hbm, ⟨125, _⟩ => ⟨S100000x64, .f32⟩
  | .hbm, ⟨126, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call0_cst : Ref sig .tc := ⟨.hbm, 23, rfl⟩
abbrev main_call0_v0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_cst : Ref sig .tc := ⟨.hbm, 30, rfl⟩
abbrev main_call1_v0 : Ref sig .tc := ⟨.hbm, 31, rfl⟩
abbrev main_v13 : Ref sig .tc := ⟨.hbm, 32, rfl⟩
abbrev main_v14 : Ref sig .tc := ⟨.hbm, 33, rfl⟩
abbrev main_cst : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_0 : Ref sig .tc := ⟨.hbm, 38, rfl⟩
abbrev main_v18 : Ref sig .tc := ⟨.hbm, 39, rfl⟩
abbrev main_v19 : Ref sig .tc := ⟨.hbm, 40, rfl⟩
abbrev main_cst_1 : Ref sig .tc := ⟨.hbm, 41, rfl⟩
abbrev main_call2_v0 : Ref sig .tc := ⟨.hbm, 42, rfl⟩
abbrev main_call2_v1 : Ref sig .tc := ⟨.hbm, 43, rfl⟩
abbrev main_v20 : Ref sig .tc := ⟨.hbm, 44, rfl⟩
abbrev main_cst_2 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_3 : Ref sig .tc := ⟨.hbm, 49, rfl⟩
abbrev main_call3_v0 : Ref sig .tc := ⟨.hbm, 50, rfl⟩
abbrev main_call3_v1 : Ref sig .tc := ⟨.hbm, 51, rfl⟩
abbrev main_v24 : Ref sig .tc := ⟨.hbm, 52, rfl⟩
abbrev main_c : Ref sig .tc := ⟨.hbm, 53, rfl⟩
abbrev main_v25 : Ref sig .tc := ⟨.hbm, 54, rfl⟩
abbrev main_v26 : Ref sig .tc := ⟨.hbm, 55, rfl⟩
abbrev main_c_4 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_c_5 : Ref sig .tc := ⟨.hbm, 63, rfl⟩
abbrev main_v33 : Ref sig .tc := ⟨.hbm, 64, rfl⟩
abbrev main_v34 : Ref sig .tc := ⟨.hbm, 65, rfl⟩
abbrev main_c_6 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_c_7 : Ref sig .tc := ⟨.hbm, 75, rfl⟩
abbrev main_v43 : Ref sig .tc := ⟨.hbm, 76, rfl⟩
abbrev main_v44 : Ref sig .tc := ⟨.hbm, 77, rfl⟩
abbrev main_c_8 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_9 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_call4_cst : Ref sig .tc := ⟨.hbm, 95, rfl⟩
abbrev main_call4_v0 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_c_10 : Ref sig .tc := ⟨.hbm, 100, rfl⟩
abbrev main_v63 : Ref sig .tc := ⟨.hbm, 101, rfl⟩
abbrev main_v64 : Ref sig .tc := ⟨.hbm, 102, rfl⟩
abbrev main_c_11 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_12 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_call5_cst : Ref sig .tc := ⟨.hbm, 120, rfl⟩
abbrev main_call5_v0 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  bcast_S_S1600000x1 : S_.BroadcastsInDim S1600000x1 (![] : Fin 0 → Fin S1600000x1.rank)
  shapeCasts_S1600000x1_S1600000 : S1600000x1.ShapeCasts S1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S1x64_S100000x64_0_1 : S1x64.BroadcastsInDim S100000x64 (![0, 1] : Fin 2 → Fin S100000x64.rank)
  dot_S1600000x16_S16x64_S1600000x64_1_0_0_1_n_n_wf : DotDims.WF S1600000x16 S16x64 S1600000x64 [1] [0] [0] [1] [] []
  dot_S1600000x64_S64x1_S1600000x1_1_0_0_1_n_n_wf : DotDims.WF S1600000x64 S64x1 S1600000x1 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def dot_S1600000x16_S16x64_S1600000x64_1_0_0_1_n_n : DotDims S1600000x16 S16x64 S1600000x64 where
  lhsContracting := [1]
  rhsContracting := [0]
  lhsNonContracting := [0]
  rhsNonContracting := [1]
  lhsBatch := []
  rhsBatch := []
  wf := dot_S1600000x16_S16x64_S1600000x64_1_0_0_1_n_n_wf
def dot_S1600000x64_S64x1_S1600000x1_1_0_0_1_n_n : DotDims S1600000x64 S64x1 S1600000x1 where
  lhsContracting := [1]
  rhsContracting := [0]
  lhsNonContracting := [0]
  rhsNonContracting := [1]
  lhsBatch := []
  rhsBatch := []
  wf := dot_S1600000x64_S64x1_S1600000x1_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.EdgeMlpData.lean ====
/-
  The edge network's launch (the first kernel region): one grid point per block of 12800 edges.
  A point reads its 12800×16 block of edge features and the whole of the two weight matrices and the two
  biases, and stores one 12800×1 block: relu(relu(e·W1 + b1)·W2 + b2).  Here: the blocks a point reads
  (`iblk0`), what the body leaves in the output buffer as a function of the blocks read (`out0_5`), and the
  launch's bookkeeping record `dat0` (arrays as the region finds them; inputs left in place; the output buffer at
  `out0_5` of the blocks read).
-/
import proofs.«170167_j27212912788334_2_alg».proof.Proof.Gen.KernelIdeal.Launch
import proofs.«170167_j27212912788334_2_alg».proof.Proof.Gen.KernelIdeal.Skeleton
import proofs.«170167_j27212912788334_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_ea : Rect S12800x16 := Rect.unit (s := S12800x16) ![0, 0] S12800x16.size inb_S12800x16_S12800x16_0_0
abbrev r0_w1 : Rect S16x64 := Rect.unit (s := S16x64) ![0, 0] S16x64.size inb_S16x64_S16x64_0_0
abbrev r0_b1 : Rect S1x64 := Rect.unit (s := S1x64) ![0, 0] S1x64.size inb_S1x64_S1x64_0_0
abbrev r0_w2 : Rect S64x1 := Rect.unit (s := S64x1) ![0, 0] S64x1.size inb_S64x1_S64x1_0_0
abbrev r0_b2 : Rect S1x1 := Rect.unit (s := S1x1) ![0, 0] S1x1.size inb_S1x1_S1x1_0_0
abbrev r0_out : Rect S12800x1 := Rect.unit (s := S12800x1) ![0, 0] S12800x1.size inb_S12800x1_S12800x1_0_0

/-- The output buffer after the body: its one whole-block store of the body's arithmetic on the five blocks read. -/
def out0_5 (x0 : Vec F S12800x16 .f32) (x1 : Vec F S16x64 .f32) (x2 : Vec F S1x64 .f32) (x3 : Vec F S64x1 .f32) (x4 : Vec F S1x1 .f32) : Vec F S12800x1 .f32 :=
  View.canon [⟨r0_out, k0_pay1 (View.ld x0 r0_ea) (View.ld x1 r0_w1) (View.ld x2 r0_b1) (View.ld x3 r0_w2) (View.ld x4 r0_b2)⟩]

/-- The one store is the whole block, so it covers it. -/
theorem cover0_5 (p0 : Vec F S12800x1 .f32) (y : S12800x1.Idx) :
    ∃ pc ∈ ([⟨r0_out, p0⟩] : List (View.Piece (Elt F) S12800x1 .f32)), y ∈ pc.1.set :=
  View.cover_of_tiled [⟨r0_out, p0⟩] S12800x1.size (by rfl) y

/-- The launch's record on core `c`: arrays as found; after the body at point `t` each input buffer holds its block
    and the output buffer `out0_5` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t =
    out0_5 (iblk0 V c 0 t) (iblk0 V c 1 t) (iblk0 V c 2 t) (iblk0 V c 3 t) (iblk0 V c 4 t) := by dsimp only [dat0]

end Cert.KernelIdeal.Frame

end
-- ==== Proof.ProjData.lean ====
/-
  The node projection's launch (the second kernel region): the node features times the three 128×64 weight matrices laid side by side (128×192), with a zero bias row.
  One grid point per block of 5000 rows: a point reads its block of rows, the whole weight matrix and the
  bias row, and stores one block of rows of  X·W + b.  Here: the blocks a point reads (`iblk1`), what the body
  leaves in the output buffer as a function of the blocks read (`out1_3`), and the launch's bookkeeping record
  `dat1`.
-/
import proofs.«170167_j27212912788334_2_alg».proof.Proof.Gen.KernelIdeal.Launch
import proofs.«170167_j27212912788334_2_alg».proof.Proof.Gen.KernelIdeal.Skeleton
import proofs.«170167_j27212912788334_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_x : Rect S5000x128 := Rect.unit (s := S5000x128) ![0, 0] S5000x128.size inb_S5000x128_S5000x128_0_0
abbrev r1_w : Rect S128x192 := Rect.unit (s := S128x192) ![0, 0] S128x192.size inb_S128x192_S128x192_0_0
abbrev r1_b : Rect S1x192 := Rect.unit (s := S1x192) ![0, 0] S1x192.size inb_S1x192_S1x192_0_0
abbrev r1_out : Rect S5000x192 := Rect.unit (s := S5000x192) ![0, 0] S5000x192.size inb_S5000x192_S5000x192_0_0

/-- The output buffer after the body: its one whole-block store of the body's arithmetic on the three blocks read. -/
def out1_3 (x0 : Vec F S5000x128 .f32) (x1 : Vec F S128x192 .f32) (x2 : Vec F S1x192 .f32) : Vec F S5000x192 .f32 :=
  View.canon [⟨r1_out, k1_pay1 (View.ld x0 r1_x) (View.ld x1 r1_w) (View.ld x2 r1_b)⟩]

/-- The one store is the whole block, so it covers it. -/
theorem cover1_3 (p0 : Vec F S5000x192 .f32) (y : S5000x192.Idx) :
    ∃ pc ∈ ([⟨r1_out, p0⟩] : List (View.Piece (Elt F) S5000x192 .f32)), y ∈ pc.1.set :=
  View.cover_of_tiled [⟨r1_out, p0⟩] S5000x192.size (by rfl) y

/-- The launch's record on core `c`: arrays as found; after the body at point `t` each input buffer holds its block
    and the output buffer `out1_3` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t =
    out1_3 (iblk1 V c 0 t) (iblk1 V c 1 t) (iblk1 V c 2 t) := by dsimp only [dat1]

end Cert.KernelIdeal.Frame

end
-- ==== Proof.ArmaData.lean ====
/-
  The second layer's launch (the third kernel region): the first layer's output times the 64×64 layer matrix, with a zero bias row.
  One grid point per block of 5000 rows: a point reads its block of rows, the whole weight matrix and the
  bias row, and stores one block of rows of  X·W + b.  Here: the blocks a point reads (`iblk2`), what the body
  leaves in the output buffer as a function of the blocks read (`out2_3`), and the launch's bookkeeping record
  `dat2`.
-/
import proofs.«170167_j27212912788334_2_alg».proof.Proof.Gen.KernelIdeal.Launch
import proofs.«170167_j27212912788334_2_alg».proof.Proof.Gen.KernelIdeal.Skeleton
import proofs.«170167_j27212912788334_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S5000x64 := Rect.unit (s := S5000x64) ![0, 0] S5000x64.size inb_S5000x64_S5000x64_0_0
abbrev r2_w : Rect S64x64 := Rect.unit (s := S64x64) ![0, 0] S64x64.size inb_S64x64_S64x64_0_0
abbrev r2_b : Rect S1x64 := Rect.unit (s := S1x64) ![0, 0] S1x64.size inb_S1x64_S1x64_0_0
abbrev r2_out : Rect S5000x64 := Rect.unit (s := S5000x64) ![0, 0] S5000x64.size inb_S5000x64_S5000x64_0_0

/-- The output buffer after the body: its one whole-block store of the body's arithmetic on the three blocks read. -/
def out2_3 (x0 : Vec F S5000x64 .f32) (x1 : Vec F S64x64 .f32) (x2 : Vec F S1x64 .f32) : Vec F S5000x64 .f32 :=
  View.canon [⟨r2_out, k2_pay1 (View.ld x0 r2_x) (View.ld x1 r2_w) (View.ld x2 r2_b)⟩]

/-- The one store is the whole block, so it covers it. -/
theorem cover2_3 (p0 : Vec F S5000x64 .f32) (y : S5000x64.Idx) :
    ∃ pc ∈ ([⟨r2_out, p0⟩] : List (View.Piece (Elt F) S5000x64 .f32)), y ∈ pc.1.set :=
  View.cover_of_tiled [⟨r2_out, p0⟩] S5000x64.size (by rfl) y

/-- The launch's record on core `c`: arrays as found; after the body at point `t` each input buffer holds its block
    and the output buffer `out2_3` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t =
    out2_3 (iblk2 V c 0 t) (iblk2 V c 1 t) (iblk2 V c 2 t) := by dsimp only [dat2]

end Cert.KernelIdeal.Frame

end
-- ==== Proof.HeadData.lean ====
/-
  The output head's launch (the fourth kernel region): the second layer's output times the 64×64 head matrix, plus the head's bias row.
  One grid point per block of 5000 rows: a point reads its block of rows, the whole weight matrix and the
  bias row, and stores one block of rows of  X·W + b.  Here: the blocks a point reads (`iblk3`), what the body
  leaves in the output buffer as a function of the blocks read (`out3_3`), and the launch's bookkeeping record
  `dat3`.
-/
import proofs.«170167_j27212912788334_2_alg».proof.Proof.Gen.KernelIdeal.Launch
import proofs.«170167_j27212912788334_2_alg».proof.Proof.Gen.KernelIdeal.Skeleton
import proofs.«170167_j27212912788334_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_x : Rect S5000x64 := Rect.unit (s := S5000x64) ![0, 0] S5000x64.size inb_S5000x64_S5000x64_0_0
abbrev r3_w : Rect S64x64 := Rect.unit (s := S64x64) ![0, 0] S64x64.size inb_S64x64_S64x64_0_0
abbrev r3_b : Rect S1x64 := Rect.unit (s := S1x64) ![0, 0] S1x64.size inb_S1x64_S1x64_0_0
abbrev r3_out : Rect S5000x64 := Rect.unit (s := S5000x64) ![0, 0] S5000x64.size inb_S5000x64_S5000x64_0_0

/-- The output buffer after the body: its one whole-block store of the body's arithmetic on the three blocks read. -/
def out3_3 (x0 : Vec F S5000x64 .f32) (x1 : Vec F S64x64 .f32) (x2 : Vec F S1x64 .f32) : Vec F S5000x64 .f32 :=
  View.canon [⟨r3_out, k3_pay1 (View.ld x0 r3_x) (View.ld x1 r3_w) (View.ld x2 r3_b)⟩]

/-- The one store is the whole block, so it covers it. -/
theorem cover3_3 (p0 : Vec F S5000x64 .f32) (y : S5000x64.Idx) :
    ∃ pc ∈ ([⟨r3_out, p0⟩] : List (View.Piece (Elt F) S5000x64 .f32)), y ∈ pc.1.set :=
  View.cover_of_tiled [⟨r3_out, p0⟩] S5000x64.size (by rfl) y

/-- The launch's record on core `c`: arrays as found; after the body at point `t` each input buffer holds its block
    and the output buffer `out3_3` of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t =
    out3_3 (iblk3 V c 0 t) (iblk3 V c 1 t) (iblk3 V c 2 t) := by dsimp only [dat3]

end Cert.KernelIdeal.Frame

end
-- ==== Proof.RunCond.lean ====
/-
  The run of @main: its four kernel launches chained through the host operations between them.
  Between two items every unscoped buffer of the core is held whole at a named valuation: the launch memory, then
  what each host stretch computes from it, then, after a kernel launch, the same valuation with the launch's output
  array replaced by what the launch's write-backs leave in it.  Here the four replaced contents are named (`outs`),
  each launch is given as a segment entered at the valuation before it and left at the one after it, and the run
  is concluded from one hypothesis per launch (its body's obligation at every grid point): every fair execution
  terminates, the result array ends at the last valuation's contents, and every argument array ends as launched.
-/
import proofs.«170167_j27212912788334_2_alg».proof.Proof.EdgeMlpData
import proofs.«170167_j27212912788334_2_alg».proof.Proof.ProjData
import proofs.«170167_j27212912788334_2_alg».proof.Proof.ArmaData
import proofs.«170167_j27212912788334_2_alg».proof.Proof.HeadData
import proofs.«170167_j27212912788334_2_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The run from the four launches' segments, with the result array read -/

-- the launch theorem's implicit arguments are found by unifying its conclusion with this one, which takes unfolding
-- plain definitions in a metavariable's type
set_option backward.isDefEq.respectTransparency.types false in
/-- The conditional run, with the result array read as well. For any rest states `E` the launch makes on every core
    (`hE0`) and that end owing nothing (`hE4`), any contents `outs` the launches leave and any proof data: given, per
    launch, a segment entered from the thread state "every unscoped buffer at the valuation before it" and left at the
    one after it, every weakly fair execution of @main from memory `m` with zero counters terminates, the result array
    `main_v81` ends at the last valuation's contents and each argument array ends as launched. -/
theorem frame_cond_out {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V11 m outs c) ∗ E 2 c) ⊢ R2.pre c)
    (hpost2 : ∀ c : Dev nD, R2.post c ⊢ iprop(StableHlo.held (c : Thread nD τ) (Pipeline.ucRefs τ sig) (V12 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V15 m outs c) ∗ E 3 c) ⊢ R3.pre c)
    (hpost3 : ∀ c : Dev nD, R3.post c ⊢ iprop(StableHlo.held (c : Thread nD τ) (Pipeline.ucRefs τ sig) (V16 m outs c) ∗ E 4 c)) :
    θ_run defs (onTc (τ := τ) (main (F := F))) ⟨m, fun _ => 0, ρ⟩ (fun r => ∀ c : Dev nD,
      r.2.mem ((c.tc : Thread nD τ).loc main_v81) = V16 m outs c main_v81
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          StableHlo.seq hostOps3_1,
          StableHlo.seq hostOps3_2,
          Prog.lift (.customCall (Pipeline.entry 3) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V16 m outs c))
    (hch := fun c => ⟨.rfl, hpre0 c, hpost0 c, .rfl, .rfl, .rfl, .rfl, hpre1 c, hpost1 c, .rfl, .rfl, hpre2 c, hpost2 c, .rfl, .rfl, hpre3 c, (hpost3 c).trans (sep_mono .rfl (hE4 c))⟩)
    (hinit := ?_) (QY := fun c s => s.mem ((c.tc : Thread nD τ).loc main_v81) = V16 m outs c main_v81 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V16 m outs c) s') $$ [Hh HSI]
    · isplitl [Hh] <;> iassumption
    icases Hr with ⟨%h, HSI⟩
    imodintro
    isplitr
    · ipureintro
      exact ⟨h (Proc.devRef .tc main_v81) (Finset.mem_filter.mpr ⟨StableHlo.devRef_mem_tcRefs main_v81, by decide⟩),
        (h (Proc.devRef .tc main_arg0) (Finset.mem_filter.mpr ⟨StableHlo.devRef_mem_tcRefs main_arg0, by decide⟩)).trans (V16_main_arg0 m outs c),
        (h (Proc.devRef .tc main_arg1) (Finset.mem_filter.mpr ⟨StableHlo.devRef_mem_tcRefs main_arg1, by decide⟩)).trans (V16_main_arg1 m outs c),
        (h (Proc.devRef .tc main_arg2) (Finset.mem_filter.mpr ⟨StableHlo.devRef_mem_tcRefs main_arg2, by decide⟩)).trans (V16_main_arg2 m outs c),
        (h (Proc.devRef .tc main_arg3) (Finset.mem_filter.mpr ⟨StableHlo.devRef_mem_tcRefs main_arg3, by decide⟩)).trans (V16_main_arg3 m outs c),
        (h (Proc.devRef .tc main_arg4) (Finset.mem_filter.mpr ⟨StableHlo.devRef_mem_tcRefs main_arg4, by decide⟩)).trans (V16_main_arg4 m outs c),
        (h (Proc.devRef .tc main_arg5) (Finset.mem_filter.mpr ⟨StableHlo.devRef_mem_tcRefs main_arg5, by decide⟩)).trans (V16_main_arg5 m outs c),
        (h (Proc.devRef .tc main_arg6) (Finset.mem_filter.mpr ⟨StableHlo.devRef_mem_tcRefs main_arg6, by decide⟩)).trans (V16_main_arg6 m outs c),
        (h (Proc.devRef .tc main_arg7) (Finset.mem_filter.mpr ⟨StableHlo.devRef_mem_tcRefs main_arg7, by decide⟩)).trans (V16_main_arg7 m outs c),
        (h (Proc.devRef .tc main_arg8) (Finset.mem_filter.mpr ⟨StableHlo.devRef_mem_tcRefs main_arg8, by decide⟩)).trans (V16_main_arg8 m outs c),
        (h (Proc.devRef .tc main_arg9) (Finset.mem_filter.mpr ⟨StableHlo.devRef_mem_tcRefs main_arg9, by decide⟩)).trans (V16_main_arg9 m outs c),
        (h (Proc.devRef .tc main_arg10) (Finset.mem_filter.mpr ⟨StableHlo.devRef_mem_tcRefs main_arg10, by decide⟩)).trans (V16_main_arg10 m outs c),
        (h (Proc.devRef .tc main_arg11) (Finset.mem_filter.mpr ⟨StableHlo.devRef_mem_tcRefs main_arg11, by decide⟩)).trans (V16_main_arg11 m outs c),
        (h (Proc.devRef .tc main_arg12) (Finset.mem_filter.mpr ⟨StableHlo.devRef_mem_tcRefs main_arg12, by decide⟩)).trans (V16_main_arg12 m outs c),
        (h (Proc.devRef .tc main_arg13) (Finset.mem_filter.mpr ⟨StableHlo.devRef_mem_tcRefs main_arg13, by decide⟩)).trans (V16_main_arg13 m outs c),
        (h (Proc.devRef .tc main_arg14) (Finset.mem_filter.mpr ⟨StableHlo.devRef_mem_tcRefs main_arg14, by decide⟩)).trans (V16_main_arg14 m outs c)⟩
    · iexact HSI

/-! ## What the four launches leave in their output arrays -/

/-- What the edge network's launch leaves in its output array: its write-backs folded over the grid, from the contents
    the launch is entered at. -/
def o2 (c : Dev nD) : Buf (Elt F) ((c : Thread nD τ).loc main_v6) :=
  (dat0 (fun c b => Gen.V1 m c b) c).arrAt 5 cfg0.N

/-- The contents the launches leave, first stage: only the first launch's is named. -/
def outsA : Gen.Outs (F := F) := fun J r c =>
  match J with
  | 2 => Function.update (Gen.V1 m c) main_v6 (o2 m c) r
  | _ => Gen.V1 m c r

/-- What the node projection's launch leaves in its output array. -/
def o8 (c : Dev nD) : Buf (Elt F) ((c : Thread nD τ).loc main_v37) :=
  (dat1 (fun c b => Gen.V7 m (outsA m) c b) c).arrAt 3 cfg1.N

/-- Second stage: the first two launches' contents. -/
def outsB : Gen.Outs (F := F) := fun J r c =>
  match J with
  | 2 => Function.update (Gen.V1 m c) main_v6 (o2 m c) r
  | 8 => Function.update (Gen.V7 m (outsA m) c) main_v37 (o8 m c) r
  | _ => Gen.V1 m c r

/-- What the third launch leaves in its output array. -/
def o12 (c : Dev nD) : Buf (Elt F) ((c : Thread nD τ).loc main_v61) :=
  (dat2 (fun c b => Gen.V11 m (outsB m) c b) c).arrAt 3 cfg2.N

/-- Third stage: the first three launches' contents. -/
def outsC : Gen.Outs (F := F) := fun J r c =>
  match J with
  | 2 => Function.update (Gen.V1 m c) main_v6 (o2 m c) r
  | 8 => Function.update (Gen.V7 m (outsA m) c) main_v37 (o8 m c) r
  | 12 => Function.update (Gen.V11 m (outsB m) c) main_v61 (o12 m c) r
  | _ => Gen.V1 m c r

/-- What the last launch leaves in its output array, the program's result. -/
def o16 (c : Dev nD) : Buf (Elt F) ((c : Thread nD τ).loc main_v81) :=
  (dat3 (fun c b => Gen.V15 m (outsC m) c b) c).arrAt 3 cfg3.N

/-- The contents the four launches leave in their output arrays. -/
def outs : Gen.Outs (F := F) := fun J r c =>
  match J with
  | 2 => Function.update (Gen.V1 m c) main_v6 (o2 m c) r
  | 8 => Function.update (Gen.V7 m (outsA m) c) main_v37 (o8 m c) r
  | 12 => Function.update (Gen.V11 m (outsB m) c) main_v61 (o12 m c) r
  | 16 => Function.update (Gen.V15 m (outsC m) c) main_v81 (o16 m c) r
  | _ => Gen.V1 m c r

/-- A launch's entry valuation reads the contents left only at the launches before it, where the stages agree. -/
theorem V7_outs (c : Dev nD) : Gen.V7 m (outs m) c = Gen.V7 m (outsA m) c := rfl
theorem V11_outs (c : Dev nD) : Gen.V11 m (outs m) c = Gen.V11 m (outsB m) c := rfl
theorem V15_outs (c : Dev nD) : Gen.V15 m (outs m) c = Gen.V15 m (outsC m) c := rfl

theorem outs_2 (c : Dev nD) : outs m 2 main_v6 c = (dat0 (fun c b => Gen.V1 m c b) c).arrAt 5 cfg0.N :=
  Function.update_self (f := Gen.V1 m c) _ _
theorem outs_8 (c : Dev nD) : outs m 8 main_v37 c = (dat1 (fun c b => Gen.V7 m (outs m) c b) c).arrAt 3 cfg1.N :=
  Function.update_self (f := Gen.V7 m (outsA m) c) _ _
theorem outs_12 (c : Dev nD) : outs m 12 main_v61 c = (dat2 (fun c b => Gen.V11 m (outs m) c b) c).arrAt 3 cfg2.N :=
  Function.update_self (f := Gen.V11 m (outsB m) c) _ _
theorem outs_16 (c : Dev nD) : outs m 16 main_v81 c = (dat3 (fun c b => Gen.V15 m (outs m) c b) c).arrAt 3 cfg3.N :=
  Function.update_self (f := Gen.V15 m (outsC m) c) _ _

/-! ## The launches as segments -/

/-- No core owes another anything: no level is assigned. -/
abbrev runL : GSem nD τ sig → Finset Unit := fun _ => ∅
abbrev runLv : GSem nD τ sig → Unit → ℕ := fun _ _ => 0
/-- What rides beside the buffers through every item: the core's generator register at some state, and its dues, at
    nothing. -/
abbrev runRest (c : Dev nD) : sProp 𝕄 := iprop((∃ r, prngReg c r) ∗ ∃ W, owes (c : Thread nD τ) (0 : CellTallies nD τ sig Unit) W)

/-- Every launch's record, each at the valuation its launch is entered at. -/
def runDats : (p : Fin 4) → (c : Dev nD) → Dat τ (Elt F) Unit ℕ (UR sig nD τ) ℕ (cfgs p) c
  | ⟨0, _⟩ => fun c => dat0 (fun c b => Gen.V1 m c b) c
  | ⟨1, _⟩ => fun c => dat1 (fun c b => Gen.V7 m (outs m) c b) c
  | ⟨2, _⟩ => fun c => dat2 (fun c b => Gen.V11 m (outs m) c b) c
  | ⟨3, _⟩ => fun c => dat3 (fun c b => Gen.V15 m (outs m) c b) c

/-! At a launch's exit each of its arrays holds what the launch leaves (an input array what it held, the output array
    the named contents) and every other buffer what it held at entry. -/

theorem hF0 (c : Dev nD) : ∀ w : Fin cfg0.W, (dat0 (fun c b => Gen.V1 m c b) c).arrAt w cfg0.N = Gen.V2 m (outs m) c (Pipeline.arrRef spec0 w)
  | 0 => (((dat0 (fun c b => Gen.V1 m c b) c).arrAt_in 0 rfl cfg0.N).trans (A_eq0 (fun c b => Gen.V1 m c b) c 0)).trans (Gen.V2_of m (outs m) c main_arg2 (by decide)).symm
  | 1 => (((dat0 (fun c b => Gen.V1 m c b) c).arrAt_in 1 rfl cfg0.N).trans (A_eq0 (fun c b => Gen.V1 m c b) c 1)).trans (Gen.V2_of m (outs m) c main_arg3 (by decide)).symm
  | 2 => (((dat0 (fun c b => Gen.V1 m c b) c).arrAt_in 2 rfl cfg0.N).trans (A_eq0 (fun c b => Gen.V1 m c b) c 2)).trans (Gen.V2_of m (outs m) c main_v4 (by decide)).symm
  | 3 => (((dat0 (fun c b => Gen.V1 m c b) c).arrAt_in 3 rfl cfg0.N).trans (A_eq0 (fun c b => Gen.V1 m c b) c 3)).trans (Gen.V2_of m (outs m) c main_arg5 (by decide)).symm
  | 4 => (((dat0 (fun c b => Gen.V1 m c b) c).arrAt_in 4 rfl cfg0.N).trans (A_eq0 (fun c b => Gen.V1 m c b) c 4)).trans (Gen.V2_of m (outs m) c main_v5 (by decide)).symm
  | 5 => (outs_2 m c).symm.trans (Function.update_self (f := Gen.V1 m c) _ _).symm
  | ⟨_ + 6, h⟩ => absurd h (Nat.not_lt.2 (Nat.le_add_left _ _))
theorem hrest0 (c : Dev nD) : ∀ b, b ∉ Finset.univ.image (Pipeline.arrRef spec0) → Gen.V2 m (outs m) c b = Gen.V1 m c b :=
  fun b hb => Gen.V2_of m (outs m) c b fun hmem => hb (Finset.mem_image.mpr ⟨5, Finset.mem_univ _, by
    have e := List.mem_singleton.mp hmem; subst e; exact rfl⟩)

theorem hF1 (c : Dev nD) : ∀ w : Fin cfg1.W, (dat1 (fun c b => Gen.V7 m (outs m) c b) c).arrAt w cfg1.N = Gen.V8 m (outs m) c (Pipeline.arrRef spec1 w)
  | 0 => (((dat1 (fun c b => Gen.V7 m (outs m) c b) c).arrAt_in 0 rfl cfg1.N).trans (A_eq1 (fun c b => Gen.V7 m (outs m) c b) c 0)).trans (Gen.V8_of m (outs m) c main_arg0 (by decide)).symm
  | 1 => (((dat1 (fun c b => Gen.V7 m (outs m) c b) c).arrAt_in 1 rfl cfg1.N).trans (A_eq1 (fun c b => Gen.V7 m (outs m) c b) c 1)).trans (Gen.V8_of m (outs m) c main_v34 (by decide)).symm
  | 2 => (((dat1 (fun c b => Gen.V7 m (outs m) c b) c).arrAt_in 2 rfl cfg1.N).trans (A_eq1 (fun c b => Gen.V7 m (outs m) c b) c 2)).trans (Gen.V8_of m (outs m) c main_v36 (by decide)).symm
  | 3 => (outs_8 m c).symm.trans (Function.update_self (f := Gen.V7 m (outs m) c) _ _).symm
  | ⟨_ + 4, h⟩ => absurd h (Nat.not_lt.2 (Nat.le_add_left _ _))
theorem hrest1 (c : Dev nD) : ∀ b, b ∉ Finset.univ.image (Pipeline.arrRef spec1) → Gen.V8 m (outs m) c b = Gen.V7 m (outs m) c b :=
  fun b hb => Gen.V8_of m (outs m) c b fun hmem => hb (Finset.mem_image.mpr ⟨3, Finset.mem_univ _, by
    have e := List.mem_singleton.mp hmem; subst e; exact rfl⟩)

theorem hF2 (c : Dev nD) : ∀ w : Fin cfg2.W, (dat2 (fun c b => Gen.V11 m (outs m) c b) c).arrAt w cfg2.N = Gen.V12 m (outs m) c (Pipeline.arrRef spec2 w)
  | 0 => (((dat2 (fun c b => Gen.V11 m (outs m) c b) c).arrAt_in 0 rfl cfg2.N).trans (A_eq2 (fun c b => Gen.V11 m (outs m) c b) c 0)).trans (Gen.V12_of m (outs m) c main_v58 (by decide)).symm
  | 1 => (((dat2 (fun c b => Gen.V11 m (outs m) c b) c).arrAt_in 1 rfl cfg2.N).trans (A_eq2 (fun c b => Gen.V11 m (outs m) c b) c 1)).trans (Gen.V12_of m (outs m) c main_arg8 (by decide)).symm
  | 2 => (((dat2 (fun c b => Gen.V11 m (outs m) c b) c).arrAt_in 2 rfl cfg2.N).trans (A_eq2 (fun c b => Gen.V11 m (outs m) c b) c 2)).trans (Gen.V12_of m (outs m) c main_v60 (by decide)).symm
  | 3 => (outs_12 m c).symm.trans (Function.update_self (f := Gen.V11 m (outs m) c) _ _).symm
  | ⟨_ + 4, h⟩ => absurd h (Nat.not_lt.2 (Nat.le_add_left _ _))
theorem hrest2 (c : Dev nD) : ∀ b, b ∉ Finset.univ.image (Pipeline.arrRef spec2) → Gen.V12 m (outs m) c b = Gen.V11 m (outs m) c b :=
  fun b hb => Gen.V12_of m (outs m) c b fun hmem => hb (Finset.mem_image.mpr ⟨3, Finset.mem_univ _, by
    have e := List.mem_singleton.mp hmem; subst e; exact rfl⟩)

theorem hF3 (c : Dev nD) : ∀ w : Fin cfg3.W, (dat3 (fun c b => Gen.V15 m (outs m) c b) c).arrAt w cfg3.N = Gen.V16 m (outs m) c (Pipeline.arrRef spec3 w)
  | 0 => (((dat3 (fun c b => Gen.V15 m (outs m) c b) c).arrAt_in 0 rfl cfg3.N).trans (A_eq3 (fun c b => Gen.V15 m (outs m) c b) c 0)).trans (Gen.V16_of m (outs m) c main_v79 (by decide)).symm
  | 1 => (((dat3 (fun c b => Gen.V15 m (outs m) c b) c).arrAt_in 1 rfl cfg3.N).trans (A_eq3 (fun c b => Gen.V15 m (outs m) c b) c 1)).trans (Gen.V16_of m (outs m) c main_arg13 (by decide)).symm
  | 2 => (((dat3 (fun c b => Gen.V15 m (outs m) c b) c).arrAt_in 2 rfl cfg3.N).trans (A_eq3 (fun c b => Gen.V15 m (outs m) c b) c 2)).trans (Gen.V16_of m (outs m) c main_v80 (by decide)).symm
  | 3 => (outs_16 m c).symm.trans (Function.update_self (f := Gen.V15 m (outs m) c) _ _).symm
  | ⟨_ + 4, h⟩ => absurd h (Nat.not_lt.2 (Nat.le_add_left _ _))
theorem hrest3 (c : Dev nD) : ∀ b, b ∉ Finset.univ.image (Pipeline.arrRef spec3) → Gen.V16 m (outs m) c b = Gen.V15 m (outs m) c b :=
  fun b hb => Gen.V16_of m (outs m) c b fun hmem => hb (Finset.mem_image.mpr ⟨3, Finset.mem_univ _, by
    have e := List.mem_singleton.mp hmem; subst e; exact rfl⟩)

-- a library lemma stated over the pinned configuration unifies with the printed one only when unification may unfold
-- plain definitions in a metavariable's type
set_option backward.isDefEq.respectTransparency.types false in
set_option maxHeartbeats 1600000 in
/-- Launch 0 as a segment: entered with every unscoped buffer at the valuation before it, left with them at the one
    after it. Its arrays are split out of the unscoped buffers and put back at what the launch leaves; the generator
    register goes into the launch's invariant and comes back; nothing is owed; the kernel has no semaphore of its own. -/
def runReg0
    (hb : ∀ (V : (c : Dev nD) → (b : Ref sig .tc) → Buf (Elt F) ((c : Thread nD τ).loc b)) (c : Dev nD),
      BodyObligation (dat0 (F := F) V c) (defs₀ (F := F)) Variants.none () Set.univ) :
    RegionSeg (pcfgs (F := F)) Gen.adm (runDats m) () defs₀ Variants.none runL runLv 0 where
  win := launch0.win.to₀
  block_pos := launch0.block_pos
  stage_whole := launch0.stage_whole
  K := PEmpty
  osem k := k.elim
  ho := Pipeline.OwnSemFacts.none _
  hbody c := (hb (fun c b => Gen.V1 m c b) c).loose
  hwaits := Pipeline.hwaits_of_owed_zero _ _ _ _ runL runLv 0 fun _ _ => rfl
  pre c := iprop(StableHlo.held (c : Thread nD τ) (Pipeline.ucRefs τ sig) (Gen.V1 m c) ∗ runRest c)
  post c := iprop(StableHlo.held (c : Thread nD τ) (Pipeline.ucRefs τ sig) (Gen.V2 m (outs m) c) ∗ runRest c)
  X c := iprop(∃ r, prngReg c r)
  Y c := iprop(∃ r, prngReg c r)
  Z c := Pipeline.unscopedRest (Ix := Unit) (Name := ℕ) (U := UR sig nD τ) (Lvl := ℕ) spec0 c (fun b => Gen.V1 m c b)
  hentry c := by
    rw [Pipeline.ownSems0_none]
    have hsplit := Pipeline.arrays_of_unscopedBufs (p := 0) (pcfgs (F := F)) Gen.adm (runDats m) launch0.win launch0.arr_whole c
      ((runDats m 0 c).share_full fun _ => rfl) (fun b => Gen.V1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (runDats m 0 c).Φ 0 = Pipeline.ΦA spec0 c from rfl]; unfold Pipeline.ΦA
    iintro ⟨Hp, -, Hr⟩
    isplitl [Hr]; · iexact Hr
    iexact Hp
  hout c := by
    rw [Pipeline.ownSems0_none, show (runDats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (runDats m) ((runDats m 0 c).share_full fun _ => rfl)
      (fun b => Gen.V1 m c b) (fun b => Gen.V2 m (outs m) c b) ((runDats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
set_option maxHeartbeats 1600000 in
/-- Launch 1 as a segment: entered with every unscoped buffer at the valuation before it, left with them at the one
    after it. Its arrays are split out of the unscoped buffers and put back at what the launch leaves; the generator
    register goes into the launch's invariant and comes back; nothing is owed; the kernel has no semaphore of its own. -/
def runReg1
    (hb : ∀ (V : (c : Dev nD) → (b : Ref sig .tc) → Buf (Elt F) ((c : Thread nD τ).loc b)) (c : Dev nD),
      BodyObligation (dat1 (F := F) V c) (defs₀ (F := F)) Variants.none () Set.univ) :
    RegionSeg (pcfgs (F := F)) Gen.adm (runDats m) () defs₀ Variants.none runL runLv 1 where
  win := launch1.win.to₀
  block_pos := launch1.block_pos
  stage_whole := launch1.stage_whole
  K := PEmpty
  osem k := k.elim
  ho := Pipeline.OwnSemFacts.none _
  hbody c := (hb (fun c b => Gen.V7 m (outs m) c b) c).loose
  hwaits := Pipeline.hwaits_of_owed_zero _ _ _ _ runL runLv 1 fun _ _ => rfl
  pre c := iprop(StableHlo.held (c : Thread nD τ) (Pipeline.ucRefs τ sig) (Gen.V7 m (outs m) c) ∗ runRest c)
  post c := iprop(StableHlo.held (c : Thread nD τ) (Pipeline.ucRefs τ sig) (Gen.V8 m (outs m) c) ∗ runRest c)
  X c := iprop(∃ r, prngReg c r)
  Y c := iprop(∃ r, prngReg c r)
  Z c := Pipeline.unscopedRest (Ix := Unit) (Name := ℕ) (U := UR sig nD τ) (Lvl := ℕ) spec1 c (fun b => Gen.V7 m (outs m) c b)
  hentry c := by
    rw [Pipeline.ownSems0_none]
    have hsplit := Pipeline.arrays_of_unscopedBufs (p := 1) (pcfgs (F := F)) Gen.adm (runDats m) launch1.win launch1.arr_whole c
      ((runDats m 1 c).share_full fun _ => rfl) (fun b => Gen.V7 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (runDats m 1 c).Φ 0 = Pipeline.ΦA spec1 c from rfl]; unfold Pipeline.ΦA
    iintro ⟨Hp, -, Hr⟩
    isplitl [Hr]; · iexact Hr
    iexact Hp
  hout c := by
    rw [Pipeline.ownSems0_none, show (runDats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (runDats m) ((runDats m 1 c).share_full fun _ => rfl)
      (fun b => Gen.V7 m (outs m) c b) (fun b => Gen.V8 m (outs m) c b) ((runDats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
set_option maxHeartbeats 1600000 in
/-- Launch 2 as a segment: entered with every unscoped buffer at the valuation before it, left with them at the one
    after it. Its arrays are split out of the unscoped buffers and put back at what the launch leaves; the generator
    register goes into the launch's invariant and comes back; nothing is owed; the kernel has no semaphore of its own. -/
def runReg2
    (hb : ∀ (V : (c : Dev nD) → (b : Ref sig .tc) → Buf (Elt F) ((c : Thread nD τ).loc b)) (c : Dev nD),
      BodyObligation (dat2 (F := F) V c) (defs₀ (F := F)) Variants.none () Set.univ) :
    RegionSeg (pcfgs (F := F)) Gen.adm (runDats m) () defs₀ Variants.none runL runLv 2 where
  win := launch2.win.to₀
  block_pos := launch2.block_pos
  stage_whole := launch2.stage_whole
  K := PEmpty
  osem k := k.elim
  ho := Pipeline.OwnSemFacts.none _
  hbody c := (hb (fun c b => Gen.V11 m (outs m) c b) c).loose
  hwaits := Pipeline.hwaits_of_owed_zero _ _ _ _ runL runLv 2 fun _ _ => rfl
  pre c := iprop(StableHlo.held (c : Thread nD τ) (Pipeline.ucRefs τ sig) (Gen.V11 m (outs m) c) ∗ runRest c)
  post c := iprop(StableHlo.held (c : Thread nD τ) (Pipeline.ucRefs τ sig) (Gen.V12 m (outs m) c) ∗ runRest c)
  X c := iprop(∃ r, prngReg c r)
  Y c := iprop(∃ r, prngReg c r)
  Z c := Pipeline.unscopedRest (Ix := Unit) (Name := ℕ) (U := UR sig nD τ) (Lvl := ℕ) spec2 c (fun b => Gen.V11 m (outs m) c b)
  hentry c := by
    rw [Pipeline.ownSems0_none]
    have hsplit := Pipeline.arrays_of_unscopedBufs (p := 2) (pcfgs (F := F)) Gen.adm (runDats m) launch2.win launch2.arr_whole c
      ((runDats m 2 c).share_full fun _ => rfl) (fun b => Gen.V11 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (runDats m 2 c).Φ 0 = Pipeline.ΦA spec2 c from rfl]; unfold Pipeline.ΦA
    iintro ⟨Hp, -, Hr⟩
    isplitl [Hr]; · iexact Hr
    iexact Hp
  hout c := by
    rw [Pipeline.ownSems0_none, show (runDats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (runDats m) ((runDats m 2 c).share_full fun _ => rfl)
      (fun b => Gen.V11 m (outs m) c b) (fun b => Gen.V12 m (outs m) c b) ((runDats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
set_option maxHeartbeats 1600000 in
/-- Launch 3 as a segment: entered with every unscoped buffer at the valuation before it, left with them at the one
    after it. Its arrays are split out of the unscoped buffers and put back at what the launch leaves; the generator
    register goes into the launch's invariant and comes back; nothing is owed; the kernel has no semaphore of its own. -/
def runReg3
    (hb : ∀ (V : (c : Dev nD) → (b : Ref sig .tc) → Buf (Elt F) ((c : Thread nD τ).loc b)) (c : Dev nD),
      BodyObligation (dat3 (F := F) V c) (defs₀ (F := F)) Variants.none () Set.univ) :
    RegionSeg (pcfgs (F := F)) Gen.adm (runDats m) () defs₀ Variants.none runL runLv 3 where
  win := launch3.win.to₀
  block_pos := launch3.block_pos
  stage_whole := launch3.stage_whole
  K := PEmpty
  osem k := k.elim
  ho := Pipeline.OwnSemFacts.none _
  hbody c := (hb (fun c b => Gen.V15 m (outs m) c b) c).loose
  hwaits := Pipeline.hwaits_of_owed_zero _ _ _ _ runL runLv 3 fun _ _ => rfl
  pre c := iprop(StableHlo.held (c : Thread nD τ) (Pipeline.ucRefs τ sig) (Gen.V15 m (outs m) c) ∗ runRest c)
  post c := iprop(StableHlo.held (c : Thread nD τ) (Pipeline.ucRefs τ sig) (Gen.V16 m (outs m) c) ∗ runRest c)
  X c := iprop(∃ r, prngReg c r)
  Y c := iprop(∃ r, prngReg c r)
  Z c := Pipeline.unscopedRest (Ix := Unit) (Name := ℕ) (U := UR sig nD τ) (Lvl := ℕ) spec3 c (fun b => Gen.V15 m (outs m) c b)
  hentry c := by
    rw [Pipeline.ownSems0_none]
    have hsplit := Pipeline.arrays_of_unscopedBufs (p := 3) (pcfgs (F := F)) Gen.adm (runDats m) launch3.win launch3.arr_whole c
      ((runDats m 3 c).share_full fun _ => rfl) (fun b => Gen.V15 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (runDats m 3 c).Φ 0 = Pipeline.ΦA spec3 c from rfl]; unfold Pipeline.ΦA
    iintro ⟨Hp, -, Hr⟩
    isplitl [Hr]; · iexact Hr
    iexact Hp
  hout c := by
    rw [Pipeline.ownSems0_none, show (runDats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (runDats m) ((runDats m 3 c).share_full fun _ => rfl)
      (fun b => Gen.V15 m (outs m) c b) (fun b => Gen.V16 m (outs m) c b) ((runDats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- THE RUN. Given each launch's body obligation at every entry valuation, every weakly fair execution of @main from
    memory `m` with zero counters terminates; the result array `main_v81` ends holding what the last launch leaves
    in it (the last valuation at `main_v81`), and every argument array ends as launched. -/
theorem run_of_bodies
    (hb0 : ∀ (V : (c : Dev nD) → (b : Ref sig .tc) → Buf (Elt F) ((c : Thread nD τ).loc b)) (c : Dev nD),
      BodyObligation (dat0 (F := F) V c) (defs₀ (F := F)) Variants.none () Set.univ)
    (hb1 : ∀ (V : (c : Dev nD) → (b : Ref sig .tc) → Buf (Elt F) ((c : Thread nD τ).loc b)) (c : Dev nD),
      BodyObligation (dat1 (F := F) V c) (defs₀ (F := F)) Variants.none () Set.univ)
    (hb2 : ∀ (V : (c : Dev nD) → (b : Ref sig .tc) → Buf (Elt F) ((c : Thread nD τ).loc b)) (c : Dev nD),
      BodyObligation (dat2 (F := F) V c) (defs₀ (F := F)) Variants.none () Set.univ)
    (hb3 : ∀ (V : (c : Dev nD) → (b : Ref sig .tc) → Buf (Elt F) ((c : Thread nD τ).loc b)) (c : Dev nD),
      BodyObligation (dat3 (F := F) V c) (defs₀ (F := F)) Variants.none () Set.univ)
    (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v81) = Gen.V16 m (outs m) c main_v81
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  refine frame_cond_out m emb₁ () Variants.none runL runLv (fun _ _ => rfl) ρ (outs m) (runDats m)
    (O₀ := 0) (G := fun _ => iprop(emp))
    (u₀ := initOf (Pipeline.cells cfgs cellOf_inj) (Pipeline.launchToks cfgs cellOf_inj))
    (hu₀ := ?_) (E := fun _ c => runRest c) (hE0 := ?_) (hE4 := ?_)
    (runReg0 m hb0) (fun c => .rfl) (fun c => .rfl)
    (runReg1 m hb1) (fun c => .rfl) (fun c => .rfl)
    (runReg2 m hb2) (fun c => .rfl) (fun c => .rfl)
    (runReg3 m hb3) (fun c => .rfl) (fun c => .rfl)
  · -- the launch element is the library's at the staging cells; no ghost resource is needed
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- each core keeps its generator register and its dues, at nothing, out of what the launch deals it
    refine Pipeline.initEach runL runLv fun c => ?_
    iintro ⟨⟨-, HO, -, Hp, -⟩, -⟩
    imodintro
    isplitl [Hp]; · iexists _; iexact Hp
    iexists ∅; iexact HO
  · intro c
    iintro ⟨-, HO⟩
    iexact HO

end Cert.KernelIdeal.Frame

end
-- ==== Proof.EdgeMlpBody.lean ====
/-
  The edge network's launch (the first kernel region): the body.
  Each of the five input windows' staging buffers holds, at every grid point, that point's block of its array,
  whether or not the pipeline fetched it there (the edge-feature block is fetched at every point; the two weight
  matrices and the two biases have a constant block index, are fetched at the first point only, and the body leaves
  them in place).  The kernel body, run on whole staging buffers holding blocks `x0 … x4`, leaves the inputs as
  they were and the output buffer at `out0_5 x0 x1 x2 x3 x4`: it loads the five blocks whole, loads the output
  block (the value is unused), and stores one whole-block payload.  From these, the launch's body obligation.
-/
import proofs.«170167_j27212912788334_2_alg».proof.Proof.EdgeMlpData

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the body finds in each input window's buffer -/

/-- The edge-feature window's current staging buffer holds its block at every point, for any record whose array is `V`'s (`hA`) and whose body leaves the block in place (`hafter`): the window is an input, uncut and never idle, so whether fetched at the point or not (then its block index has not moved) the buffer holds what a fetch there would put in it, which is the block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the first weight matrix (constant block index: fetched at the first point only, unmoved afterwards). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for the first bias row. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The same for the second weight matrix. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The same for the second bias. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Each input's current staging buffer holds its block at every point of the launch's record. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body's triple -/

set_option maxHeartbeats 1000000 in
/-- The kernel body on whole staging buffers, the five inputs' reading `x0 … x4` and the output's holding anything,
    runs to the continuation with the inputs as they were and the output's at `out0_5 x0 x1 x2 x3 x4`: five whole-block
    loads, a load of the output block whose value is unused, and one whole-block store, which covers the buffer. -/
theorem sound_kernel0 (c : Dev nD) (E : Set ℕ) (i : grid0.Coords)
    (arg1 : Memref sig .tc .vmem S12800x16 .f32) (harg1 : arg1.IsWhole) (arg2 : Memref sig .tc .vmem S16x64 .f32) (harg2 : arg2.IsWhole)
    (arg3 : Memref sig .tc .vmem S1x64 .f32) (harg3 : arg3.IsWhole) (arg4 : Memref sig .tc .vmem S64x1 .f32) (harg4 : arg4.IsWhole)
    (arg5 : Memref sig .tc .vmem S1x1 .f32) (harg5 : arg5.IsWhole) (arg6 : Memref sig .tc .vmem S12800x1 .f32) (harg6 : arg6.IsWhole)
    (x0 : Vec F S12800x16 .f32) (x1 : Vec F S16x64 .f32) (x2 : Vec F S1x64 .f32) (x3 : Vec F S64x1 .f32) (x4 : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__edge_mlp_kernel i arg1 harg1 arg2 harg2 arg3 harg3 arg4 harg4 arg5 harg5 arg6 harg6) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The body obligation, at a generic point -/

/-- What the body is called with at point `t`: the launch invariant, what the core owes, and each window's current
    staging buffer at what the record says the body finds there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks (`before0_W`), so `sound_kernel0` applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.ProjBody.lean ====
/-
  The body of the node projection's launch (the linear kernel  X·W + b  on blocks of 5000 rows, at S5000x128 · S128x192 + S1x192).
  At every grid point each input window's staging buffer holds that window's block — the rows' block is fetched at
  every point; the weight matrix and the bias row have a constant block index, are fetched at the first point only,
  and stay in place afterwards (`before1_w`). On those contents the body reads its three inputs, reads the output
  buffer without using the value, and stores one whole block: the output buffer ends at `out1_3` of the blocks read
  (`sound_kernel1`). Put together at a generic point, this is the launch's body obligation (`body_obligation1`).
-/
import proofs.«170167_j27212912788334_2_alg».proof.Proof.ProjData

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Input window 0's current staging buffer holds its block at every point, whether or not it was fetched there
    (where it was not, its block index has not moved since the point before), for any record whose array is the
    entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d

/-- Input window 1's current staging buffer holds its block at every point, whether or not it was fetched there
    (where it was not, its block index has not moved since the point before), for any record whose array is the
    entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_1 (c : Dev nD) (t : Fin cfg1.N) (d) : (dat1 V c).before 1 t d = iblk1 V c 1 t :=
  before1_1_of V (dat1 V c) (A_eq1 V c 1) (after1_1 V c) t d

/-- Input window 2's current staging buffer holds its block at every point, whether or not it was fetched there
    (where it was not, its block index has not moved since the point before), for any record whose array is the
    entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_2 (c : Dev nD) (t : Fin cfg1.N) (d) : (dat1 V c).before 2 t d = iblk1 V c 2 t :=
  before1_2_of V (dat1 V c) (A_eq1 V c 2) (after1_2 V c) t d

set_option maxHeartbeats 1000000 in
/-- The linear kernel's body on whole staging buffers, the three inputs at read contents `x0 x1 x2` and the output at
    anything: it reads the three inputs whole, reads the output buffer (the value is not used), and stores one whole
    block, so it runs to the continuation with the inputs as they were and the output at `out1_3 x0 x1 x2`. The
    body is its skeleton of memory operations; the one store covers the block. -/
theorem sound_kernel1 (c : Dev nD) (E : Set ℕ) (i : grid1.Coords) (arg1 : Memref sig .tc .vmem S5000x128 .f32) (harg1 : arg1.IsWhole) (arg2 : Memref sig .tc .vmem S128x192 .f32) (harg2 : arg2.IsWhole) (arg3 : Memref sig .tc .vmem S1x192 .f32) (harg3 : arg3.IsWhole) (arg4 : Memref sig .tc .vmem S5000x192 .f32) (harg4 : arg4.IsWhole)
    (x0 : Vec F S5000x128 .f32) (x1 : Vec F S128x192 .f32) (x2 : Vec F S1x192 .f32) (K' : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K' ⟨⟩))
      ⊢ wp frame (wpE (defs₀ (F := F)) Variants.none c none) E (cc1__linear_kernel i arg1 harg1 arg2 harg2 arg3 harg3 arg4 harg4) K' := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- What the body is called with at point `t`: the invariant, what the core owes, and each window's current staging
    buffer at what the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What the body returns at point `t`: the same, each staging buffer at what the record says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the three input buffers hold their blocks, so the kernel's triple applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.ArmaBody.lean ====
/-
  The body of the ARMA layer's linear map's launch (the linear kernel  X·W + b  on blocks of 5000 rows, at S5000x64 · S64x64 + S1x64).
  At every grid point each input window's staging buffer holds that window's block — the rows' block is fetched at
  every point; the weight matrix and the bias row have a constant block index, are fetched at the first point only,
  and stay in place afterwards (`before2_w`). On those contents the body reads its three inputs, reads the output
  buffer without using the value, and stores one whole block: the output buffer ends at `out2_3` of the blocks read
  (`sound_kernel2`). Put together at a generic point, this is the launch's body obligation (`body_obligation2`).
-/
import proofs.«170167_j27212912788334_2_alg».proof.Proof.ArmaData

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Input window 0's current staging buffer holds its block at every point, whether or not it was fetched there
    (where it was not, its block index has not moved since the point before), for any record whose array is the
    entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d

/-- Input window 1's current staging buffer holds its block at every point, whether or not it was fetched there
    (where it was not, its block index has not moved since the point before), for any record whose array is the
    entry contents and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_1 (c : Dev nD) (t : Fin cfg2.N) (d) : (dat2 V c).before 1 t d = iblk2 V c 1 t :=
  before2_1_of V (dat2 V c) (A_eq2 V c 1) (after2_1 V c) t d

/-- Input window 2's current staging buffer holds its block at every point, whether or not it was fetched there
    (where it was not, its block index has not moved since the point before), for any record whose array is the
    entry contents and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_2 (c : Dev nD) (t : Fin cfg2.N) (d) : (dat2 V c).before 2 t d = iblk2 V c 2 t :=
  before2_2_of V (dat2 V c) (A_eq2 V c 2) (after2_2 V c) t d

set_option maxHeartbeats 1000000 in
/-- The linear kernel's body on whole staging buffers, the three inputs at read contents `x0 x1 x2` and the output at
    anything: it reads the three inputs whole, reads the output buffer (the value is not used), and stores one whole
    block, so it runs to the continuation with the inputs as they were and the output at `out2_3 x0 x1 x2`. The
    body is its skeleton of memory operations; the one store covers the block. -/
theorem sound_kernel2 (c : Dev nD) (E : Set ℕ) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole)
    (x0 : Vec F S5000x64 .f32) (x1 : Vec F S64x64 .f32) (x2 : Vec F S1x64 .f32) (K' : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K' ⟨⟩))
      ⊢ wp frame (wpE (defs₀ (F := F)) Variants.none c none) E (cc2__linear_kernel i arg1 harg1 arg2 harg2 arg3 harg3 arg4 harg4) K' := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- What the body is called with at point `t`: the invariant, what the core owes, and each window's current staging
    buffer at what the pipeline left in it. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What the body returns at point `t`: the same, each staging buffer at what the record says the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the three input buffers hold their blocks, so the kernel's triple applies; the invariant
    and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frame

end
-- ==== Proof.HeadBody.lean ====
/-
  The body of the output head's linear map's launch (the linear kernel  X·W + b  on blocks of 5000 rows, at S5000x64 · S64x64 + S1x64).
  At every grid point each input window's staging buffer holds that window's block — the rows' block is fetched at
  every point; the weight matrix and the bias row have a constant block index, are fetched at the first point only,
  and stay in place afterwards (`before3_w`). On those contents the body reads its three inputs, reads the output
  buffer without using the value, and stores one whole block: the output buffer ends at `out3_3` of the blocks read
  (`sound_kernel3`). Put together at a generic point, this is the launch's body obligation (`body_obligation3`).
-/
import proofs.«170167_j27212912788334_2_alg».proof.Proof.HeadData

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Input window 0's current staging buffer holds its block at every point, whether or not it was fetched there
    (where it was not, its block index has not moved since the point before), for any record whose array is the
    entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d

/-- Input window 1's current staging buffer holds its block at every point, whether or not it was fetched there
    (where it was not, its block index has not moved since the point before), for any record whose array is the
    entry contents and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_1 (c : Dev nD) (t : Fin cfg3.N) (d) : (dat3 V c).before 1 t d = iblk3 V c 1 t :=
  before3_1_of V (dat3 V c) (A_eq3 V c 1) (after3_1 V c) t d

/-- Input window 2's current staging buffer holds its block at every point, whether or not it was fetched there
    (where it was not, its block index has not moved since the point before), for any record whose array is the
    entry contents and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_2 (c : Dev nD) (t : Fin cfg3.N) (d) : (dat3 V c).before 2 t d = iblk3 V c 2 t :=
  before3_2_of V (dat3 V c) (A_eq3 V c 2) (after3_2 V c) t d

set_option maxHeartbeats 1000000 in
/-- The linear kernel's body on whole staging buffers, the three inputs at read contents `x0 x1 x2` and the output at
    anything: it reads the three inputs whole, reads the output buffer (the value is not used), and stores one whole
    block, so it runs to the continuation with the inputs as they were and the output at `out3_3 x0 x1 x2`. The
    body is its skeleton of memory operations; the one store covers the block. -/
theorem sound_kernel3 (c : Dev nD) (E : Set ℕ) (i : grid3.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole)
    (x0 : Vec F S5000x64 .f32) (x1 : Vec F S64x64 .f32) (x2 : Vec F S1x64 .f32) (K' : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K' ⟨⟩))
      ⊢ wp frame (wpE (defs₀ (F := F)) Variants.none c none) E (cc3__linear_kernel i arg1 harg1 arg2 harg2 arg3 harg3 arg4 harg4) K' := by
  simp only [cc3__linear_kernel_eq_skeleton]; unfold cc3__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- What the body is called with at point `t`: the invariant, what the core owes, and each window's current staging
    buffer at what the pipeline left in it. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- What the body returns at point `t`: the same, each staging buffer at what the record says the body leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the three input buffers hold their blocks, so the kernel's triple applies; the invariant
    and what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Frame

end
-- ==== Proof.Run.lean ====
/-
  The run of @main, unconditionally: each of the four launches' bodies meets its obligation at every grid point, so
  every weakly fair execution of @main terminates with the result buffer holding what the last region leaves in it
  and every argument array as launched (`run`); forgetting the result buffer leaves the frame claim (`frame`).
-/
import proofs.«170167_j27212912788334_2_alg».proof.Proof.RunCond
import proofs.«170167_j27212912788334_2_alg».proof.Proof.EdgeMlpBody
import proofs.«170167_j27212912788334_2_alg».proof.Proof.ProjBody
import proofs.«170167_j27212912788334_2_alg».proof.Proof.ArmaBody
import proofs.«170167_j27212912788334_2_alg».proof.Proof.HeadBody

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

/-- Every weakly fair execution of @main from the launch memory `m` terminates; on every core the result array ends at
    what the last region's write-backs leave in it, and every argument array ends as launched. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v81) = Gen.V16 m (outs m) c main_v81
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  run_of_bodies (fun V c => body_obligation0 V c) (fun V c => body_obligation1 V c)
    (fun V c => body_obligation2 V c) (fun V c => body_obligation3 V c) m ρ

/-- The frame claim: every weakly fair execution of @main terminates with every argument array as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => (h c).2) (run m ρ)

end Cert.KernelIdeal.Frame

end
-- ==== Proof.KEdgeMlpData.lean ====
/-
  The edge network's launch (the first kernel region): one grid point per block of 12800 edges.
  A point reads its 12800×16 block of edge features and the whole of the two weight matrices and the two
  biases, and stores one 12800×1 block: relu(relu(e·W1 + b1)·W2 + b2).  Here: the blocks a point reads
  (`iblk0`), what the body leaves in the output buffer as a function of the blocks read (`out0_5`), and the
  launch's bookkeeping record `dat0` (arrays as the region finds them; inputs left in place; the output buffer at
  `out0_5` of the blocks read).
-/
import proofs.«170167_j27212912788334_2_alg».proof.Proof.Gen.Kernel.Launch
import proofs.«170167_j27212912788334_2_alg».proof.Proof.Gen.Kernel.Skeleton
import proofs.«170167_j27212912788334_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_ea : Rect S12800x16 := Rect.unit (s := S12800x16) ![0, 0] S12800x16.size inb_S12800x16_S12800x16_0_0
abbrev r0_w1 : Rect S16x64 := Rect.unit (s := S16x64) ![0, 0] S16x64.size inb_S16x64_S16x64_0_0
abbrev r0_b1 : Rect S1x64 := Rect.unit (s := S1x64) ![0, 0] S1x64.size inb_S1x64_S1x64_0_0
abbrev r0_w2 : Rect S64x1 := Rect.unit (s := S64x1) ![0, 0] S64x1.size inb_S64x1_S64x1_0_0
abbrev r0_b2 : Rect S1x1 := Rect.unit (s := S1x1) ![0, 0] S1x1.size inb_S1x1_S1x1_0_0
abbrev r0_out : Rect S12800x1 := Rect.unit (s := S12800x1) ![0, 0] S12800x1.size inb_S12800x1_S12800x1_0_0

/-- The output buffer after the body: its one whole-block store of the body's arithmetic on the five blocks read. -/
def out0_5 (x0 : Vec F S12800x16 .f32) (x1 : Vec F S16x64 .f32) (x2 : Vec F S1x64 .f32) (x3 : Vec F S64x1 .f32) (x4 : Vec F S1x1 .f32) : Vec F S12800x1 .f32 :=
  View.canon [⟨r0_out, k0_pay1 (View.ld x0 r0_ea) (View.ld x1 r0_w1) (View.ld x2 r0_b1) (View.ld x3 r0_w2) (View.ld x4 r0_b2)⟩]

/-- The one store is the whole block, so it covers it. -/
theorem cover0_5 (p0 : Vec F S12800x1 .f32) (y : S12800x1.Idx) :
    ∃ pc ∈ ([⟨r0_out, p0⟩] : List (View.Piece (Elt F) S12800x1 .f32)), y ∈ pc.1.set :=
  View.cover_of_tiled [⟨r0_out, p0⟩] S12800x1.size (by rfl) y

/-- The launch's record on core `c`: arrays as found; after the body at point `t` each input buffer holds its block
    and the output buffer `out0_5` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t =
    out0_5 (iblk0 V c 0 t) (iblk0 V c 1 t) (iblk0 V c 2 t) (iblk0 V c 3 t) (iblk0 V c 4 t) := by dsimp only [dat0]

end Cert.Kernel.Frame

end
-- ==== Proof.KProjData.lean ====
/-
  The node projection's launch (the second kernel region): the node features times the three 128×64 weight matrices laid side by side (128×192), with a zero bias row.
  One grid point per block of 5000 rows: a point reads its block of rows, the whole weight matrix and the
  bias row, and stores one block of rows of  X·W + b.  Here: the blocks a point reads (`iblk1`), what the body
  leaves in the output buffer as a function of the blocks read (`out1_3`), and the launch's bookkeeping record
  `dat1`.
-/
import proofs.«170167_j27212912788334_2_alg».proof.Proof.Gen.Kernel.Launch
import proofs.«170167_j27212912788334_2_alg».proof.Proof.Gen.Kernel.Skeleton
import proofs.«170167_j27212912788334_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_x : Rect S5000x128 := Rect.unit (s := S5000x128) ![0, 0] S5000x128.size inb_S5000x128_S5000x128_0_0
abbrev r1_w : Rect S128x192 := Rect.unit (s := S128x192) ![0, 0] S128x192.size inb_S128x192_S128x192_0_0
abbrev r1_b : Rect S1x192 := Rect.unit (s := S1x192) ![0, 0] S1x192.size inb_S1x192_S1x192_0_0
abbrev r1_out : Rect S5000x192 := Rect.unit (s := S5000x192) ![0, 0] S5000x192.size inb_S5000x192_S5000x192_0_0

/-- The output buffer after the body: its one whole-block store of the body's arithmetic on the three blocks read. -/
def out1_3 (x0 : Vec F S5000x128 .f32) (x1 : Vec F S128x192 .f32) (x2 : Vec F S1x192 .f32) : Vec F S5000x192 .f32 :=
  View.canon [⟨r1_out, k1_pay1 (View.ld x0 r1_x) (View.ld x1 r1_w) (View.ld x2 r1_b)⟩]

/-- The one store is the whole block, so it covers it. -/
theorem cover1_3 (p0 : Vec F S5000x192 .f32) (y : S5000x192.Idx) :
    ∃ pc ∈ ([⟨r1_out, p0⟩] : List (View.Piece (Elt F) S5000x192 .f32)), y ∈ pc.1.set :=
  View.cover_of_tiled [⟨r1_out, p0⟩] S5000x192.size (by rfl) y

/-- The launch's record on core `c`: arrays as found; after the body at point `t` each input buffer holds its block
    and the output buffer `out1_3` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t =
    out1_3 (iblk1 V c 0 t) (iblk1 V c 1 t) (iblk1 V c 2 t) := by dsimp only [dat1]

end Cert.Kernel.Frame

end
-- ==== Proof.KArmaData.lean ====
/-
  The second layer's launch (the third kernel region): the first layer's output times the 64×64 layer matrix, with a zero bias row.
  One grid point per block of 5000 rows: a point reads its block of rows, the whole weight matrix and the
  bias row, and stores one block of rows of  X·W + b.  Here: the blocks a point reads (`iblk2`), what the body
  leaves in the output buffer as a function of the blocks read (`out2_3`), and the launch's bookkeeping record
  `dat2`.
-/
import proofs.«170167_j27212912788334_2_alg».proof.Proof.Gen.Kernel.Launch
import proofs.«170167_j27212912788334_2_alg».proof.Proof.Gen.Kernel.Skeleton
import proofs.«170167_j27212912788334_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S5000x64 := Rect.unit (s := S5000x64) ![0, 0] S5000x64.size inb_S5000x64_S5000x64_0_0
abbrev r2_w : Rect S64x64 := Rect.unit (s := S64x64) ![0, 0] S64x64.size inb_S64x64_S64x64_0_0
abbrev r2_b : Rect S1x64 := Rect.unit (s := S1x64) ![0, 0] S1x64.size inb_S1x64_S1x64_0_0
abbrev r2_out : Rect S5000x64 := Rect.unit (s := S5000x64) ![0, 0] S5000x64.size inb_S5000x64_S5000x64_0_0

/-- The output buffer after the body: its one whole-block store of the body's arithmetic on the three blocks read. -/
def out2_3 (x0 : Vec F S5000x64 .f32) (x1 : Vec F S64x64 .f32) (x2 : Vec F S1x64 .f32) : Vec F S5000x64 .f32 :=
  View.canon [⟨r2_out, k2_pay1 (View.ld x0 r2_x) (View.ld x1 r2_w) (View.ld x2 r2_b)⟩]

/-- The one store is the whole block, so it covers it. -/
theorem cover2_3 (p0 : Vec F S5000x64 .f32) (y : S5000x64.Idx) :
    ∃ pc ∈ ([⟨r2_out, p0⟩] : List (View.Piece (Elt F) S5000x64 .f32)), y ∈ pc.1.set :=
  View.cover_of_tiled [⟨r2_out, p0⟩] S5000x64.size (by rfl) y

/-- The launch's record on core `c`: arrays as found; after the body at point `t` each input buffer holds its block
    and the output buffer `out2_3` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t =
    out2_3 (iblk2 V c 0 t) (iblk2 V c 1 t) (iblk2 V c 2 t) := by dsimp only [dat2]

end Cert.Kernel.Frame

end
-- ==== Proof.KHeadData.lean ====
/-
  The output head's launch (the fourth kernel region): the second layer's output times the 64×64 head matrix, plus the head's bias row.
  One grid point per block of 5000 rows: a point reads its block of rows, the whole weight matrix and the
  bias row, and stores one block of rows of  X·W + b.  Here: the blocks a point reads (`iblk3`), what the body
  leaves in the output buffer as a function of the blocks read (`out3_3`), and the launch's bookkeeping record
  `dat3`.
-/
import proofs.«170167_j27212912788334_2_alg».proof.Proof.Gen.Kernel.Launch
import proofs.«170167_j27212912788334_2_alg».proof.Proof.Gen.Kernel.Skeleton
import proofs.«170167_j27212912788334_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_x : Rect S5000x64 := Rect.unit (s := S5000x64) ![0, 0] S5000x64.size inb_S5000x64_S5000x64_0_0
abbrev r3_w : Rect S64x64 := Rect.unit (s := S64x64) ![0, 0] S64x64.size inb_S64x64_S64x64_0_0
abbrev r3_b : Rect S1x64 := Rect.unit (s := S1x64) ![0, 0] S1x64.size inb_S1x64_S1x64_0_0
abbrev r3_out : Rect S5000x64 := Rect.unit (s := S5000x64) ![0, 0] S5000x64.size inb_S5000x64_S5000x64_0_0

/-- The output buffer after the body: its one whole-block store of the body's arithmetic on the three blocks read. -/
def out3_3 (x0 : Vec F S5000x64 .f32) (x1 : Vec F S64x64 .f32) (x2 : Vec F S1x64 .f32) : Vec F S5000x64 .f32 :=
  View.canon [⟨r3_out, k3_pay1 (View.ld x0 r3_x) (View.ld x1 r3_w) (View.ld x2 r3_b)⟩]

/-- The one store is the whole block, so it covers it. -/
theorem cover3_3 (p0 : Vec F S5000x64 .f32) (y : S5000x64.Idx) :
    ∃ pc ∈ ([⟨r3_out, p0⟩] : List (View.Piece (Elt F) S5000x64 .f32)), y ∈ pc.1.set :=
  View.cover_of_tiled [⟨r3_out, p0⟩] S5000x64.size (by rfl) y

/-- The launch's record on core `c`: arrays as found; after the body at point `t` each input buffer holds its block
    and the output buffer `out3_3` of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t =
    out3_3 (iblk3 V c 0 t) (iblk3 V c 1 t) (iblk3 V c 2 t) := by dsimp only [dat3]

end Cert.Kernel.Frame

end
-- ==== Proof.KRunCond.lean ====
/-
  The run of @main: its four kernel launches chained through the host operations between them.
  Between two items every unscoped buffer of the core is held whole at a named valuation: the launch memory, then
  what each host stretch computes from it, then, after a kernel launch, the same valuation with the launch's output
  array replaced by what the launch's write-backs leave in it.  Here the four replaced contents are named (`outs`),
  each launch is given as a segment entered at the valuation before it and left at the one after it, and the run
  is concluded from one hypothesis per launch (its body's obligation at every grid point): every fair execution
  terminates, the result array ends at the last valuation's contents, and every argument array ends as launched.
-/
import proofs.«170167_j27212912788334_2_alg».proof.Proof.KEdgeMlpData
import proofs.«170167_j27212912788334_2_alg».proof.Proof.KProjData
import proofs.«170167_j27212912788334_2_alg».proof.Proof.KArmaData
import proofs.«170167_j27212912788334_2_alg».proof.Proof.KHeadData
import proofs.«170167_j27212912788334_2_alg».proof.Proof.Gen.Kernel.Regions

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The run from the four launches' segments, with the result array read -/

-- the launch theorem's implicit arguments are found by unifying its conclusion with this one, which takes unfolding
-- plain definitions in a metavariable's type
set_option backward.isDefEq.respectTransparency.types false in
/-- The conditional run, with the result array read as well. For any rest states `E` the launch makes on every core
    (`hE0`) and that end owing nothing (`hE4`), any contents `outs` the launches leave and any proof data: given, per
    launch, a segment entered from the thread state "every unscoped buffer at the valuation before it" and left at the
    one after it, every weakly fair execution of @main from memory `m` with zero counters terminates, the result array
    `main_v81` ends at the last valuation's contents and each argument array ends as launched. -/
theorem frame_cond_out {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V11 m outs c) ∗ E 2 c) ⊢ R2.pre c)
    (hpost2 : ∀ c : Dev nD, R2.post c ⊢ iprop(StableHlo.held (c : Thread nD τ) (Pipeline.ucRefs τ sig) (V12 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V15 m outs c) ∗ E 3 c) ⊢ R3.pre c)
    (hpost3 : ∀ c : Dev nD, R3.post c ⊢ iprop(StableHlo.held (c : Thread nD τ) (Pipeline.ucRefs τ sig) (V16 m outs c) ∗ E 4 c)) :
    θ_run defs (onTc (τ := τ) (main (F := F))) ⟨m, fun _ => 0, ρ⟩ (fun r => ∀ c : Dev nD,
      r.2.mem ((c.tc : Thread nD τ).loc main_v81) = V16 m outs c main_v81
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          StableHlo.seq hostOps3_1,
          StableHlo.seq hostOps3_2,
          Prog.lift (.customCall (Pipeline.entry 3) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V16 m outs c))
    (hch := fun c => ⟨.rfl, hpre0 c, hpost0 c, .rfl, .rfl, .rfl, .rfl, hpre1 c, hpost1 c, .rfl, .rfl, hpre2 c, hpost2 c, .rfl, .rfl, hpre3 c, (hpost3 c).trans (sep_mono .rfl (hE4 c))⟩)
    (hinit := ?_) (QY := fun c s => s.mem ((c.tc : Thread nD τ).loc main_v81) = V16 m outs c main_v81 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V16 m outs c) s') $$ [Hh HSI]
    · isplitl [Hh] <;> iassumption
    icases Hr with ⟨%h, HSI⟩
    imodintro
    isplitr
    · ipureintro
      exact ⟨h (Proc.devRef .tc main_v81) (Finset.mem_filter.mpr ⟨StableHlo.devRef_mem_tcRefs main_v81, by decide⟩),
        (h (Proc.devRef .tc main_arg0) (Finset.mem_filter.mpr ⟨StableHlo.devRef_mem_tcRefs main_arg0, by decide⟩)).trans (V16_main_arg0 m outs c),
        (h (Proc.devRef .tc main_arg1) (Finset.mem_filter.mpr ⟨StableHlo.devRef_mem_tcRefs main_arg1, by decide⟩)).trans (V16_main_arg1 m outs c),
        (h (Proc.devRef .tc main_arg2) (Finset.mem_filter.mpr ⟨StableHlo.devRef_mem_tcRefs main_arg2, by decide⟩)).trans (V16_main_arg2 m outs c),
        (h (Proc.devRef .tc main_arg3) (Finset.mem_filter.mpr ⟨StableHlo.devRef_mem_tcRefs main_arg3, by decide⟩)).trans (V16_main_arg3 m outs c),
        (h (Proc.devRef .tc main_arg4) (Finset.mem_filter.mpr ⟨StableHlo.devRef_mem_tcRefs main_arg4, by decide⟩)).trans (V16_main_arg4 m outs c),
        (h (Proc.devRef .tc main_arg5) (Finset.mem_filter.mpr ⟨StableHlo.devRef_mem_tcRefs main_arg5, by decide⟩)).trans (V16_main_arg5 m outs c),
        (h (Proc.devRef .tc main_arg6) (Finset.mem_filter.mpr ⟨StableHlo.devRef_mem_tcRefs main_arg6, by decide⟩)).trans (V16_main_arg6 m outs c),
        (h (Proc.devRef .tc main_arg7) (Finset.mem_filter.mpr ⟨StableHlo.devRef_mem_tcRefs main_arg7, by decide⟩)).trans (V16_main_arg7 m outs c),
        (h (Proc.devRef .tc main_arg8) (Finset.mem_filter.mpr ⟨StableHlo.devRef_mem_tcRefs main_arg8, by decide⟩)).trans (V16_main_arg8 m outs c),
        (h (Proc.devRef .tc main_arg9) (Finset.mem_filter.mpr ⟨StableHlo.devRef_mem_tcRefs main_arg9, by decide⟩)).trans (V16_main_arg9 m outs c),
        (h (Proc.devRef .tc main_arg10) (Finset.mem_filter.mpr ⟨StableHlo.devRef_mem_tcRefs main_arg10, by decide⟩)).trans (V16_main_arg10 m outs c),
        (h (Proc.devRef .tc main_arg11) (Finset.mem_filter.mpr ⟨StableHlo.devRef_mem_tcRefs main_arg11, by decide⟩)).trans (V16_main_arg11 m outs c),
        (h (Proc.devRef .tc main_arg12) (Finset.mem_filter.mpr ⟨StableHlo.devRef_mem_tcRefs main_arg12, by decide⟩)).trans (V16_main_arg12 m outs c),
        (h (Proc.devRef .tc main_arg13) (Finset.mem_filter.mpr ⟨StableHlo.devRef_mem_tcRefs main_arg13, by decide⟩)).trans (V16_main_arg13 m outs c),
        (h (Proc.devRef .tc main_arg14) (Finset.mem_filter.mpr ⟨StableHlo.devRef_mem_tcRefs main_arg14, by decide⟩)).trans (V16_main_arg14 m outs c)⟩
    · iexact HSI

/-! ## What the four launches leave in their output arrays -/

/-- What the edge network's launch leaves in its output array: its write-backs folded over the grid, from the contents
    the launch is entered at. -/
def o2 (c : Dev nD) : Buf (Elt F) ((c : Thread nD τ).loc main_v6) :=
  (dat0 (fun c b => Gen.V1 m c b) c).arrAt 5 cfg0.N

/-- The contents the launches leave, first stage: only the first launch's is named. -/
def outsA : Gen.Outs (F := F) := fun J r c =>
  match J with
  | 2 => Function.update (Gen.V1 m c) main_v6 (o2 m c) r
  | _ => Gen.V1 m c r

/-- What the node projection's launch leaves in its output array. -/
def o8 (c : Dev nD) : Buf (Elt F) ((c : Thread nD τ).loc main_v37) :=
  (dat1 (fun c b => Gen.V7 m (outsA m) c b) c).arrAt 3 cfg1.N

/-- Second stage: the first two launches' contents. -/
def outsB : Gen.Outs (F := F) := fun J r c =>
  match J with
  | 2 => Function.update (Gen.V1 m c) main_v6 (o2 m c) r
  | 8 => Function.update (Gen.V7 m (outsA m) c) main_v37 (o8 m c) r
  | _ => Gen.V1 m c r

/-- What the third launch leaves in its output array. -/
def o12 (c : Dev nD) : Buf (Elt F) ((c : Thread nD τ).loc main_v61) :=
  (dat2 (fun c b => Gen.V11 m (outsB m) c b) c).arrAt 3 cfg2.N

/-- Third stage: the first three launches' contents. -/
def outsC : Gen.Outs (F := F) := fun J r c =>
  match J with
  | 2 => Function.update (Gen.V1 m c) main_v6 (o2 m c) r
  | 8 => Function.update (Gen.V7 m (outsA m) c) main_v37 (o8 m c) r
  | 12 => Function.update (Gen.V11 m (outsB m) c) main_v61 (o12 m c) r
  | _ => Gen.V1 m c r

/-- What the last launch leaves in its output array, the program's result. -/
def o16 (c : Dev nD) : Buf (Elt F) ((c : Thread nD τ).loc main_v81) :=
  (dat3 (fun c b => Gen.V15 m (outsC m) c b) c).arrAt 3 cfg3.N

/-- The contents the four launches leave in their output arrays. -/
def outs : Gen.Outs (F := F) := fun J r c =>
  match J with
  | 2 => Function.update (Gen.V1 m c) main_v6 (o2 m c) r
  | 8 => Function.update (Gen.V7 m (outsA m) c) main_v37 (o8 m c) r
  | 12 => Function.update (Gen.V11 m (outsB m) c) main_v61 (o12 m c) r
  | 16 => Function.update (Gen.V15 m (outsC m) c) main_v81 (o16 m c) r
  | _ => Gen.V1 m c r

/-- A launch's entry valuation reads the contents left only at the launches before it, where the stages agree. -/
theorem V7_outs (c : Dev nD) : Gen.V7 m (outs m) c = Gen.V7 m (outsA m) c := rfl
theorem V11_outs (c : Dev nD) : Gen.V11 m (outs m) c = Gen.V11 m (outsB m) c := rfl
theorem V15_outs (c : Dev nD) : Gen.V15 m (outs m) c = Gen.V15 m (outsC m) c := rfl

theorem outs_2 (c : Dev nD) : outs m 2 main_v6 c = (dat0 (fun c b => Gen.V1 m c b) c).arrAt 5 cfg0.N :=
  Function.update_self (f := Gen.V1 m c) _ _
theorem outs_8 (c : Dev nD) : outs m 8 main_v37 c = (dat1 (fun c b => Gen.V7 m (outs m) c b) c).arrAt 3 cfg1.N :=
  Function.update_self (f := Gen.V7 m (outsA m) c) _ _
theorem outs_12 (c : Dev nD) : outs m 12 main_v61 c = (dat2 (fun c b => Gen.V11 m (outs m) c b) c).arrAt 3 cfg2.N :=
  Function.update_self (f := Gen.V11 m (outsB m) c) _ _
theorem outs_16 (c : Dev nD) : outs m 16 main_v81 c = (dat3 (fun c b => Gen.V15 m (outs m) c b) c).arrAt 3 cfg3.N :=
  Function.update_self (f := Gen.V15 m (outsC m) c) _ _

/-! ## The launches as segments -/

/-- No core owes another anything: no level is assigned. -/
abbrev runL : GSem nD τ sig → Finset Unit := fun _ => ∅
abbrev runLv : GSem nD τ sig → Unit → ℕ := fun _ _ => 0
/-- What rides beside the buffers through every item: the core's generator register at some state, and its dues, at
    nothing. -/
abbrev runRest (c : Dev nD) : sProp 𝕄 := iprop((∃ r, prngReg c r) ∗ ∃ W, owes (c : Thread nD τ) (0 : CellTallies nD τ sig Unit) W)

/-- Every launch's record, each at the valuation its launch is entered at. -/
def runDats : (p : Fin 4) → (c : Dev nD) → Dat τ (Elt F) Unit ℕ (UR sig nD τ) ℕ (cfgs p) c
  | ⟨0, _⟩ => fun c => dat0 (fun c b => Gen.V1 m c b) c
  | ⟨1, _⟩ => fun c => dat1 (fun c b => Gen.V7 m (outs m) c b) c
  | ⟨2, _⟩ => fun c => dat2 (fun c b => Gen.V11 m (outs m) c b) c
  | ⟨3, _⟩ => fun c => dat3 (fun c b => Gen.V15 m (outs m) c b) c

/-! At a launch's exit each of its arrays holds what the launch leaves (an input array what it held, the output array
    the named contents) and every other buffer what it held at entry. -/

theorem hF0 (c : Dev nD) : ∀ w : Fin cfg0.W, (dat0 (fun c b => Gen.V1 m c b) c).arrAt w cfg0.N = Gen.V2 m (outs m) c (Pipeline.arrRef spec0 w)
  | 0 => (((dat0 (fun c b => Gen.V1 m c b) c).arrAt_in 0 rfl cfg0.N).trans (A_eq0 (fun c b => Gen.V1 m c b) c 0)).trans (Gen.V2_of m (outs m) c main_arg2 (by decide)).symm
  | 1 => (((dat0 (fun c b => Gen.V1 m c b) c).arrAt_in 1 rfl cfg0.N).trans (A_eq0 (fun c b => Gen.V1 m c b) c 1)).trans (Gen.V2_of m (outs m) c main_arg3 (by decide)).symm
  | 2 => (((dat0 (fun c b => Gen.V1 m c b) c).arrAt_in 2 rfl cfg0.N).trans (A_eq0 (fun c b => Gen.V1 m c b) c 2)).trans (Gen.V2_of m (outs m) c main_v4 (by decide)).symm
  | 3 => (((dat0 (fun c b => Gen.V1 m c b) c).arrAt_in 3 rfl cfg0.N).trans (A_eq0 (fun c b => Gen.V1 m c b) c 3)).trans (Gen.V2_of m (outs m) c main_arg5 (by decide)).symm
  | 4 => (((dat0 (fun c b => Gen.V1 m c b) c).arrAt_in 4 rfl cfg0.N).trans (A_eq0 (fun c b => Gen.V1 m c b) c 4)).trans (Gen.V2_of m (outs m) c main_v5 (by decide)).symm
  | 5 => (outs_2 m c).symm.trans (Function.update_self (f := Gen.V1 m c) _ _).symm
  | ⟨_ + 6, h⟩ => absurd h (Nat.not_lt.2 (Nat.le_add_left _ _))
theorem hrest0 (c : Dev nD) : ∀ b, b ∉ Finset.univ.image (Pipeline.arrRef spec0) → Gen.V2 m (outs m) c b = Gen.V1 m c b :=
  fun b hb => Gen.V2_of m (outs m) c b fun hmem => hb (Finset.mem_image.mpr ⟨5, Finset.mem_univ _, by
    have e := List.mem_singleton.mp hmem; subst e; exact rfl⟩)

theorem hF1 (c : Dev nD) : ∀ w : Fin cfg1.W, (dat1 (fun c b => Gen.V7 m (outs m) c b) c).arrAt w cfg1.N = Gen.V8 m (outs m) c (Pipeline.arrRef spec1 w)
  | 0 => (((dat1 (fun c b => Gen.V7 m (outs m) c b) c).arrAt_in 0 rfl cfg1.N).trans (A_eq1 (fun c b => Gen.V7 m (outs m) c b) c 0)).trans (Gen.V8_of m (outs m) c main_arg0 (by decide)).symm
  | 1 => (((dat1 (fun c b => Gen.V7 m (outs m) c b) c).arrAt_in 1 rfl cfg1.N).trans (A_eq1 (fun c b => Gen.V7 m (outs m) c b) c 1)).trans (Gen.V8_of m (outs m) c main_v34 (by decide)).symm
  | 2 => (((dat1 (fun c b => Gen.V7 m (outs m) c b) c).arrAt_in 2 rfl cfg1.N).trans (A_eq1 (fun c b => Gen.V7 m (outs m) c b) c 2)).trans (Gen.V8_of m (outs m) c main_v36 (by decide)).symm
  | 3 => (outs_8 m c).symm.trans (Function.update_self (f := Gen.V7 m (outs m) c) _ _).symm
  | ⟨_ + 4, h⟩ => absurd h (Nat.not_lt.2 (Nat.le_add_left _ _))
theorem hrest1 (c : Dev nD) : ∀ b, b ∉ Finset.univ.image (Pipeline.arrRef spec1) → Gen.V8 m (outs m) c b = Gen.V7 m (outs m) c b :=
  fun b hb => Gen.V8_of m (outs m) c b fun hmem => hb (Finset.mem_image.mpr ⟨3, Finset.mem_univ _, by
    have e := List.mem_singleton.mp hmem; subst e; exact rfl⟩)

theorem hF2 (c : Dev nD) : ∀ w : Fin cfg2.W, (dat2 (fun c b => Gen.V11 m (outs m) c b) c).arrAt w cfg2.N = Gen.V12 m (outs m) c (Pipeline.arrRef spec2 w)
  | 0 => (((dat2 (fun c b => Gen.V11 m (outs m) c b) c).arrAt_in 0 rfl cfg2.N).trans (A_eq2 (fun c b => Gen.V11 m (outs m) c b) c 0)).trans (Gen.V12_of m (outs m) c main_v58 (by decide)).symm
  | 1 => (((dat2 (fun c b => Gen.V11 m (outs m) c b) c).arrAt_in 1 rfl cfg2.N).trans (A_eq2 (fun c b => Gen.V11 m (outs m) c b) c 1)).trans (Gen.V12_of m (outs m) c main_arg8 (by decide)).symm
  | 2 => (((dat2 (fun c b => Gen.V11 m (outs m) c b) c).arrAt_in 2 rfl cfg2.N).trans (A_eq2 (fun c b => Gen.V11 m (outs m) c b) c 2)).trans (Gen.V12_of m (outs m) c main_v60 (by decide)).symm
  | 3 => (outs_12 m c).symm.trans (Function.update_self (f := Gen.V11 m (outs m) c) _ _).symm
  | ⟨_ + 4, h⟩ => absurd h (Nat.not_lt.2 (Nat.le_add_left _ _))
theorem hrest2 (c : Dev nD) : ∀ b, b ∉ Finset.univ.image (Pipeline.arrRef spec2) → Gen.V12 m (outs m) c b = Gen.V11 m (outs m) c b :=
  fun b hb => Gen.V12_of m (outs m) c b fun hmem => hb (Finset.mem_image.mpr ⟨3, Finset.mem_univ _, by
    have e := List.mem_singleton.mp hmem; subst e; exact rfl⟩)

theorem hF3 (c : Dev nD) : ∀ w : Fin cfg3.W, (dat3 (fun c b => Gen.V15 m (outs m) c b) c).arrAt w cfg3.N = Gen.V16 m (outs m) c (Pipeline.arrRef spec3 w)
  | 0 => (((dat3 (fun c b => Gen.V15 m (outs m) c b) c).arrAt_in 0 rfl cfg3.N).trans (A_eq3 (fun c b => Gen.V15 m (outs m) c b) c 0)).trans (Gen.V16_of m (outs m) c main_v79 (by decide)).symm
  | 1 => (((dat3 (fun c b => Gen.V15 m (outs m) c b) c).arrAt_in 1 rfl cfg3.N).trans (A_eq3 (fun c b => Gen.V15 m (outs m) c b) c 1)).trans (Gen.V16_of m (outs m) c main_arg13 (by decide)).symm
  | 2 => (((dat3 (fun c b => Gen.V15 m (outs m) c b) c).arrAt_in 2 rfl cfg3.N).trans (A_eq3 (fun c b => Gen.V15 m (outs m) c b) c 2)).trans (Gen.V16_of m (outs m) c main_v80 (by decide)).symm
  | 3 => (outs_16 m c).symm.trans (Function.update_self (f := Gen.V15 m (outs m) c) _ _).symm
  | ⟨_ + 4, h⟩ => absurd h (Nat.not_lt.2 (Nat.le_add_left _ _))
theorem hrest3 (c : Dev nD) : ∀ b, b ∉ Finset.univ.image (Pipeline.arrRef spec3) → Gen.V16 m (outs m) c b = Gen.V15 m (outs m) c b :=
  fun b hb => Gen.V16_of m (outs m) c b fun hmem => hb (Finset.mem_image.mpr ⟨3, Finset.mem_univ _, by
    have e := List.mem_singleton.mp hmem; subst e; exact rfl⟩)

-- a library lemma stated over the pinned configuration unifies with the printed one only when unification may unfold
-- plain definitions in a metavariable's type
set_option backward.isDefEq.respectTransparency.types false in
set_option maxHeartbeats 1600000 in
/-- Launch 0 as a segment: entered with every unscoped buffer at the valuation before it, left with them at the one
    after it. Its arrays are split out of the unscoped buffers and put back at what the launch leaves; the generator
    register goes into the launch's invariant and comes back; nothing is owed; the kernel has no semaphore of its own. -/
def runReg0
    (hb : ∀ (V : (c : Dev nD) → (b : Ref sig .tc) → Buf (Elt F) ((c : Thread nD τ).loc b)) (c : Dev nD),
      BodyObligation (dat0 (F := F) V c) (defs₀ (F := F)) Variants.none () Set.univ) :
    RegionSeg (pcfgs (F := F)) Gen.adm (runDats m) () defs₀ Variants.none runL runLv 0 where
  win := launch0.win.to₀
  block_pos := launch0.block_pos
  stage_whole := launch0.stage_whole
  K := PEmpty
  osem k := k.elim
  ho := Pipeline.OwnSemFacts.none _
  hbody c := (hb (fun c b => Gen.V1 m c b) c).loose
  hwaits := Pipeline.hwaits_of_owed_zero _ _ _ _ runL runLv 0 fun _ _ => rfl
  pre c := iprop(StableHlo.held (c : Thread nD τ) (Pipeline.ucRefs τ sig) (Gen.V1 m c) ∗ runRest c)
  post c := iprop(StableHlo.held (c : Thread nD τ) (Pipeline.ucRefs τ sig) (Gen.V2 m (outs m) c) ∗ runRest c)
  X c := iprop(∃ r, prngReg c r)
  Y c := iprop(∃ r, prngReg c r)
  Z c := Pipeline.unscopedRest (Ix := Unit) (Name := ℕ) (U := UR sig nD τ) (Lvl := ℕ) spec0 c (fun b => Gen.V1 m c b)
  hentry c := by
    rw [Pipeline.ownSems0_none]
    have hsplit := Pipeline.arrays_of_unscopedBufs (p := 0) (pcfgs (F := F)) Gen.adm (runDats m) launch0.win launch0.arr_whole c
      ((runDats m 0 c).share_full fun _ => rfl) (fun b => Gen.V1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (runDats m 0 c).Φ 0 = Pipeline.ΦA spec0 c from rfl]; unfold Pipeline.ΦA
    iintro ⟨Hp, -, Hr⟩
    isplitl [Hr]; · iexact Hr
    iexact Hp
  hout c := by
    rw [Pipeline.ownSems0_none, show (runDats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (runDats m) ((runDats m 0 c).share_full fun _ => rfl)
      (fun b => Gen.V1 m c b) (fun b => Gen.V2 m (outs m) c b) ((runDats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
set_option maxHeartbeats 1600000 in
/-- Launch 1 as a segment: entered with every unscoped buffer at the valuation before it, left with them at the one
    after it. Its arrays are split out of the unscoped buffers and put back at what the launch leaves; the generator
    register goes into the launch's invariant and comes back; nothing is owed; the kernel has no semaphore of its own. -/
def runReg1
    (hb : ∀ (V : (c : Dev nD) → (b : Ref sig .tc) → Buf (Elt F) ((c : Thread nD τ).loc b)) (c : Dev nD),
      BodyObligation (dat1 (F := F) V c) (defs₀ (F := F)) Variants.none () Set.univ) :
    RegionSeg (pcfgs (F := F)) Gen.adm (runDats m) () defs₀ Variants.none runL runLv 1 where
  win := launch1.win.to₀
  block_pos := launch1.block_pos
  stage_whole := launch1.stage_whole
  K := PEmpty
  osem k := k.elim
  ho := Pipeline.OwnSemFacts.none _
  hbody c := (hb (fun c b => Gen.V7 m (outs m) c b) c).loose
  hwaits := Pipeline.hwaits_of_owed_zero _ _ _ _ runL runLv 1 fun _ _ => rfl
  pre c := iprop(StableHlo.held (c : Thread nD τ) (Pipeline.ucRefs τ sig) (Gen.V7 m (outs m) c) ∗ runRest c)
  post c := iprop(StableHlo.held (c : Thread nD τ) (Pipeline.ucRefs τ sig) (Gen.V8 m (outs m) c) ∗ runRest c)
  X c := iprop(∃ r, prngReg c r)
  Y c := iprop(∃ r, prngReg c r)
  Z c := Pipeline.unscopedRest (Ix := Unit) (Name := ℕ) (U := UR sig nD τ) (Lvl := ℕ) spec1 c (fun b => Gen.V7 m (outs m) c b)
  hentry c := by
    rw [Pipeline.ownSems0_none]
    have hsplit := Pipeline.arrays_of_unscopedBufs (p := 1) (pcfgs (F := F)) Gen.adm (runDats m) launch1.win launch1.arr_whole c
      ((runDats m 1 c).share_full fun _ => rfl) (fun b => Gen.V7 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (runDats m 1 c).Φ 0 = Pipeline.ΦA spec1 c from rfl]; unfold Pipeline.ΦA
    iintro ⟨Hp, -, Hr⟩
    isplitl [Hr]; · iexact Hr
    iexact Hp
  hout c := by
    rw [Pipeline.ownSems0_none, show (runDats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (runDats m) ((runDats m 1 c).share_full fun _ => rfl)
      (fun b => Gen.V7 m (outs m) c b) (fun b => Gen.V8 m (outs m) c b) ((runDats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
set_option maxHeartbeats 1600000 in
/-- Launch 2 as a segment: entered with every unscoped buffer at the valuation before it, left with them at the one
    after it. Its arrays are split out of the unscoped buffers and put back at what the launch leaves; the generator
    register goes into the launch's invariant and comes back; nothing is owed; the kernel has no semaphore of its own. -/
def runReg2
    (hb : ∀ (V : (c : Dev nD) → (b : Ref sig .tc) → Buf (Elt F) ((c : Thread nD τ).loc b)) (c : Dev nD),
      BodyObligation (dat2 (F := F) V c) (defs₀ (F := F)) Variants.none () Set.univ) :
    RegionSeg (pcfgs (F := F)) Gen.adm (runDats m) () defs₀ Variants.none runL runLv 2 where
  win := launch2.win.to₀
  block_pos := launch2.block_pos
  stage_whole := launch2.stage_whole
  K := PEmpty
  osem k := k.elim
  ho := Pipeline.OwnSemFacts.none _
  hbody c := (hb (fun c b => Gen.V11 m (outs m) c b) c).loose
  hwaits := Pipeline.hwaits_of_owed_zero _ _ _ _ runL runLv 2 fun _ _ => rfl
  pre c := iprop(StableHlo.held (c : Thread nD τ) (Pipeline.ucRefs τ sig) (Gen.V11 m (outs m) c) ∗ runRest c)
  post c := iprop(StableHlo.held (c : Thread nD τ) (Pipeline.ucRefs τ sig) (Gen.V12 m (outs m) c) ∗ runRest c)
  X c := iprop(∃ r, prngReg c r)
  Y c := iprop(∃ r, prngReg c r)
  Z c := Pipeline.unscopedRest (Ix := Unit) (Name := ℕ) (U := UR sig nD τ) (Lvl := ℕ) spec2 c (fun b => Gen.V11 m (outs m) c b)
  hentry c := by
    rw [Pipeline.ownSems0_none]
    have hsplit := Pipeline.arrays_of_unscopedBufs (p := 2) (pcfgs (F := F)) Gen.adm (runDats m) launch2.win launch2.arr_whole c
      ((runDats m 2 c).share_full fun _ => rfl) (fun b => Gen.V11 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (runDats m 2 c).Φ 0 = Pipeline.ΦA spec2 c from rfl]; unfold Pipeline.ΦA
    iintro ⟨Hp, -, Hr⟩
    isplitl [Hr]; · iexact Hr
    iexact Hp
  hout c := by
    rw [Pipeline.ownSems0_none, show (runDats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (runDats m) ((runDats m 2 c).share_full fun _ => rfl)
      (fun b => Gen.V11 m (outs m) c b) (fun b => Gen.V12 m (outs m) c b) ((runDats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
set_option maxHeartbeats 1600000 in
/-- Launch 3 as a segment: entered with every unscoped buffer at the valuation before it, left with them at the one
    after it. Its arrays are split out of the unscoped buffers and put back at what the launch leaves; the generator
    register goes into the launch's invariant and comes back; nothing is owed; the kernel has no semaphore of its own. -/
def runReg3
    (hb : ∀ (V : (c : Dev nD) → (b : Ref sig .tc) → Buf (Elt F) ((c : Thread nD τ).loc b)) (c : Dev nD),
      BodyObligation (dat3 (F := F) V c) (defs₀ (F := F)) Variants.none () Set.univ) :
    RegionSeg (pcfgs (F := F)) Gen.adm (runDats m) () defs₀ Variants.none runL runLv 3 where
  win := launch3.win.to₀
  block_pos := launch3.block_pos
  stage_whole := launch3.stage_whole
  K := PEmpty
  osem k := k.elim
  ho := Pipeline.OwnSemFacts.none _
  hbody c := (hb (fun c b => Gen.V15 m (outs m) c b) c).loose
  hwaits := Pipeline.hwaits_of_owed_zero _ _ _ _ runL runLv 3 fun _ _ => rfl
  pre c := iprop(StableHlo.held (c : Thread nD τ) (Pipeline.ucRefs τ sig) (Gen.V15 m (outs m) c) ∗ runRest c)
  post c := iprop(StableHlo.held (c : Thread nD τ) (Pipeline.ucRefs τ sig) (Gen.V16 m (outs m) c) ∗ runRest c)
  X c := iprop(∃ r, prngReg c r)
  Y c := iprop(∃ r, prngReg c r)
  Z c := Pipeline.unscopedRest (Ix := Unit) (Name := ℕ) (U := UR sig nD τ) (Lvl := ℕ) spec3 c (fun b => Gen.V15 m (outs m) c b)
  hentry c := by
    rw [Pipeline.ownSems0_none]
    have hsplit := Pipeline.arrays_of_unscopedBufs (p := 3) (pcfgs (F := F)) Gen.adm (runDats m) launch3.win launch3.arr_whole c
      ((runDats m 3 c).share_full fun _ => rfl) (fun b => Gen.V15 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (runDats m 3 c).Φ 0 = Pipeline.ΦA spec3 c from rfl]; unfold Pipeline.ΦA
    iintro ⟨Hp, -, Hr⟩
    isplitl [Hr]; · iexact Hr
    iexact Hp
  hout c := by
    rw [Pipeline.ownSems0_none, show (runDats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (runDats m) ((runDats m 3 c).share_full fun _ => rfl)
      (fun b => Gen.V15 m (outs m) c b) (fun b => Gen.V16 m (outs m) c b) ((runDats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- THE RUN. Given each launch's body obligation at every entry valuation, every weakly fair execution of @main from
    memory `m` with zero counters terminates; the result array `main_v81` ends holding what the last launch leaves
    in it (the last valuation at `main_v81`), and every argument array ends as launched. -/
theorem run_of_bodies
    (hb0 : ∀ (V : (c : Dev nD) → (b : Ref sig .tc) → Buf (Elt F) ((c : Thread nD τ).loc b)) (c : Dev nD),
      BodyObligation (dat0 (F := F) V c) (defs₀ (F := F)) Variants.none () Set.univ)
    (hb1 : ∀ (V : (c : Dev nD) → (b : Ref sig .tc) → Buf (Elt F) ((c : Thread nD τ).loc b)) (c : Dev nD),
      BodyObligation (dat1 (F := F) V c) (defs₀ (F := F)) Variants.none () Set.univ)
    (hb2 : ∀ (V : (c : Dev nD) → (b : Ref sig .tc) → Buf (Elt F) ((c : Thread nD τ).loc b)) (c : Dev nD),
      BodyObligation (dat2 (F := F) V c) (defs₀ (F := F)) Variants.none () Set.univ)
    (hb3 : ∀ (V : (c : Dev nD) → (b : Ref sig .tc) → Buf (Elt F) ((c : Thread nD τ).loc b)) (c : Dev nD),
      BodyObligation (dat3 (F := F) V c) (defs₀ (F := F)) Variants.none () Set.univ)
    (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v81) = Gen.V16 m (outs m) c main_v81
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  refine frame_cond_out m emb₁ () Variants.none runL runLv (fun _ _ => rfl) ρ (outs m) (runDats m)
    (O₀ := 0) (G := fun _ => iprop(emp))
    (u₀ := initOf (Pipeline.cells cfgs cellOf_inj) (Pipeline.launchToks cfgs cellOf_inj))
    (hu₀ := ?_) (E := fun _ c => runRest c) (hE0 := ?_) (hE4 := ?_)
    (runReg0 m hb0) (fun c => .rfl) (fun c => .rfl)
    (runReg1 m hb1) (fun c => .rfl) (fun c => .rfl)
    (runReg2 m hb2) (fun c => .rfl) (fun c => .rfl)
    (runReg3 m hb3) (fun c => .rfl) (fun c => .rfl)
  · -- the launch element is the library's at the staging cells; no ghost resource is needed
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- each core keeps its generator register and its dues, at nothing, out of what the launch deals it
    refine Pipeline.initEach runL runLv fun c => ?_
    iintro ⟨⟨-, HO, -, Hp, -⟩, -⟩
    imodintro
    isplitl [Hp]; · iexists _; iexact Hp
    iexists ∅; iexact HO
  · intro c
    iintro ⟨-, HO⟩
    iexact HO

end Cert.Kernel.Frame

end
-- ==== Proof.KEdgeMlpBody.lean ====
/-
  The edge network's launch (the first kernel region): the body.
  Each of the five input windows' staging buffers holds, at every grid point, that point's block of its array,
  whether or not the pipeline fetched it there (the edge-feature block is fetched at every point; the two weight
  matrices and the two biases have a constant block index, are fetched at the first point only, and the body leaves
  them in place).  The kernel body, run on whole staging buffers holding blocks `x0 … x4`, leaves the inputs as
  they were and the output buffer at `out0_5 x0 x1 x2 x3 x4`: it loads the five blocks whole, loads the output
  block (the value is unused), and stores one whole-block payload.  From these, the launch's body obligation.
-/
import proofs.«170167_j27212912788334_2_alg».proof.Proof.KEdgeMlpData

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the body finds in each input window's buffer -/

/-- The edge-feature window's current staging buffer holds its block at every point, for any record whose array is `V`'s (`hA`) and whose body leaves the block in place (`hafter`): the window is an input, uncut and never idle, so whether fetched at the point or not (then its block index has not moved) the buffer holds what a fetch there would put in it, which is the block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the first weight matrix (constant block index: fetched at the first point only, unmoved afterwards). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for the first bias row. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The same for the second weight matrix. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The same for the second bias. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Each input's current staging buffer holds its block at every point of the launch's record. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body's triple -/

set_option maxHeartbeats 1000000 in
/-- The kernel body on whole staging buffers, the five inputs' reading `x0 … x4` and the output's holding anything,
    runs to the continuation with the inputs as they were and the output's at `out0_5 x0 x1 x2 x3 x4`: five whole-block
    loads, a load of the output block whose value is unused, and one whole-block store, which covers the buffer. -/
theorem sound_kernel0 (c : Dev nD) (E : Set ℕ) (i : grid0.Coords)
    (arg1 : Memref sig .tc .vmem S12800x16 .f32) (harg1 : arg1.IsWhole) (arg2 : Memref sig .tc .vmem S16x64 .f32) (harg2 : arg2.IsWhole)
    (arg3 : Memref sig .tc .vmem S1x64 .f32) (harg3 : arg3.IsWhole) (arg4 : Memref sig .tc .vmem S64x1 .f32) (harg4 : arg4.IsWhole)
    (arg5 : Memref sig .tc .vmem S1x1 .f32) (harg5 : arg5.IsWhole) (arg6 : Memref sig .tc .vmem S12800x1 .f32) (harg6 : arg6.IsWhole)
    (x0 : Vec F S12800x16 .f32) (x1 : Vec F S16x64 .f32) (x2 : Vec F S1x64 .f32) (x3 : Vec F S64x1 .f32) (x4 : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__edge_mlp_kernel i arg1 harg1 arg2 harg2 arg3 harg3 arg4 harg4 arg5 harg5 arg6 harg6) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The body obligation, at a generic point -/

/-- What the body is called with at point `t`: the launch invariant, what the core owes, and each window's current
    staging buffer at what the record says the body finds there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks (`before0_W`), so `sound_kernel0` applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.KProjBody.lean ====
/-
  The body of the node projection's launch (the linear kernel  X·W + b  on blocks of 5000 rows, at S5000x128 · S128x192 + S1x192).
  At every grid point each input window's staging buffer holds that window's block — the rows' block is fetched at
  every point; the weight matrix and the bias row have a constant block index, are fetched at the first point only,
  and stay in place afterwards (`before1_w`). On those contents the body reads its three inputs, reads the output
  buffer without using the value, and stores one whole block: the output buffer ends at `out1_3` of the blocks read
  (`sound_kernel1`). Put together at a generic point, this is the launch's body obligation (`body_obligation1`).
-/
import proofs.«170167_j27212912788334_2_alg».proof.Proof.KProjData

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Input window 0's current staging buffer holds its block at every point, whether or not it was fetched there
    (where it was not, its block index has not moved since the point before), for any record whose array is the
    entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d

/-- Input window 1's current staging buffer holds its block at every point, whether or not it was fetched there
    (where it was not, its block index has not moved since the point before), for any record whose array is the
    entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_1 (c : Dev nD) (t : Fin cfg1.N) (d) : (dat1 V c).before 1 t d = iblk1 V c 1 t :=
  before1_1_of V (dat1 V c) (A_eq1 V c 1) (after1_1 V c) t d

/-- Input window 2's current staging buffer holds its block at every point, whether or not it was fetched there
    (where it was not, its block index has not moved since the point before), for any record whose array is the
    entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_2 (c : Dev nD) (t : Fin cfg1.N) (d) : (dat1 V c).before 2 t d = iblk1 V c 2 t :=
  before1_2_of V (dat1 V c) (A_eq1 V c 2) (after1_2 V c) t d

set_option maxHeartbeats 1000000 in
/-- The linear kernel's body on whole staging buffers, the three inputs at read contents `x0 x1 x2` and the output at
    anything: it reads the three inputs whole, reads the output buffer (the value is not used), and stores one whole
    block, so it runs to the continuation with the inputs as they were and the output at `out1_3 x0 x1 x2`. The
    body is its skeleton of memory operations; the one store covers the block. -/
theorem sound_kernel1 (c : Dev nD) (E : Set ℕ) (i : grid1.Coords) (arg1 : Memref sig .tc .vmem S5000x128 .f32) (harg1 : arg1.IsWhole) (arg2 : Memref sig .tc .vmem S128x192 .f32) (harg2 : arg2.IsWhole) (arg3 : Memref sig .tc .vmem S1x192 .f32) (harg3 : arg3.IsWhole) (arg4 : Memref sig .tc .vmem S5000x192 .f32) (harg4 : arg4.IsWhole)
    (x0 : Vec F S5000x128 .f32) (x1 : Vec F S128x192 .f32) (x2 : Vec F S1x192 .f32) (K' : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K' ⟨⟩))
      ⊢ wp frame (wpE (defs₀ (F := F)) Variants.none c none) E (cc1__linear_kernel i arg1 harg1 arg2 harg2 arg3 harg3 arg4 harg4) K' := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- What the body is called with at point `t`: the invariant, what the core owes, and each window's current staging
    buffer at what the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What the body returns at point `t`: the same, each staging buffer at what the record says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the three input buffers hold their blocks, so the kernel's triple applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.KArmaBody.lean ====
/-
  The body of the ARMA layer's linear map's launch (the linear kernel  X·W + b  on blocks of 5000 rows, at S5000x64 · S64x64 + S1x64).
  At every grid point each input window's staging buffer holds that window's block — the rows' block is fetched at
  every point; the weight matrix and the bias row have a constant block index, are fetched at the first point only,
  and stay in place afterwards (`before2_w`). On those contents the body reads its three inputs, reads the output
  buffer without using the value, and stores one whole block: the output buffer ends at `out2_3` of the blocks read
  (`sound_kernel2`). Put together at a generic point, this is the launch's body obligation (`body_obligation2`).
-/
import proofs.«170167_j27212912788334_2_alg».proof.Proof.KArmaData

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Input window 0's current staging buffer holds its block at every point, whether or not it was fetched there
    (where it was not, its block index has not moved since the point before), for any record whose array is the
    entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d

/-- Input window 1's current staging buffer holds its block at every point, whether or not it was fetched there
    (where it was not, its block index has not moved since the point before), for any record whose array is the
    entry contents and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_1 (c : Dev nD) (t : Fin cfg2.N) (d) : (dat2 V c).before 1 t d = iblk2 V c 1 t :=
  before2_1_of V (dat2 V c) (A_eq2 V c 1) (after2_1 V c) t d

/-- Input window 2's current staging buffer holds its block at every point, whether or not it was fetched there
    (where it was not, its block index has not moved since the point before), for any record whose array is the
    entry contents and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_2 (c : Dev nD) (t : Fin cfg2.N) (d) : (dat2 V c).before 2 t d = iblk2 V c 2 t :=
  before2_2_of V (dat2 V c) (A_eq2 V c 2) (after2_2 V c) t d

set_option maxHeartbeats 1000000 in
/-- The linear kernel's body on whole staging buffers, the three inputs at read contents `x0 x1 x2` and the output at
    anything: it reads the three inputs whole, reads the output buffer (the value is not used), and stores one whole
    block, so it runs to the continuation with the inputs as they were and the output at `out2_3 x0 x1 x2`. The
    body is its skeleton of memory operations; the one store covers the block. -/
theorem sound_kernel2 (c : Dev nD) (E : Set ℕ) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole)
    (x0 : Vec F S5000x64 .f32) (x1 : Vec F S64x64 .f32) (x2 : Vec F S1x64 .f32) (K' : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K' ⟨⟩))
      ⊢ wp frame (wpE (defs₀ (F := F)) Variants.none c none) E (cc2__linear_kernel i arg1 harg1 arg2 harg2 arg3 harg3 arg4 harg4) K' := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- What the body is called with at point `t`: the invariant, what the core owes, and each window's current staging
    buffer at what the pipeline left in it. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What the body returns at point `t`: the same, each staging buffer at what the record says the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the three input buffers hold their blocks, so the kernel's triple applies; the invariant
    and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Frame

end
-- ==== Proof.KHeadBody.lean ====
/-
  The body of the output head's linear map's launch (the linear kernel  X·W + b  on blocks of 5000 rows, at S5000x64 · S64x64 + S1x64).
  At every grid point each input window's staging buffer holds that window's block — the rows' block is fetched at
  every point; the weight matrix and the bias row have a constant block index, are fetched at the first point only,
  and stay in place afterwards (`before3_w`). On those contents the body reads its three inputs, reads the output
  buffer without using the value, and stores one whole block: the output buffer ends at `out3_3` of the blocks read
  (`sound_kernel3`). Put together at a generic point, this is the launch's body obligation (`body_obligation3`).
-/
import proofs.«170167_j27212912788334_2_alg».proof.Proof.KHeadData

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Input window 0's current staging buffer holds its block at every point, whether or not it was fetched there
    (where it was not, its block index has not moved since the point before), for any record whose array is the
    entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d

/-- Input window 1's current staging buffer holds its block at every point, whether or not it was fetched there
    (where it was not, its block index has not moved since the point before), for any record whose array is the
    entry contents and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_1 (c : Dev nD) (t : Fin cfg3.N) (d) : (dat3 V c).before 1 t d = iblk3 V c 1 t :=
  before3_1_of V (dat3 V c) (A_eq3 V c 1) (after3_1 V c) t d

/-- Input window 2's current staging buffer holds its block at every point, whether or not it was fetched there
    (where it was not, its block index has not moved since the point before), for any record whose array is the
    entry contents and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_2 (c : Dev nD) (t : Fin cfg3.N) (d) : (dat3 V c).before 2 t d = iblk3 V c 2 t :=
  before3_2_of V (dat3 V c) (A_eq3 V c 2) (after3_2 V c) t d

set_option maxHeartbeats 1000000 in
/-- The linear kernel's body on whole staging buffers, the three inputs at read contents `x0 x1 x2` and the output at
    anything: it reads the three inputs whole, reads the output buffer (the value is not used), and stores one whole
    block, so it runs to the continuation with the inputs as they were and the output at `out3_3 x0 x1 x2`. The
    body is its skeleton of memory operations; the one store covers the block. -/
theorem sound_kernel3 (c : Dev nD) (E : Set ℕ) (i : grid3.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole)
    (x0 : Vec F S5000x64 .f32) (x1 : Vec F S64x64 .f32) (x2 : Vec F S1x64 .f32) (K' : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K' ⟨⟩))
      ⊢ wp frame (wpE (defs₀ (F := F)) Variants.none c none) E (cc3__linear_kernel i arg1 harg1 arg2 harg2 arg3 harg3 arg4 harg4) K' := by
  simp only [cc3__linear_kernel_eq_skeleton]; unfold cc3__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- What the body is called with at point `t`: the invariant, what the core owes, and each window's current staging
    buffer at what the pipeline left in it. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- What the body returns at point `t`: the same, each staging buffer at what the record says the body leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the three input buffers hold their blocks, so the kernel's triple applies; the invariant
    and what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Frame

end
-- ==== Proof.KRun.lean ====
/-
  The run of @main, unconditionally: each of the four launches' bodies meets its obligation at every grid point, so
  every weakly fair execution of @main terminates with the result buffer holding what the last region leaves in it
  and every argument array as launched (`run`); forgetting the result buffer leaves the frame claim (`frame`).
-/
import proofs.«170167_j27212912788334_2_alg».proof.Proof.KRunCond
import proofs.«170167_j27212912788334_2_alg».proof.Proof.KEdgeMlpBody
import proofs.«170167_j27212912788334_2_alg».proof.Proof.KProjBody
import proofs.«170167_j27212912788334_2_alg».proof.Proof.KArmaBody
import proofs.«170167_j27212912788334_2_alg».proof.Proof.KHeadBody

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

/-- Every weakly fair execution of @main from the launch memory `m` terminates; on every core the result array ends at
    what the last region's write-backs leave in it, and every argument array ends as launched. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v81) = Gen.V16 m (outs m) c main_v81
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  run_of_bodies (fun V c => body_obligation0 V c) (fun V c => body_obligation1 V c)
    (fun V c => body_obligation2 V c) (fun V c => body_obligation3 V c) m ρ

/-- The frame claim: every weakly fair execution of @main terminates with every argument array as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => (h c).2) (run m ρ)

end Cert.Kernel.Frame

end
-- ==== Proof.Spec.lean ====
/-
  The arithmetic both programs perform, entry by entry, over the extended reals.
  `affine X W b r j` is entry (r, j) of X·W + b for a bias row b (1×N).
  `edgeWeight` is the edge network's output for edge r:  relu(relu(e·W1 + b1)·W2 + b2), a nonnegative weight.
-/
import Idealize.ShloMosaic.PureOps.Ideal
import Idealize.ShloMosaic.Lib.ValueIdx

noncomputable section

open scoped BigOperators

namespace Cert.Spec

open Idealize.ShloMosaic Idealize.ShloMosaic.ValueIdx

/-- Entry (r, j) of X·W + b, where b is a 1×N row added to every row of the product. -/
def affine {R K N : Nat} (X : (⟨2, ![R, K]⟩ : Shape).Idx → EReal) (W : (⟨2, ![K, N]⟩ : Shape).Idx → EReal)
    (b : (⟨2, ![1, N]⟩ : Shape).Idx → EReal) (r : Fin R) (j : Fin N) : EReal :=
  (∑ k : Fin K, X (ix2 r k) * W (ix2 k j)) + b (ix2 0 j)

/-- The hidden layer of the edge network as an E×64 array: relu(e·W1 + b1). -/
def edgeHidden {E : Nat} (ea : (⟨2, ![E, 16]⟩ : Shape).Idx → EReal) (w1 : (⟨2, ![16, 64]⟩ : Shape).Idx → EReal)
    (b1 : (⟨2, ![1, 64]⟩ : Shape).Idx → EReal) : (⟨2, ![E, 64]⟩ : Shape).Idx → EReal :=
  fun i => max (affine ea w1 b1 (i 0) (i 1)) 0

/-- The edge network's output for edge `r`: relu(relu(e·W1 + b1)·W2 + b2). -/
def edgeWeight {E : Nat} (ea : (⟨2, ![E, 16]⟩ : Shape).Idx → EReal) (w1 : (⟨2, ![16, 64]⟩ : Shape).Idx → EReal)
    (b1 : (⟨2, ![1, 64]⟩ : Shape).Idx → EReal) (w2 : (⟨2, ![64, 1]⟩ : Shape).Idx → EReal)
    (b2 : (⟨2, ![1, 1]⟩ : Shape).Idx → EReal) (r : Fin E) : EReal :=
  max (affine (edgeHidden ea w1 b1) w2 b2 r 0) 0

end Cert.Spec

end
-- ==== Proof.EdgeValue.lean ====
/-
  The edge network's launch (the first kernel region), read as one array.
  At the exact values (a float is an extended real, every operation exact) the region's output array is, edge by
  edge, relu(relu(e·W1 + b1)·W2 + b2): first one entry of what a grid point's body stores, as a function of the
  blocks it loaded; then the 125 blocks of 12800 edges put together into the whole array.
-/
import proofs.«170167_j27212912788334_2_alg».proof.Proof.EdgeMlpData
import proofs.«170167_j27212912788334_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

/-! ## The body's arithmetic at one entry -/

/-- Row coordinate of the left operand's index: the output's row. -/
theorem hidden_mm_lhs_0 (i : S12800x64.Idx) (q : (dot_S12800x16_S16x64_S12800x64_1_0_0_1_n_n).contr.Idx) :
    ((dot_S12800x16_S16x64_S12800x64_1_0_0_1_n_n).lhsIdx i q 0).val = (i 0).val := by
  unfold DotDims.lhsIdx
  rw [dif_neg (show ¬(0 : Fin S12800x16.rank) ∈ (dot_S12800x16_S16x64_S12800x64_1_0_0_1_n_n).lhsBatch by decide), dif_pos (show (0 : Fin S12800x16.rank) ∈ (dot_S12800x16_S16x64_S12800x64_1_0_0_1_n_n).lhsNonContracting by decide)]
  rfl
/-- Column coordinate of the left operand's index: the contraction coordinate. -/
theorem hidden_mm_lhs_1 (i : S12800x64.Idx) (q : (dot_S12800x16_S16x64_S12800x64_1_0_0_1_n_n).contr.Idx) :
    ((dot_S12800x16_S16x64_S12800x64_1_0_0_1_n_n).lhsIdx i q 1).val = (q ⟨0, by decide⟩).val :=
  (dot_S12800x16_S16x64_S12800x64_1_0_0_1_n_n).lhsIdx_val_of_single rfl i q
/-- Row coordinate of the right operand's index: the contraction coordinate. -/
theorem hidden_mm_rhs_0 (i : S12800x64.Idx) (q : (dot_S12800x16_S16x64_S12800x64_1_0_0_1_n_n).contr.Idx) :
    ((dot_S12800x16_S16x64_S12800x64_1_0_0_1_n_n).rhsIdx i q 0).val = (q ⟨0, by decide⟩).val :=
  (dot_S12800x16_S16x64_S12800x64_1_0_0_1_n_n).rhsIdx_val_of_single rfl i q
/-- Column coordinate of the right operand's index: the output's column. -/
theorem hidden_mm_rhs_1 (i : S12800x64.Idx) (q : (dot_S12800x16_S16x64_S12800x64_1_0_0_1_n_n).contr.Idx) :
    ((dot_S12800x16_S16x64_S12800x64_1_0_0_1_n_n).rhsIdx i q 1).val = (i 1).val := by
  unfold DotDims.rhsIdx
  rw [dif_neg (show ¬(1 : Fin S16x64.rank) ∈ (dot_S12800x16_S16x64_S12800x64_1_0_0_1_n_n).rhsBatch by decide), dif_pos (show (1 : Fin S16x64.rank) ∈ (dot_S12800x16_S16x64_S12800x64_1_0_0_1_n_n).rhsNonContracting by decide)]
  rfl

/-- The first product into a zero accumulator, at entry (p, q): the plain sum over the sixteen edge features. -/
theorem hidden_mm_apply (a : FVec Ideal S12800x16 .bf16) (b : FVec Ideal S16x64 .bf16) (p : Fin 12800) (q : Fin 64) :
    matmul (dot_S12800x16_S16x64_S12800x64_1_0_0_1_n_n) none a b (constant S12800x64 .f32 0x00000000#32) (ix2 p q) = ∑ k : Fin 16, a (ix2 p k) * b (ix2 k q) := by
  simp only [matmul]
  rw [Ideal.matmul_constant_zero_apply, ← Equiv.sum_comp (contrEquiv1 (dot_S12800x16_S16x64_S12800x64_1_0_0_1_n_n) 16 rfl rfl).symm]
  refine Finset.sum_congr rfl fun k _ => ?_
  have hk := contrEquiv1_symm_val (dot_S12800x16_S16x64_S12800x64_1_0_0_1_n_n) 16 rfl rfl k
  have el : (dot_S12800x16_S16x64_S12800x64_1_0_0_1_n_n).lhsIdx (ix2 p q) ((contrEquiv1 (dot_S12800x16_S16x64_S12800x64_1_0_0_1_n_n) 16 rfl rfl).symm k) = ix2 p k := funext fun a => Fin.ext (by
    match a with
    | ⟨0, _⟩ => exact hidden_mm_lhs_0 _ _
    | ⟨1, _⟩ => exact (hidden_mm_lhs_1 _ _).trans hk)
  have er : (dot_S12800x16_S16x64_S12800x64_1_0_0_1_n_n).rhsIdx (ix2 p q) ((contrEquiv1 (dot_S12800x16_S16x64_S12800x64_1_0_0_1_n_n) 16 rfl rfl).symm k) = ix2 k q := funext fun a => Fin.ext (by
    match a with
    | ⟨0, _⟩ => exact (hidden_mm_rhs_0 _ _).trans hk
    | ⟨1, _⟩ => exact hidden_mm_rhs_1 _ _)
  rw [el, er]

/-- Row coordinate of the left operand's index: the output's row. -/
theorem out_mm_lhs_0 (i : S12800x1.Idx) (q : (dot_S12800x64_S64x1_S12800x1_1_0_0_1_n_n).contr.Idx) :
    ((dot_S12800x64_S64x1_S12800x1_1_0_0_1_n_n).lhsIdx i q 0).val = (i 0).val := by
  unfold DotDims.lhsIdx
  rw [dif_neg (show ¬(0 : Fin S12800x64.rank) ∈ (dot_S12800x64_S64x1_S12800x1_1_0_0_1_n_n).lhsBatch by decide), dif_pos (show (0 : Fin S12800x64.rank) ∈ (dot_S12800x64_S64x1_S12800x1_1_0_0_1_n_n).lhsNonContracting by decide)]
  rfl
/-- Column coordinate of the left operand's index: the contraction coordinate. -/
theorem out_mm_lhs_1 (i : S12800x1.Idx) (q : (dot_S12800x64_S64x1_S12800x1_1_0_0_1_n_n).contr.Idx) :
    ((dot_S12800x64_S64x1_S12800x1_1_0_0_1_n_n).lhsIdx i q 1).val = (q ⟨0, by decide⟩).val :=
  (dot_S12800x64_S64x1_S12800x1_1_0_0_1_n_n).lhsIdx_val_of_single rfl i q
/-- Row coordinate of the right operand's index: the contraction coordinate. -/
theorem out_mm_rhs_0 (i : S12800x1.Idx) (q : (dot_S12800x64_S64x1_S12800x1_1_0_0_1_n_n).contr.Idx) :
    ((dot_S12800x64_S64x1_S12800x1_1_0_0_1_n_n).rhsIdx i q 0).val = (q ⟨0, by decide⟩).val :=
  (dot_S12800x64_S64x1_S12800x1_1_0_0_1_n_n).rhsIdx_val_of_single rfl i q
/-- Column coordinate of the right operand's index: the output's column. -/
theorem out_mm_rhs_1 (i : S12800x1.Idx) (q : (dot_S12800x64_S64x1_S12800x1_1_0_0_1_n_n).contr.Idx) :
    ((dot_S12800x64_S64x1_S12800x1_1_0_0_1_n_n).rhsIdx i q 1).val = (i 1).val := by
  unfold DotDims.rhsIdx
  rw [dif_neg (show ¬(1 : Fin S64x1.rank) ∈ (dot_S12800x64_S64x1_S12800x1_1_0_0_1_n_n).rhsBatch by decide), dif_pos (show (1 : Fin S64x1.rank) ∈ (dot_S12800x64_S64x1_S12800x1_1_0_0_1_n_n).rhsNonContracting by decide)]
  rfl

/-- The second product into a zero accumulator, at entry (p, q): the plain sum over the sixty-four hidden units. -/
theorem out_mm_apply (a : FVec Ideal S12800x64 .bf16) (b : FVec Ideal S64x1 .bf16) (p : Fin 12800) (q : Fin 1) :
    matmul (dot_S12800x64_S64x1_S12800x1_1_0_0_1_n_n) none a b (constant S12800x1 .f32 0x00000000#32) (ix2 p q) = ∑ k : Fin 64, a (ix2 p k) * b (ix2 k q) := by
  simp only [matmul]
  rw [Ideal.matmul_constant_zero_apply, ← Equiv.sum_comp (contrEquiv1 (dot_S12800x64_S64x1_S12800x1_1_0_0_1_n_n) 64 rfl rfl).symm]
  refine Finset.sum_congr rfl fun k _ => ?_
  have hk := contrEquiv1_symm_val (dot_S12800x64_S64x1_S12800x1_1_0_0_1_n_n) 64 rfl rfl k
  have el : (dot_S12800x64_S64x1_S12800x1_1_0_0_1_n_n).lhsIdx (ix2 p q) ((contrEquiv1 (dot_S12800x64_S64x1_S12800x1_1_0_0_1_n_n) 64 rfl rfl).symm k) = ix2 p k := funext fun a => Fin.ext (by
    match a with
    | ⟨0, _⟩ => exact out_mm_lhs_0 _ _
    | ⟨1, _⟩ => exact (out_mm_lhs_1 _ _).trans hk)
  have er : (dot_S12800x64_S64x1_S12800x1_1_0_0_1_n_n).rhsIdx (ix2 p q) ((contrEquiv1 (dot_S12800x64_S64x1_S12800x1_1_0_0_1_n_n) 64 rfl rfl).symm k) = ix2 k q := funext fun a => Fin.ext (by
    match a with
    | ⟨0, _⟩ => exact (out_mm_rhs_0 _ _).trans hk
    | ⟨1, _⟩ => exact out_mm_rhs_1 _ _)
  rw [el, er]

/-- The zero the two relus compare against is the extended real 0. -/
theorem relu_zero : (FloatOps.ofBits .f32 0x00000000#32 : Ideal .f32) = 0 := Ideal.ofBits_zero_f32

set_option maxHeartbeats 400000 in
/-- Entry p of the body's result: relu(relu(e·W1 + b1)·W2 + b2) for row p of the block of edge features.
    At the exact values the narrowings to bf16 are the identity and each product is a plain sum. -/
theorem k0_pay1_apply (x0 : Vec Ideal S12800x16 .f32) (x1 : Vec Ideal S16x64 .f32) (x2 : Vec Ideal S1x64 .f32)
    (x3 : Vec Ideal S64x1 .f32) (x4 : Vec Ideal S1x1 .f32) (p : Fin 12800) :
    k0_pay1 (F := Ideal) x0 x1 x2 x3 x4 (ix2 p 0)
      = max ((∑ k : Fin 64, max ((∑ j : Fin 16, x0 (ix2 p j) * x1 (ix2 j k)) + x2 (ix2 0 k)) 0 * x3 (ix2 k 0)) + x4 (ix2 0 0)) 0 := by
  unfold k0_pay1
  simp only [shapeCast_self]
  rw [maximumf_apply, broadcast_apply, addf_apply, broadcastTo_1b_ab_apply, out_mm_apply]
  show max _ (FloatOps.ofBits .f32 0x00000000#32 : Ideal .f32) = _
  rw [relu_zero]
  refine congrArg (fun s => max (s + x4 (ix2 0 0)) 0) (Finset.sum_congr rfl fun k _ => ?_)
  rw [truncf_apply, truncf_apply, maximumf_apply, broadcast_apply, addf_apply, broadcastTo_1b_ab_apply, hidden_mm_apply]
  simp only [truncf_apply]

/-! ## From the blocks to the array -/

-- the TensorCore's buffer contents when the region is entered
variable (V : (c : Dev nD) → (b : Ref sig .tc) → Buf (Elt Ideal) ((c : Thread nD τ).loc b))

theorem zero_off0 : (![0, 0] : Fin 2 → Nat) = fun _ => 0 := funext fun a => by fin_cases a <;> rfl

/-- The array the region leaves: the edge network's weight for every edge. -/
abbrev G0 (EA : S1600000x16.Idx → EReal) (W1 : S16x64.Idx → EReal) (B1 : S1x64.Idx → EReal) (W2 : S64x1.Idx → EReal)
    (B2 : S1x1.Idx → EReal) : S1600000x1.Idx → EReal :=
  fun i => Cert.Spec.edgeWeight EA W1 B1 W2 B2 (i 0)

/-- The printed index maps, decided over the 125 grid points: the blocks of edges (windows 0 and 5) are block t of
    their arrays, the two matrices and the two biases are the whole arrays at every point. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- One entry of what a point stores, when row p of its block of edge features is edge r's row and its other
    four blocks are the whole arrays: edge r's weight. -/
theorem point0 (EA : S1600000x16.Idx → EReal) (W1 : S16x64.Idx → EReal) (B1 : S1x64.Idx → EReal) (W2 : S64x1.Idx → EReal)
    (B2 : S1x1.Idx → EReal)
    (x0 : Vec Ideal S12800x16 .f32) (x1 : Vec Ideal S16x64 .f32) (x2 : Vec Ideal S1x64 .f32)
    (x3 : Vec Ideal S64x1 .f32) (x4 : Vec Ideal S1x1 .f32)
    (p : Fin 12800) (z : Fin 1) (r : Fin 1600000)
    (h0 : ∀ j : Fin 16, x0 (ix2 p j) = EA (ix2 r j)) (h1 : x1 = W1) (h2 : x2 = B1) (h3 : x3 = W2) (h4 : x4 = B2) :
    k0_pay1 (F := Ideal) x0 x1 x2 x3 x4 (ix2 p z) = Cert.Spec.edgeWeight EA W1 B1 W2 B2 r := by
  obtain rfl : z = 0 := Subsingleton.elim _ _
  subst h1 h2 h3 h4
  rw [k0_pay1_apply]
  unfold Cert.Spec.edgeWeight Cert.Spec.affine Cert.Spec.edgeHidden Cert.Spec.affine
  simp only [h0]

set_option maxHeartbeats 400000 in
/-- What grid point t writes back is block t of the edge weights of the arrays as the region finds them. -/
theorem flushed0_eq (c : Dev nD) (t : Fin cfg0.N) :
    (dat0 (F := Ideal) V c).flushed 5 t = ((cfg0.win 5).blk t).view.read (Elt Ideal)
      (G0 (V c (Pipeline.arrRef spec0 0)) (V c (Pipeline.arrRef spec0 1)) (V c (Pipeline.arrRef spec0 2))
        (V c (Pipeline.arrRef spec0 3)) (V c (Pipeline.arrRef spec0 4))) := by
  show (cfg0.win 5).cut (grid0.coords t) ((dat0 (F := Ideal) V c).after 5 t) = _
  rw [after0_5]
  unfold out0_5
  rw [View.canon_unit_zero zero_off0]
  simp only [View.ld_unit_zero (S := S12800x16) zero_off0, View.ld_unit_zero (S := S16x64) zero_off0, View.ld_unit_zero (S := S1x64) zero_off0,
    View.ld_unit_zero (S := S64x1) zero_off0, View.ld_unit_zero (S := S1x1) zero_off0]
  obtain ⟨e00, e01, e10, e11, e20, e21, e30, e31, e40, e41, e50, e51⟩ := idx_facts0 t
  funext j
  obtain ⟨p, z, rfl⟩ : ∃ (p : Fin 12800) (z : Fin 1), j = ix2 p z := ⟨j 0, j 1, eq_ix2 j⟩
  show k0_pay1 (F := Ideal) (iblk0 V c 0 t) (iblk0 V c 1 t) (iblk0 V c 2 t) (iblk0 V c 3 t) (iblk0 V c 4 t) (ix2 p z)
    = G0 (V c (Pipeline.arrRef spec0 0)) (V c (Pipeline.arrRef spec0 1)) (V c (Pipeline.arrRef spec0 2))
        (V c (Pipeline.arrRef spec0 3)) (V c (Pipeline.arrRef spec0 4)) (((cfg0.win 5).blk t).view.emb (ix2 p z))
  refine point0 _ _ _ _ _ _ _ _ _ _ p z _ ?_ ?_ ?_ ?_ ?_
  · intro k
    show V c (Pipeline.arrRef spec0 0) (((cfg0.win 0).blk t).view.emb (ix2 p k)) = V c (Pipeline.arrRef spec0 0) (ix2 _ k)
    refine congrArg _ (funext fun a => Fin.ext ?_)
    match a with
    | ⟨0, _⟩ => show win0_0.index t (0 : Fin 2) * 12800 + 1 * p.val = win0_5.index t (0 : Fin 2) * 12800 + 1 * p.val; omega
    | ⟨1, _⟩ => show win0_0.index t (1 : Fin 2) * 16 + 1 * k.val = k.val; omega
  · funext y
    show V c (Pipeline.arrRef spec0 1) (((cfg0.win 1).blk t).view.emb y) = V c (Pipeline.arrRef spec0 1) y
    refine congrArg _ (funext fun a => Fin.ext ?_)
    match a with
    | ⟨0, _⟩ => show win0_1.index t (0 : Fin 2) * 16 + 1 * (y 0).val = (y 0).val; omega
    | ⟨1, _⟩ => show win0_1.index t (1 : Fin 2) * 64 + 1 * (y 1).val = (y 1).val; omega
  · funext y
    show V c (Pipeline.arrRef spec0 2) (((cfg0.win 2).blk t).view.emb y) = V c (Pipeline.arrRef spec0 2) y
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 64 + 1 * (y 1).val = (y 1).val; omega
  · funext y
    show V c (Pipeline.arrRef spec0 3) (((cfg0.win 3).blk t).view.emb y) = V c (Pipeline.arrRef spec0 3) y
    refine congrArg _ (funext fun a => Fin.ext ?_)
    match a with
    | ⟨0, _⟩ => show win0_3.index t (0 : Fin 2) * 64 + 1 * (y 0).val = (y 0).val; omega
    | ⟨1, _⟩ => show win0_3.index t (1 : Fin 2) * 1 + 1 * (y 1).val = (y 1).val; omega
  · funext y
    show V c (Pipeline.arrRef spec0 4) (((cfg0.win 4).blk t).view.emb y) = V c (Pipeline.arrRef spec0 4) y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 1 + 1 * (y 1).val = (y 1).val; omega

/-- An index of the output array is in point t's block iff each coordinate is in the block's range on its axis. -/
theorem mem_blk0 (t : Fin cfg0.N) (i : S1600000x1.Idx) :
    i ∈ ((cfg0.win 5).blk t).view.set ↔ ∀ a : Fin 2, win0_5.index t a * S12800x1.size a ≤ (i a).val ∧ (i a).val < win0_5.index t a * S12800x1.size a + S12800x1.size a := by
  show i ∈ ((View.whole main_v6).slice (win0_5.rect t)).set ↔ _
  rw [View.set_slice_whole, Rect.mem_set_unit]
  exact Iff.rfl

/-- Edge r lies in the block of grid point r / 12800: the 125 blocks of 12800 edges tile the array. -/
theorem cover0 (i : S1600000x1.Idx) :
    ∃ t : Fin cfg0.N, (cfg0.win 5).flush t = true ∧ i ∈ ((cfg0.win 5).blk t).view.set := by
  have h0 : (i 0).val < 1600000 := (i 0).isLt
  have h1 : (i 1).val < 1 := (i 1).isLt
  have hN : cfg0.N = 125 := N_0
  have ht : (i 0).val / 12800 < cfg0.N := by rw [hN]; omega
  obtain ⟨-, -, -, -, -, -, -, -, -, -, e50, e51⟩ := idx_facts0 ⟨(i 0).val / 12800, ht⟩
  refine ⟨⟨(i 0).val / 12800, ht⟩, flush0_5 _, ?_⟩
  rw [mem_blk0]
  intro a
  match a with
  | ⟨0, _⟩ =>
    show win0_5.index ⟨(i 0).val / 12800, ht⟩ (0 : Fin 2) * 12800 ≤ (i 0).val ∧ (i 0).val < win0_5.index ⟨(i 0).val / 12800, ht⟩ (0 : Fin 2) * 12800 + 12800
    rw [e50]
    show (i 0).val / 12800 * 12800 ≤ (i 0).val ∧ (i 0).val < (i 0).val / 12800 * 12800 + 12800
    omega
  | ⟨1, _⟩ =>
    show win0_5.index ⟨(i 0).val / 12800, ht⟩ (1 : Fin 2) * 1 ≤ (i 1).val ∧ (i 1).val < win0_5.index ⟨(i 0).val / 12800, ht⟩ (1 : Fin 2) * 1 + 1
    omega

/-- The array the region leaves in its output buffer: the edge network's weight of every edge, from the five arrays
    it reads. -/
theorem final0 (c : Dev nD) : (dat0 (F := Ideal) V c).arrAt 5 cfg0.N
    = fun i => Cert.Spec.edgeWeight (V c main_arg2) (V c main_arg3) (V c main_v4) (V c main_arg5) (V c main_v5) (i 0) :=
  (dat0 (F := Ideal) V c).arrAt_eq_of_cover 5 (G0 (V c main_arg2) (V c main_arg3) (V c main_v4) (V c main_arg5) (V c main_v5))
    (fun t _ => flushed0_eq V c t) cover0

end Cert.KernelIdeal.RegionValue

end
-- ==== Proof.LinearValue1.lean ====
/-
  The node projection's launch (the second kernel region), read as one array.
  At the exact values (a float is an extended real, every operation exact) the region's output array is
  X·W + b entry by entry: first one entry of what a grid point's body stores, as a function of the blocks it
  loaded; then the twenty blocks of 5000 rows put together into the whole array.
-/
import proofs.«170167_j27212912788334_2_alg».proof.Proof.ProjData
import proofs.«170167_j27212912788334_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

/-! ## The body's arithmetic at one entry -/

/-- Row coordinate of the left operand's index: the output's row. -/
theorem lhs1_0 (i : S5000x192.Idx) (q : (dot_S5000x128_S128x192_S5000x192_1_0_0_1_n_n).contr.Idx) :
    ((dot_S5000x128_S128x192_S5000x192_1_0_0_1_n_n).lhsIdx i q 0).val = (i 0).val := by
  unfold DotDims.lhsIdx
  rw [dif_neg (show ¬(0 : Fin S5000x128.rank) ∈ (dot_S5000x128_S128x192_S5000x192_1_0_0_1_n_n).lhsBatch by decide), dif_pos (show (0 : Fin S5000x128.rank) ∈ (dot_S5000x128_S128x192_S5000x192_1_0_0_1_n_n).lhsNonContracting by decide)]
  rfl
/-- Column coordinate of the left operand's index: the contraction coordinate. -/
theorem lhs1_1 (i : S5000x192.Idx) (q : (dot_S5000x128_S128x192_S5000x192_1_0_0_1_n_n).contr.Idx) :
    ((dot_S5000x128_S128x192_S5000x192_1_0_0_1_n_n).lhsIdx i q 1).val = (q ⟨0, by decide⟩).val :=
  (dot_S5000x128_S128x192_S5000x192_1_0_0_1_n_n).lhsIdx_val_of_single rfl i q
/-- Row coordinate of the right operand's index: the contraction coordinate. -/
theorem rhs1_0 (i : S5000x192.Idx) (q : (dot_S5000x128_S128x192_S5000x192_1_0_0_1_n_n).contr.Idx) :
    ((dot_S5000x128_S128x192_S5000x192_1_0_0_1_n_n).rhsIdx i q 0).val = (q ⟨0, by decide⟩).val :=
  (dot_S5000x128_S128x192_S5000x192_1_0_0_1_n_n).rhsIdx_val_of_single rfl i q
/-- Column coordinate of the right operand's index: the output's column. -/
theorem rhs1_1 (i : S5000x192.Idx) (q : (dot_S5000x128_S128x192_S5000x192_1_0_0_1_n_n).contr.Idx) :
    ((dot_S5000x128_S128x192_S5000x192_1_0_0_1_n_n).rhsIdx i q 1).val = (i 1).val := by
  unfold DotDims.rhsIdx
  rw [dif_neg (show ¬(1 : Fin S128x192.rank) ∈ (dot_S5000x128_S128x192_S5000x192_1_0_0_1_n_n).rhsBatch by decide), dif_pos (show (1 : Fin S128x192.rank) ∈ (dot_S5000x128_S128x192_S5000x192_1_0_0_1_n_n).rhsNonContracting by decide)]
  rfl

/-- Entry (p, q) of the body's result: row p of the block times column q of the matrix, plus the bias row at q.
    At the exact values the narrowing to bf16 is the identity and the product into a zero accumulator is the plain sum. -/
theorem k1_pay1_apply (x0 : Vec Ideal S5000x128 .f32) (x1 : Vec Ideal S128x192 .f32) (x2 : Vec Ideal S1x192 .f32)
    (p : Fin 5000) (q : Fin 192) :
    k1_pay1 (F := Ideal) x0 x1 x2 (ix2 p q) = (∑ k : Fin 128, x0 (ix2 p k) * x1 (ix2 k q)) + x2 (ix2 0 q) := by
  unfold k1_pay1
  simp only [shapeCast_self]
  rw [addf_apply, broadcastTo_1b_ab_apply]
  congr 1
  simp only [matmul]
  rw [Ideal.matmul_constant_zero_apply, ← Equiv.sum_comp (contrEquiv1 (dot_S5000x128_S128x192_S5000x192_1_0_0_1_n_n) 128 rfl rfl).symm]
  refine Finset.sum_congr rfl fun k _ => ?_
  have hk := contrEquiv1_symm_val (dot_S5000x128_S128x192_S5000x192_1_0_0_1_n_n) 128 rfl rfl k
  have el : (dot_S5000x128_S128x192_S5000x192_1_0_0_1_n_n).lhsIdx (ix2 p q) ((contrEquiv1 (dot_S5000x128_S128x192_S5000x192_1_0_0_1_n_n) 128 rfl rfl).symm k) = ix2 p k := funext fun a => Fin.ext (by
    match a with
    | ⟨0, _⟩ => exact lhs1_0 _ _
    | ⟨1, _⟩ => exact (lhs1_1 _ _).trans hk)
  have er : (dot_S5000x128_S128x192_S5000x192_1_0_0_1_n_n).rhsIdx (ix2 p q) ((contrEquiv1 (dot_S5000x128_S128x192_S5000x192_1_0_0_1_n_n) 128 rfl rfl).symm k) = ix2 k q := funext fun a => Fin.ext (by
    match a with
    | ⟨0, _⟩ => exact (rhs1_0 _ _).trans hk
    | ⟨1, _⟩ => exact rhs1_1 _ _)
  rw [truncf_apply, truncf_apply, el, er]

/-! ## From the blocks to the array -/

-- the TensorCore's buffer contents when the region is entered
variable (V : (c : Dev nD) → (b : Ref sig .tc) → Buf (Elt Ideal) ((c : Thread nD τ).loc b))

theorem zero_off1 : (![0, 0] : Fin 2 → Nat) = fun _ => 0 := funext fun a => by fin_cases a <;> rfl

/-- The array the region leaves: entry (r, j) of X·W + b for the three arrays the region reads. -/
abbrev G1 (X : S100000x128.Idx → EReal) (W : S128x192.Idx → EReal) (b : S1x192.Idx → EReal) : S100000x192.Idx → EReal :=
  fun i => Cert.Spec.affine X W b (i 0) (i 1)

/-- The printed index maps, decided over the twenty grid points: the row blocks (windows 0 and 3) are block t of
    their arrays, the matrix and the bias row are the whole arrays at every point. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- One entry of what a point stores, when row p of its row block is row r of X and its other two blocks agree
    with W and b where that entry reads them: the entry of X·W + b. -/
theorem point1 (X : S100000x128.Idx → EReal) (W : S128x192.Idx → EReal) (b : S1x192.Idx → EReal)
    (x0 : Vec Ideal S5000x128 .f32) (x1 : Vec Ideal S128x192 .f32) (x2 : Vec Ideal S1x192 .f32)
    (p : Fin 5000) (q : Fin 192) (r : Fin 100000) (q' : Fin 192) (hq : q' = q)
    (h0 : ∀ k : Fin 128, x0 (ix2 p k) = X (ix2 r k)) (h1 : ∀ k : Fin 128, x1 (ix2 k q) = W (ix2 k q))
    (h2 : x2 (ix2 0 q) = b (ix2 0 q)) :
    k1_pay1 (F := Ideal) x0 x1 x2 (ix2 p q) = Cert.Spec.affine X W b r q' := by
  subst hq
  rw [k1_pay1_apply]
  unfold Cert.Spec.affine
  rw [h2]
  exact congrArg (· + b (ix2 0 q')) (Finset.sum_congr rfl fun k _ => by rw [h0 k, h1 k])

set_option maxHeartbeats 400000 in
/-- What grid point t writes back is block t of X·W + b of the arrays as the region finds them. -/
theorem flushed1_eq (c : Dev nD) (t : Fin cfg1.N) :
    (dat1 (F := Ideal) V c).flushed 3 t = ((cfg1.win 3).blk t).view.read (Elt Ideal)
      (G1 (V c (Pipeline.arrRef spec1 0)) (V c (Pipeline.arrRef spec1 1)) (V c (Pipeline.arrRef spec1 2))) := by
  show (cfg1.win 3).cut (grid1.coords t) ((dat1 (F := Ideal) V c).after 3 t) = _
  rw [after1_3]
  unfold out1_3
  rw [View.canon_unit_zero zero_off1]
  simp only [View.ld_unit_zero (S := S5000x128) zero_off1, View.ld_unit_zero (S := S128x192) zero_off1, View.ld_unit_zero (S := S1x192) zero_off1]
  obtain ⟨e00, e01, e10, e11, e20, e21, e30, e31⟩ := idx_facts1 t
  funext j
  obtain ⟨p, q, rfl⟩ : ∃ (p : Fin 5000) (q : Fin 192), j = ix2 p q := ⟨j 0, j 1, eq_ix2 j⟩
  show k1_pay1 (F := Ideal) (iblk1 V c 0 t) (iblk1 V c 1 t) (iblk1 V c 2 t) (ix2 p q)
    = G1 (V c (Pipeline.arrRef spec1 0)) (V c (Pipeline.arrRef spec1 1)) (V c (Pipeline.arrRef spec1 2)) (((cfg1.win 3).blk t).view.emb (ix2 p q))
  refine point1 _ _ _ _ _ _ p q _ _ ?_ ?_ ?_ ?_
  · apply Fin.ext
    show win1_3.index t (1 : Fin 2) * 192 + 1 * q.val = q.val
    omega
  · intro k
    show V c (Pipeline.arrRef spec1 0) (((cfg1.win 0).blk t).view.emb (ix2 p k)) = V c (Pipeline.arrRef spec1 0) (ix2 _ k)
    refine congrArg _ (funext fun a => Fin.ext ?_)
    match a with
    | ⟨0, _⟩ => show win1_0.index t (0 : Fin 2) * 5000 + 1 * p.val = win1_3.index t (0 : Fin 2) * 5000 + 1 * p.val; omega
    | ⟨1, _⟩ => show win1_0.index t (1 : Fin 2) * 128 + 1 * k.val = k.val; omega
  · intro k
    show V c (Pipeline.arrRef spec1 1) (((cfg1.win 1).blk t).view.emb (ix2 k q)) = V c (Pipeline.arrRef spec1 1) (ix2 k q)
    refine congrArg _ (funext fun a => Fin.ext ?_)
    match a with
    | ⟨0, _⟩ => show win1_1.index t (0 : Fin 2) * 128 + 1 * k.val = k.val; omega
    | ⟨1, _⟩ => show win1_1.index t (1 : Fin 2) * 192 + 1 * q.val = q.val; omega
  · show V c (Pipeline.arrRef spec1 2) (((cfg1.win 2).blk t).view.emb (ix2 0 q)) = V c (Pipeline.arrRef spec1 2) (ix2 0 q)
    refine congrArg _ (funext fun a => Fin.ext ?_)
    match a with
    | ⟨0, _⟩ => show win1_2.index t (0 : Fin 2) * 1 + 1 * 0 = 0; omega
    | ⟨1, _⟩ => show win1_2.index t (1 : Fin 2) * 192 + 1 * q.val = q.val; omega

/-- An index of the output array is in point t's block iff each coordinate is in the block's range on its axis. -/
theorem mem_blk1 (t : Fin cfg1.N) (i : S100000x192.Idx) :
    i ∈ ((cfg1.win 3).blk t).view.set ↔ ∀ a : Fin 2, win1_3.index t a * S5000x192.size a ≤ (i a).val ∧ (i a).val < win1_3.index t a * S5000x192.size a + S5000x192.size a := by
  show i ∈ ((View.whole main_v37).slice (win1_3.rect t)).set ↔ _
  rw [View.set_slice_whole, Rect.mem_set_unit]
  exact Iff.rfl

/-- Row r of the output array lies in the block of grid point r / 5000: the twenty blocks of 5000 rows tile it. -/
theorem cover1 (i : S100000x192.Idx) :
    ∃ t : Fin cfg1.N, (cfg1.win 3).flush t = true ∧ i ∈ ((cfg1.win 3).blk t).view.set := by
  have h0 : (i 0).val < 100000 := (i 0).isLt
  have h1 : (i 1).val < 192 := (i 1).isLt
  have hN : cfg1.N = 20 := N_1
  have ht : (i 0).val / 5000 < cfg1.N := by rw [hN]; omega
  obtain ⟨-, -, -, -, -, -, e30, e31⟩ := idx_facts1 ⟨(i 0).val / 5000, ht⟩
  refine ⟨⟨(i 0).val / 5000, ht⟩, flush1_3 _, ?_⟩
  rw [mem_blk1]
  intro a
  match a with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win1_3.index ⟨(i 0).val / 5000, ht⟩ (1 : Fin 2) * 192 ≤ (i 1).val ∧ (i 1).val < win1_3.index ⟨(i 0).val / 5000, ht⟩ (1 : Fin 2) * 192 + 192
    omega

/-- The array the region leaves in its output buffer: X·W + b of the three arrays it reads, entry by entry. -/
theorem final1 (c : Dev nD) : (dat1 (F := Ideal) V c).arrAt 3 cfg1.N
    = fun i => Cert.Spec.affine (V c main_arg0) (V c main_v34) (V c main_v36) (i 0) (i 1) :=
  (dat1 (F := Ideal) V c).arrAt_eq_of_cover 3 (G1 (V c main_arg0) (V c main_v34) (V c main_v36))
    (fun t _ => flushed1_eq V c t) cover1

end Cert.KernelIdeal.RegionValue

end
-- ==== Proof.LinearValue2.lean ====
/-
  The second layer's launch (the third kernel region), read as one array.
  At the exact values (a float is an extended real, every operation exact) the region's output array is
  X·W + b entry by entry: first one entry of what a grid point's body stores, as a function of the blocks it
  loaded; then the twenty blocks of 5000 rows put together into the whole array.
-/
import proofs.«170167_j27212912788334_2_alg».proof.Proof.ArmaData
import proofs.«170167_j27212912788334_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

/-! ## The body's arithmetic at one entry -/

/-- Row coordinate of the left operand's index: the output's row. -/
theorem lhs2_0 (i : S5000x64.Idx) (q : (dot_S5000x64_S64x64_S5000x64_1_0_0_1_n_n).contr.Idx) :
    ((dot_S5000x64_S64x64_S5000x64_1_0_0_1_n_n).lhsIdx i q 0).val = (i 0).val := by
  unfold DotDims.lhsIdx
  rw [dif_neg (show ¬(0 : Fin S5000x64.rank) ∈ (dot_S5000x64_S64x64_S5000x64_1_0_0_1_n_n).lhsBatch by decide), dif_pos (show (0 : Fin S5000x64.rank) ∈ (dot_S5000x64_S64x64_S5000x64_1_0_0_1_n_n).lhsNonContracting by decide)]
  rfl
/-- Column coordinate of the left operand's index: the contraction coordinate. -/
theorem lhs2_1 (i : S5000x64.Idx) (q : (dot_S5000x64_S64x64_S5000x64_1_0_0_1_n_n).contr.Idx) :
    ((dot_S5000x64_S64x64_S5000x64_1_0_0_1_n_n).lhsIdx i q 1).val = (q ⟨0, by decide⟩).val :=
  (dot_S5000x64_S64x64_S5000x64_1_0_0_1_n_n).lhsIdx_val_of_single rfl i q
/-- Row coordinate of the right operand's index: the contraction coordinate. -/
theorem rhs2_0 (i : S5000x64.Idx) (q : (dot_S5000x64_S64x64_S5000x64_1_0_0_1_n_n).contr.Idx) :
    ((dot_S5000x64_S64x64_S5000x64_1_0_0_1_n_n).rhsIdx i q 0).val = (q ⟨0, by decide⟩).val :=
  (dot_S5000x64_S64x64_S5000x64_1_0_0_1_n_n).rhsIdx_val_of_single rfl i q
/-- Column coordinate of the right operand's index: the output's column. -/
theorem rhs2_1 (i : S5000x64.Idx) (q : (dot_S5000x64_S64x64_S5000x64_1_0_0_1_n_n).contr.Idx) :
    ((dot_S5000x64_S64x64_S5000x64_1_0_0_1_n_n).rhsIdx i q 1).val = (i 1).val := by
  unfold DotDims.rhsIdx
  rw [dif_neg (show ¬(1 : Fin S64x64.rank) ∈ (dot_S5000x64_S64x64_S5000x64_1_0_0_1_n_n).rhsBatch by decide), dif_pos (show (1 : Fin S64x64.rank) ∈ (dot_S5000x64_S64x64_S5000x64_1_0_0_1_n_n).rhsNonContracting by decide)]
  rfl

/-- Entry (p, q) of the body's result: row p of the block times column q of the matrix, plus the bias row at q.
    At the exact values the narrowing to bf16 is the identity and the product into a zero accumulator is the plain sum. -/
theorem k2_pay1_apply (x0 : Vec Ideal S5000x64 .f32) (x1 : Vec Ideal S64x64 .f32) (x2 : Vec Ideal S1x64 .f32)
    (p : Fin 5000) (q : Fin 64) :
    k2_pay1 (F := Ideal) x0 x1 x2 (ix2 p q) = (∑ k : Fin 64, x0 (ix2 p k) * x1 (ix2 k q)) + x2 (ix2 0 q) := by
  unfold k2_pay1
  simp only [shapeCast_self]
  rw [addf_apply, broadcastTo_1b_ab_apply]
  congr 1
  simp only [matmul]
  rw [Ideal.matmul_constant_zero_apply, ← Equiv.sum_comp (contrEquiv1 (dot_S5000x64_S64x64_S5000x64_1_0_0_1_n_n) 64 rfl rfl).symm]
  refine Finset.sum_congr rfl fun k _ => ?_
  have hk := contrEquiv1_symm_val (dot_S5000x64_S64x64_S5000x64_1_0_0_1_n_n) 64 rfl rfl k
  have el : (dot_S5000x64_S64x64_S5000x64_1_0_0_1_n_n).lhsIdx (ix2 p q) ((contrEquiv1 (dot_S5000x64_S64x64_S5000x64_1_0_0_1_n_n) 64 rfl rfl).symm k) = ix2 p k := funext fun a => Fin.ext (by
    match a with
    | ⟨0, _⟩ => exact lhs2_0 _ _
    | ⟨1, _⟩ => exact (lhs2_1 _ _).trans hk)
  have er : (dot_S5000x64_S64x64_S5000x64_1_0_0_1_n_n).rhsIdx (ix2 p q) ((contrEquiv1 (dot_S5000x64_S64x64_S5000x64_1_0_0_1_n_n) 64 rfl rfl).symm k) = ix2 k q := funext fun a => Fin.ext (by
    match a with
    | ⟨0, _⟩ => exact (rhs2_0 _ _).trans hk
    | ⟨1, _⟩ => exact rhs2_1 _ _)
  rw [truncf_apply, truncf_apply, el, er]

/-! ## From the blocks to the array -/

-- the TensorCore's buffer contents when the region is entered
variable (V : (c : Dev nD) → (b : Ref sig .tc) → Buf (Elt Ideal) ((c : Thread nD τ).loc b))

theorem zero_off2 : (![0, 0] : Fin 2 → Nat) = fun _ => 0 := funext fun a => by fin_cases a <;> rfl

/-- The array the region leaves: entry (r, j) of X·W + b for the three arrays the region reads. -/
abbrev G2 (X : S100000x64.Idx → EReal) (W : S64x64.Idx → EReal) (b : S1x64.Idx → EReal) : S100000x64.Idx → EReal :=
  fun i => Cert.Spec.affine X W b (i 0) (i 1)

/-- The printed index maps, decided over the twenty grid points: the row blocks (windows 0 and 3) are block t of
    their arrays, the matrix and the bias row are the whole arrays at every point. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- One entry of what a point stores, when row p of its row block is row r of X and its other two blocks agree
    with W and b where that entry reads them: the entry of X·W + b. -/
theorem point2 (X : S100000x64.Idx → EReal) (W : S64x64.Idx → EReal) (b : S1x64.Idx → EReal)
    (x0 : Vec Ideal S5000x64 .f32) (x1 : Vec Ideal S64x64 .f32) (x2 : Vec Ideal S1x64 .f32)
    (p : Fin 5000) (q : Fin 64) (r : Fin 100000) (q' : Fin 64) (hq : q' = q)
    (h0 : ∀ k : Fin 64, x0 (ix2 p k) = X (ix2 r k)) (h1 : ∀ k : Fin 64, x1 (ix2 k q) = W (ix2 k q))
    (h2 : x2 (ix2 0 q) = b (ix2 0 q)) :
    k2_pay1 (F := Ideal) x0 x1 x2 (ix2 p q) = Cert.Spec.affine X W b r q' := by
  subst hq
  rw [k2_pay1_apply]
  unfold Cert.Spec.affine
  rw [h2]
  exact congrArg (· + b (ix2 0 q')) (Finset.sum_congr rfl fun k _ => by rw [h0 k, h1 k])

set_option maxHeartbeats 400000 in
/-- What grid point t writes back is block t of X·W + b of the arrays as the region finds them. -/
theorem flushed2_eq (c : Dev nD) (t : Fin cfg2.N) :
    (dat2 (F := Ideal) V c).flushed 3 t = ((cfg2.win 3).blk t).view.read (Elt Ideal)
      (G2 (V c (Pipeline.arrRef spec2 0)) (V c (Pipeline.arrRef spec2 1)) (V c (Pipeline.arrRef spec2 2))) := by
  show (cfg2.win 3).cut (grid2.coords t) ((dat2 (F := Ideal) V c).after 3 t) = _
  rw [after2_3]
  unfold out2_3
  rw [View.canon_unit_zero zero_off2]
  simp only [View.ld_unit_zero (S := S5000x64) zero_off2, View.ld_unit_zero (S := S64x64) zero_off2, View.ld_unit_zero (S := S1x64) zero_off2]
  obtain ⟨e00, e01, e10, e11, e20, e21, e30, e31⟩ := idx_facts2 t
  funext j
  obtain ⟨p, q, rfl⟩ : ∃ (p : Fin 5000) (q : Fin 64), j = ix2 p q := ⟨j 0, j 1, eq_ix2 j⟩
  show k2_pay1 (F := Ideal) (iblk2 V c 0 t) (iblk2 V c 1 t) (iblk2 V c 2 t) (ix2 p q)
    = G2 (V c (Pipeline.arrRef spec2 0)) (V c (Pipeline.arrRef spec2 1)) (V c (Pipeline.arrRef spec2 2)) (((cfg2.win 3).blk t).view.emb (ix2 p q))
  refine point2 _ _ _ _ _ _ p q _ _ ?_ ?_ ?_ ?_
  · apply Fin.ext
    show win2_3.index t (1 : Fin 2) * 64 + 1 * q.val = q.val
    omega
  · intro k
    show V c (Pipeline.arrRef spec2 0) (((cfg2.win 0).blk t).view.emb (ix2 p k)) = V c (Pipeline.arrRef spec2 0) (ix2 _ k)
    refine congrArg _ (funext fun a => Fin.ext ?_)
    match a with
    | ⟨0, _⟩ => show win2_0.index t (0 : Fin 2) * 5000 + 1 * p.val = win2_3.index t (0 : Fin 2) * 5000 + 1 * p.val; omega
    | ⟨1, _⟩ => show win2_0.index t (1 : Fin 2) * 64 + 1 * k.val = k.val; omega
  · intro k
    show V c (Pipeline.arrRef spec2 1) (((cfg2.win 1).blk t).view.emb (ix2 k q)) = V c (Pipeline.arrRef spec2 1) (ix2 k q)
    refine congrArg _ (funext fun a => Fin.ext ?_)
    match a with
    | ⟨0, _⟩ => show win2_1.index t (0 : Fin 2) * 64 + 1 * k.val = k.val; omega
    | ⟨1, _⟩ => show win2_1.index t (1 : Fin 2) * 64 + 1 * q.val = q.val; omega
  · show V c (Pipeline.arrRef spec2 2) (((cfg2.win 2).blk t).view.emb (ix2 0 q)) = V c (Pipeline.arrRef spec2 2) (ix2 0 q)
    refine congrArg _ (funext fun a => Fin.ext ?_)
    match a with
    | ⟨0, _⟩ => show win2_2.index t (0 : Fin 2) * 1 + 1 * 0 = 0; omega
    | ⟨1, _⟩ => show win2_2.index t (1 : Fin 2) * 64 + 1 * q.val = q.val; omega

/-- An index of the output array is in point t's block iff each coordinate is in the block's range on its axis. -/
theorem mem_blk2 (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v61).slice (win2_3.rect t)).set ↔ _
  rw [View.set_slice_whole, Rect.mem_set_unit]
  exact Iff.rfl

/-- Row r of the output array lies in the block of grid point r / 5000: the twenty blocks of 5000 rows tile it. -/
theorem cover2 (i : S100000x64.Idx) :
    ∃ t : Fin cfg2.N, (cfg2.win 3).flush t = true ∧ i ∈ ((cfg2.win 3).blk t).view.set := by
  have h0 : (i 0).val < 100000 := (i 0).isLt
  have h1 : (i 1).val < 64 := (i 1).isLt
  have hN : cfg2.N = 20 := N_2
  have ht : (i 0).val / 5000 < cfg2.N := by rw [hN]; omega
  obtain ⟨-, -, -, -, -, -, e30, e31⟩ := idx_facts2 ⟨(i 0).val / 5000, ht⟩
  refine ⟨⟨(i 0).val / 5000, ht⟩, flush2_3 _, ?_⟩
  rw [mem_blk2]
  intro a
  match a with
  | ⟨0, _⟩ =>
    show win2_3.index ⟨(i 0).val / 5000, ht⟩ (0 : Fin 2) * 5000 ≤ (i 0).val ∧ (i 0).val < win2_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win2_3.index ⟨(i 0).val / 5000, ht⟩ (1 : Fin 2) * 64 ≤ (i 1).val ∧ (i 1).val < win2_3.index ⟨(i 0).val / 5000, ht⟩ (1 : Fin 2) * 64 + 64
    omega

/-- The array the region leaves in its output buffer: X·W + b of the three arrays it reads, entry by entry. -/
theorem final2 (c : Dev nD) : (dat2 (F := Ideal) V c).arrAt 3 cfg2.N
    = fun i => Cert.Spec.affine (V c main_v58) (V c main_arg8) (V c main_v60) (i 0) (i 1) :=
  (dat2 (F := Ideal) V c).arrAt_eq_of_cover 3 (G2 (V c main_v58) (V c main_arg8) (V c main_v60))
    (fun t _ => flushed2_eq V c t) cover2

end Cert.KernelIdeal.RegionValue

end
-- ==== Proof.LinearValue3.lean ====
/-
  The output head's launch (the fourth kernel region), read as one array.
  At the exact values (a float is an extended real, every operation exact) the region's output array is
  X·W + b entry by entry: first one entry of what a grid point's body stores, as a function of the blocks it
  loaded; then the twenty blocks of 5000 rows put together into the whole array.
-/
import proofs.«170167_j27212912788334_2_alg».proof.Proof.HeadData
import proofs.«170167_j27212912788334_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

/-! ## The body's arithmetic at one entry -/

/-- Row coordinate of the left operand's index: the output's row. -/
theorem lhs3_0 (i : S5000x64.Idx) (q : (dot_S5000x64_S64x64_S5000x64_1_0_0_1_n_n).contr.Idx) :
    ((dot_S5000x64_S64x64_S5000x64_1_0_0_1_n_n).lhsIdx i q 0).val = (i 0).val := by
  unfold DotDims.lhsIdx
  rw [dif_neg (show ¬(0 : Fin S5000x64.rank) ∈ (dot_S5000x64_S64x64_S5000x64_1_0_0_1_n_n).lhsBatch by decide), dif_pos (show (0 : Fin S5000x64.rank) ∈ (dot_S5000x64_S64x64_S5000x64_1_0_0_1_n_n).lhsNonContracting by decide)]
  rfl
/-- Column coordinate of the left operand's index: the contraction coordinate. -/
theorem lhs3_1 (i : S5000x64.Idx) (q : (dot_S5000x64_S64x64_S5000x64_1_0_0_1_n_n).contr.Idx) :
    ((dot_S5000x64_S64x64_S5000x64_1_0_0_1_n_n).lhsIdx i q 1).val = (q ⟨0, by decide⟩).val :=
  (dot_S5000x64_S64x64_S5000x64_1_0_0_1_n_n).lhsIdx_val_of_single rfl i q
/-- Row coordinate of the right operand's index: the contraction coordinate. -/
theorem rhs3_0 (i : S5000x64.Idx) (q : (dot_S5000x64_S64x64_S5000x64_1_0_0_1_n_n).contr.Idx) :
    ((dot_S5000x64_S64x64_S5000x64_1_0_0_1_n_n).rhsIdx i q 0).val = (q ⟨0, by decide⟩).val :=
  (dot_S5000x64_S64x64_S5000x64_1_0_0_1_n_n).rhsIdx_val_of_single rfl i q
/-- Column coordinate of the right operand's index: the output's column. -/
theorem rhs3_1 (i : S5000x64.Idx) (q : (dot_S5000x64_S64x64_S5000x64_1_0_0_1_n_n).contr.Idx) :
    ((dot_S5000x64_S64x64_S5000x64_1_0_0_1_n_n).rhsIdx i q 1).val = (i 1).val := by
  unfold DotDims.rhsIdx
  rw [dif_neg (show ¬(1 : Fin S64x64.rank) ∈ (dot_S5000x64_S64x64_S5000x64_1_0_0_1_n_n).rhsBatch by decide), dif_pos (show (1 : Fin S64x64.rank) ∈ (dot_S5000x64_S64x64_S5000x64_1_0_0_1_n_n).rhsNonContracting by decide)]
  rfl

/-- Entry (p, q) of the body's result: row p of the block times column q of the matrix, plus the bias row at q.
    At the exact values the narrowing to bf16 is the identity and the product into a zero accumulator is the plain sum. -/
theorem k3_pay1_apply (x0 : Vec Ideal S5000x64 .f32) (x1 : Vec Ideal S64x64 .f32) (x2 : Vec Ideal S1x64 .f32)
    (p : Fin 5000) (q : Fin 64) :
    k3_pay1 (F := Ideal) x0 x1 x2 (ix2 p q) = (∑ k : Fin 64, x0 (ix2 p k) * x1 (ix2 k q)) + x2 (ix2 0 q) := by
  unfold k3_pay1
  simp only [shapeCast_self]
  rw [addf_apply, broadcastTo_1b_ab_apply]
  congr 1
  simp only [matmul]
  rw [Ideal.matmul_constant_zero_apply, ← Equiv.sum_comp (contrEquiv1 (dot_S5000x64_S64x64_S5000x64_1_0_0_1_n_n) 64 rfl rfl).symm]
  refine Finset.sum_congr rfl fun k _ => ?_
  have hk := contrEquiv1_symm_val (dot_S5000x64_S64x64_S5000x64_1_0_0_1_n_n) 64 rfl rfl k
  have el : (dot_S5000x64_S64x64_S5000x64_1_0_0_1_n_n).lhsIdx (ix2 p q) ((contrEquiv1 (dot_S5000x64_S64x64_S5000x64_1_0_0_1_n_n) 64 rfl rfl).symm k) = ix2 p k := funext fun a => Fin.ext (by
    match a with
    | ⟨0, _⟩ => exact lhs3_0 _ _
    | ⟨1, _⟩ => exact (lhs3_1 _ _).trans hk)
  have er : (dot_S5000x64_S64x64_S5000x64_1_0_0_1_n_n).rhsIdx (ix2 p q) ((contrEquiv1 (dot_S5000x64_S64x64_S5000x64_1_0_0_1_n_n) 64 rfl rfl).symm k) = ix2 k q := funext fun a => Fin.ext (by
    match a with
    | ⟨0, _⟩ => exact (rhs3_0 _ _).trans hk
    | ⟨1, _⟩ => exact rhs3_1 _ _)
  rw [truncf_apply, truncf_apply, el, er]

/-! ## From the blocks to the array -/

-- the TensorCore's buffer contents when the region is entered
variable (V : (c : Dev nD) → (b : Ref sig .tc) → Buf (Elt Ideal) ((c : Thread nD τ).loc b))

theorem zero_off3 : (![0, 0] : Fin 2 → Nat) = fun _ => 0 := funext fun a => by fin_cases a <;> rfl

/-- The array the region leaves: entry (r, j) of X·W + b for the three arrays the region reads. -/
abbrev G3 (X : S100000x64.Idx → EReal) (W : S64x64.Idx → EReal) (b : S1x64.Idx → EReal) : S100000x64.Idx → EReal :=
  fun i => Cert.Spec.affine X W b (i 0) (i 1)

/-- The printed index maps, decided over the twenty grid points: the row blocks (windows 0 and 3) are block t of
    their arrays, the matrix and the bias row are the whole arrays at every point. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- One entry of what a point stores, when row p of its row block is row r of X and its other two blocks agree
    with W and b where that entry reads them: the entry of X·W + b. -/
theorem point3 (X : S100000x64.Idx → EReal) (W : S64x64.Idx → EReal) (b : S1x64.Idx → EReal)
    (x0 : Vec Ideal S5000x64 .f32) (x1 : Vec Ideal S64x64 .f32) (x2 : Vec Ideal S1x64 .f32)
    (p : Fin 5000) (q : Fin 64) (r : Fin 100000) (q' : Fin 64) (hq : q' = q)
    (h0 : ∀ k : Fin 64, x0 (ix2 p k) = X (ix2 r k)) (h1 : ∀ k : Fin 64, x1 (ix2 k q) = W (ix2 k q))
    (h2 : x2 (ix2 0 q) = b (ix2 0 q)) :
    k3_pay1 (F := Ideal) x0 x1 x2 (ix2 p q) = Cert.Spec.affine X W b r q' := by
  subst hq
  rw [k3_pay1_apply]
  unfold Cert.Spec.affine
  rw [h2]
  exact congrArg (· + b (ix2 0 q')) (Finset.sum_congr rfl fun k _ => by rw [h0 k, h1 k])

set_option maxHeartbeats 400000 in
/-- What grid point t writes back is block t of X·W + b of the arrays as the region finds them. -/
theorem flushed3_eq (c : Dev nD) (t : Fin cfg3.N) :
    (dat3 (F := Ideal) V c).flushed 3 t = ((cfg3.win 3).blk t).view.read (Elt Ideal)
      (G3 (V c (Pipeline.arrRef spec3 0)) (V c (Pipeline.arrRef spec3 1)) (V c (Pipeline.arrRef spec3 2))) := by
  show (cfg3.win 3).cut (grid3.coords t) ((dat3 (F := Ideal) V c).after 3 t) = _
  rw [after3_3]
  unfold out3_3
  rw [View.canon_unit_zero zero_off3]
  simp only [View.ld_unit_zero (S := S5000x64) zero_off3, View.ld_unit_zero (S := S64x64) zero_off3, View.ld_unit_zero (S := S1x64) zero_off3]
  obtain ⟨e00, e01, e10, e11, e20, e21, e30, e31⟩ := idx_facts3 t
  funext j
  obtain ⟨p, q, rfl⟩ : ∃ (p : Fin 5000) (q : Fin 64), j = ix2 p q := ⟨j 0, j 1, eq_ix2 j⟩
  show k3_pay1 (F := Ideal) (iblk3 V c 0 t) (iblk3 V c 1 t) (iblk3 V c 2 t) (ix2 p q)
    = G3 (V c (Pipeline.arrRef spec3 0)) (V c (Pipeline.arrRef spec3 1)) (V c (Pipeline.arrRef spec3 2)) (((cfg3.win 3).blk t).view.emb (ix2 p q))
  refine point3 _ _ _ _ _ _ p q _ _ ?_ ?_ ?_ ?_
  · apply Fin.ext
    show win3_3.index t (1 : Fin 2) * 64 + 1 * q.val = q.val
    omega
  · intro k
    show V c (Pipeline.arrRef spec3 0) (((cfg3.win 0).blk t).view.emb (ix2 p k)) = V c (Pipeline.arrRef spec3 0) (ix2 _ k)
    refine congrArg _ (funext fun a => Fin.ext ?_)
    match a with
    | ⟨0, _⟩ => show win3_0.index t (0 : Fin 2) * 5000 + 1 * p.val = win3_3.index t (0 : Fin 2) * 5000 + 1 * p.val; omega
    | ⟨1, _⟩ => show win3_0.index t (1 : Fin 2) * 64 + 1 * k.val = k.val; omega
  · intro k
    show V c (Pipeline.arrRef spec3 1) (((cfg3.win 1).blk t).view.emb (ix2 k q)) = V c (Pipeline.arrRef spec3 1) (ix2 k q)
    refine congrArg _ (funext fun a => Fin.ext ?_)
    match a with
    | ⟨0, _⟩ => show win3_1.index t (0 : Fin 2) * 64 + 1 * k.val = k.val; omega
    | ⟨1, _⟩ => show win3_1.index t (1 : Fin 2) * 64 + 1 * q.val = q.val; omega
  · show V c (Pipeline.arrRef spec3 2) (((cfg3.win 2).blk t).view.emb (ix2 0 q)) = V c (Pipeline.arrRef spec3 2) (ix2 0 q)
    refine congrArg _ (funext fun a => Fin.ext ?_)
    match a with
    | ⟨0, _⟩ => show win3_2.index t (0 : Fin 2) * 1 + 1 * 0 = 0; omega
    | ⟨1, _⟩ => show win3_2.index t (1 : Fin 2) * 64 + 1 * q.val = q.val; omega

/-- An index of the output array is in point t's block iff each coordinate is in the block's range on its axis. -/
theorem mem_blk3 (t : Fin cfg3.N) (i : S100000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v81).slice (win3_3.rect t)).set ↔ _
  rw [View.set_slice_whole, Rect.mem_set_unit]
  exact Iff.rfl

/-- Row r of the output array lies in the block of grid point r / 5000: the twenty blocks of 5000 rows tile it. -/
theorem cover3 (i : S100000x64.Idx) :
    ∃ t : Fin cfg3.N, (cfg3.win 3).flush t = true ∧ i ∈ ((cfg3.win 3).blk t).view.set := by
  have h0 : (i 0).val < 100000 := (i 0).isLt
  have h1 : (i 1).val < 64 := (i 1).isLt
  have hN : cfg3.N = 20 := N_3
  have ht : (i 0).val / 5000 < cfg3.N := by rw [hN]; omega
  obtain ⟨-, -, -, -, -, -, e30, e31⟩ := idx_facts3 ⟨(i 0).val / 5000, ht⟩
  refine ⟨⟨(i 0).val / 5000, ht⟩, flush3_3 _, ?_⟩
  rw [mem_blk3]
  intro a
  match a with
  | ⟨0, _⟩ =>
    show win3_3.index ⟨(i 0).val / 5000, ht⟩ (0 : Fin 2) * 5000 ≤ (i 0).val ∧ (i 0).val < win3_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win3_3.index ⟨(i 0).val / 5000, ht⟩ (1 : Fin 2) * 64 ≤ (i 1).val ∧ (i 1).val < win3_3.index ⟨(i 0).val / 5000, ht⟩ (1 : Fin 2) * 64 + 64
    omega

/-- The array the region leaves in its output buffer: X·W + b of the three arrays it reads, entry by entry. -/
theorem final3 (c : Dev nD) : (dat3 (F := Ideal) V c).arrAt 3 cfg3.N
    = fun i => Cert.Spec.affine (V c main_v79) (V c main_arg13) (V c main_v80) (i 0) (i 1) :=
  (dat3 (F := Ideal) V c).arrAt_eq_of_cover 3 (G3 (V c main_v79) (V c main_arg13) (V c main_v80))
    (fun t _ => flushed3_eq V c t) cover3

end Cert.KernelIdeal.RegionValue

end
-- ==== Proof.RefRead.lean ====
/-
  The reference program's run and its stages read one operation at a time (both generated modules),
  gathered here so that the value lemmas about the reference import one module.
-/
import proofs.«170167_j27212912788334_2_alg».proof.Proof.Gen.ReferenceIdeal.Read
-- ==== Proof.HostNorm.lean ====
/-
  The symmetric normalisation of the edge weights, host operation by host operation.
  Between the edge network and the node projection the kernel's program runs on the host exactly the
  operations the reference runs: deg = segment-sum of the weights over target nodes, dinv = where(deg > 0,
  rsqrt(where(deg > 0, deg, 1)), 0), norm = dinv[row] · w · dinv[col].  Each lemma takes the contents W of the
  buffers before one stretch of operations, assumes the buffers the stretch reads hold the reference's stages,
  and concludes that the buffer the stretch writes holds the reference's next stage.  No arithmetic is opened:
  the two programs apply the same operation to equal operands.
-/
import proofs.«170167_j27212912788334_2_alg».proof.Proof.Gen.KernelIdeal.Regions
import proofs.«170167_j27212912788334_2_alg».proof.Proof.RefRead
import proofs.«170167_j27212912788334_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Bridge.Norm

open Idealize.ShloMosaic Idealize.ShloMosaic.TcCoe Idealize.SL.Sem Idealize.ShloMosaic.StableHlo Idealize.ShloMosaic.ValueIdx
open Cert.KernelIdeal Cert.KernelIdeal.Gen
open Cert.ReferenceIdeal.Read

-- the buffers' contents before the stretch of host operations at hand: any valuation
variable (W : Valuation τ sig (Elt Ideal))

variable (x1 : (⟨Cert.ReferenceIdeal.S2x1600000, .i32⟩ : BufTy).Contents (Elt Ideal))
  (x2 : (⟨Cert.ReferenceIdeal.S1600000x16, .f32⟩ : BufTy).Contents (Elt Ideal)) (x3 : (⟨Cert.ReferenceIdeal.S16x64, .f32⟩ : BufTy).Contents (Elt Ideal))
  (x4 : (⟨Cert.ReferenceIdeal.S64, .f32⟩ : BufTy).Contents (Elt Ideal)) (x5 : (⟨Cert.ReferenceIdeal.S64x1, .f32⟩ : BufTy).Contents (Elt Ideal))
  (x6 : (⟨Cert.ReferenceIdeal.S1, .f32⟩ : BufTy).Contents (Elt Ideal))

/-! ## The edge list split into source (row) and target (col) indices -/

theorem row_stage : StableHlo.after (hostOps0 (F := Ideal)) W main_v1 = val_main_v1 (F := Ideal) (W main_arg1) := by
  dsimp only [hostOps0]; after_results; rfl

theorem col_stage : StableHlo.after (hostOps0 (F := Ideal)) W main_v3 = val_main_v3 (F := Ideal) (W main_arg1) := by
  dsimp only [hostOps0]; after_results; rfl

/-! ## The edge weights as a vector, the degrees, and the test deg > 0 -/

theorem weight_stage (h6 : W main_v6 = val_main_v13 (F := Ideal) x2 x3 x4 x5 x6) :
    StableHlo.after (hostOps1 (F := Ideal)) W main_v7 = val_main_v14 (F := Ideal) x2 x3 x4 x5 x6 := by
  dsimp only [hostOps1]; after_results
  rw [h6]; rfl

theorem degree_stage (h3 : W main_v3 = val_main_v3 (F := Ideal) x1) (h6 : W main_v6 = val_main_v13 (F := Ideal) x2 x3 x4 x5 x6) :
    StableHlo.after (hostOps1 (F := Ideal)) W main_v10 = val_main_v17 (F := Ideal) x1 x2 x3 x4 x5 x6 := by
  dsimp only [hostOps1]; after_results
  rw [h3, h6]; rfl

theorem positive_stage (h3 : W main_v3 = val_main_v3 (F := Ideal) x1) (h6 : W main_v6 = val_main_v13 (F := Ideal) x2 x3 x4 x5 x6) :
    StableHlo.after (hostOps1 (F := Ideal)) W main_v12 = val_main_v19 (F := Ideal) x1 x2 x3 x4 x5 x6 := by
  dsimp only [hostOps1]; after_results
  rw [h3, h6]; rfl

theorem one_stage : StableHlo.after (hostOps1 (F := Ideal)) W main_cst_1 = val_main_cst_1 (F := Ideal) := by
  dsimp only [hostOps1]; after_results; rfl

/-! ## safe = where(deg > 0, deg, 1) -/

theorem safe_stage (h12 : W main_v12 = val_main_v19 (F := Ideal) x1 x2 x3 x4 x5 x6) (h10 : W main_v10 = val_main_v17 (F := Ideal) x1 x2 x3 x4 x5 x6)
    (hc : W main_cst_1 = val_main_cst_1 (F := Ideal)) :
    StableHlo.after (hostOps1_1 (F := Ideal)) W main_v13 = val_main_v20 (F := Ideal) x1 x2 x3 x4 x5 x6 := by
  have e1 : StableHlo.after (hostOps1_1 (F := Ideal)) W main_v13 =
      select (W main_v12) (W main_v10) (broadcastInDim S100000 ![] bcast_S_S100000 (id (W main_cst_1))) := by
    dsimp only [hostOps1_1]; after_results; rfl
  rw [e1, h12, h10, hc]; rfl

/-! ## rsqrt(safe), the second test, and the zero for the other branch -/

theorem positive2_stage (h10 : W main_v10 = val_main_v17 (F := Ideal) x1 x2 x3 x4 x5 x6) :
    StableHlo.after (hostOps1_2 (F := Ideal)) W main_v15 = val_main_v22 (F := Ideal) x1 x2 x3 x4 x5 x6 := by
  dsimp only [hostOps1_2]; after_results
  rw [h10]; rfl

theorem rsqrt_stage (h13 : W main_v13 = val_main_v20 (F := Ideal) x1 x2 x3 x4 x5 x6) :
    StableHlo.after (hostOps1_2 (F := Ideal)) W main_v16 = val_main_v23 (F := Ideal) x1 x2 x3 x4 x5 x6 := by
  dsimp only [hostOps1_2]; after_results
  rw [h13]; rfl

theorem zero_stage : StableHlo.after (hostOps1_2 (F := Ideal)) W main_cst_3 = val_main_cst_3 (F := Ideal) := by
  dsimp only [hostOps1_2]; after_results; rfl

/-! ## dinv = where(deg > 0, rsqrt(safe), 0) -/

theorem dinv_stage (h15 : W main_v15 = val_main_v22 (F := Ideal) x1 x2 x3 x4 x5 x6) (h16 : W main_v16 = val_main_v23 (F := Ideal) x1 x2 x3 x4 x5 x6)
    (hc : W main_cst_3 = val_main_cst_3 (F := Ideal)) :
    StableHlo.after (hostOps1_3 (F := Ideal)) W main_v17 = val_main_v24 (F := Ideal) x1 x2 x3 x4 x5 x6 := by
  have e1 : StableHlo.after (hostOps1_3 (F := Ideal)) W main_v17 =
      select (W main_v15) (W main_v16) (broadcastInDim S100000 ![] bcast_S_S100000 (id (W main_cst_3))) := by
    dsimp only [hostOps1_3]; after_results; rfl
  rw [e1, h15, h16, hc]; rfl

/-! ## norm = dinv[row] · w · dinv[col]  (negative indices wrapped by the node count before each gather) -/

set_option maxHeartbeats 1600000 in
theorem norm_stage (h1 : W main_v1 = val_main_v1 (F := Ideal) x1) (h3 : W main_v3 = val_main_v3 (F := Ideal) x1)
    (h7 : W main_v7 = val_main_v14 (F := Ideal) x2 x3 x4 x5 x6) (h17 : W main_v17 = val_main_v24 (F := Ideal) x1 x2 x3 x4 x5 x6) :
    StableHlo.after (hostOps1_4 (F := Ideal)) W main_v33 = val_main_v40 (F := Ideal) x1 x2 x3 x4 x5 x6 := by
  dsimp only [hostOps1_4]; after_results
  rw [h1, h3, h7, h17]; rfl

end Cert.Bridge.Norm

end
-- ==== Proof.HostLayout.lean ====
/-
  The host's layout operations of the kernel's program, read at an index.
  Around its four launches the program only rearranges data on the host: it reshapes a bias vector into a
  one-row matrix, lays the three 128×64 projection weights side by side into one 128×192 matrix, makes the zero
  bias rows by broadcasting the zero constant, and cuts the 100000×192 projection into its three blocks of 64
  columns.  Each lemma takes the contents W of the buffers before one stretch of host operations and says what
  the buffer that the stretch writes holds at a given index, in terms of W's buffers.  No arithmetic occurs.
-/
import proofs.«170167_j27212912788334_2_alg».proof.Proof.Gen.KernelIdeal.Regions
import proofs.«170167_j27212912788334_2_alg».proof.Proof.RefRead
import proofs.«170167_j27212912788334_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Bridge.Layout

open Idealize.ShloMosaic Idealize.ShloMosaic.TcCoe Idealize.SL.Sem Idealize.ShloMosaic.StableHlo Idealize.ShloMosaic.ValueIdx
open Cert.KernelIdeal Cert.KernelIdeal.Gen
open Cert.ReferenceIdeal.Read

-- the buffers' contents before the stretch of host operations at hand: any valuation
variable (W : Valuation τ sig (Elt Ideal))

/-! ## Bias vectors as one-row matrices -/

/-- The first bias of the edge network as a row: the reshape of a vector of 64 to 1×64 read at column `k`. -/
theorem bias1_row (k : Fin 64) :
    (StableHlo.after (hostOps0 (F := Ideal)) W main_v4 : S1x64.Idx → EReal) (ix2 0 k) = (W main_arg4 : S64.Idx → EReal) (ix1 k) := by
  dsimp only [hostOps0]; after_results
  show shapeCast _ (W main_arg4 : S64.Idx → EReal) _ (ix2 0 k) = _
  exact shapeCast_a_1a_apply _ _ 0 k

/-- The head's bias as a row: the reshape of a vector of 64 to 1×64 read at column `j`. -/
theorem headbias_row (j : Fin 64) :
    (StableHlo.after (hostOps3_2 (F := Ideal)) W main_v80 : S1x64.Idx → EReal) (ix2 0 j) = (W main_arg14 : S64.Idx → EReal) (ix1 j) := by
  dsimp only [hostOps3_2]; after_results
  show shapeCast _ (W main_arg14 : S64.Idx → EReal) _ (ix2 0 j) = _
  exact shapeCast_a_1a_apply _ _ 0 j

/-- The second bias of the edge network as a 1×1 block: the reshape of a vector of 1 read at its one entry. -/
theorem bias2_row :
    (StableHlo.after (hostOps0 (F := Ideal)) W main_v5 : S1x1.Idx → EReal) (ix2 0 0) = (W main_arg6 : S1.Idx → EReal) (ix1 0) := by
  dsimp only [hostOps0]; after_results
  show shapeCast _ (W main_arg6 : S1.Idx → EReal) _ (ix2 0 0) = _
  exact shapeCast_a_1a_apply _ _ 0 0

/-! ## The three projection weights side by side -/

/-- The three 128×64 weight matrices laid side by side: a column among the first 64 of the 128×192 matrix reads the
    first matrix (the pieces before it are 0 columns wide). -/
theorem wcat_left (k : Fin 128) (j : Fin 64) :
    (StableHlo.after (hostOps1_4 (F := Ideal)) W main_v34 : S128x192.Idx → EReal) (ix2 k ⟨j, by omega⟩)
      = (W main_arg7 : S128x64.Idx → EReal) (ix2 k j) := by
  dsimp only [hostOps1_4]; after_results
  refine concatenate_apply_piece (t := S128x192) (1 : Fin 2) _ _ _ 0 ?hk S128x64 (W main_arg7 : S128x64.Idx → EReal) ?hxk rfl 0 ?hpre (ix2 k j) ?hi ?ha
  case hk => exact (by decide : 0 < 3)
  case hxk => rfl
  case hpre => rfl
  case hi =>
    intro b hb
    match b, hb with
    | ⟨0, _⟩, _ => rfl
    | ⟨1, _⟩, hb => exact absurd rfl hb
  case ha => exact Nat.zero_add _

/-- The three 128×64 weight matrices laid side by side: a column among the middle 64 of the 128×192 matrix reads the
    middle matrix (the pieces before it are 64 columns wide). -/
theorem wcat_mid (k : Fin 128) (j : Fin 64) :
    (StableHlo.after (hostOps1_4 (F := Ideal)) W main_v34 : S128x192.Idx → EReal) (ix2 k ⟨64 + j, by omega⟩)
      = (W main_arg9 : S128x64.Idx → EReal) (ix2 k j) := by
  dsimp only [hostOps1_4]; after_results
  refine concatenate_apply_piece (t := S128x192) (1 : Fin 2) _ _ _ 1 ?hk S128x64 (W main_arg9 : S128x64.Idx → EReal) ?hxk rfl 64 ?hpre (ix2 k j) ?hi ?ha
  case hk => exact (by decide : 1 < 3)
  case hxk => rfl
  case hpre => rfl
  case hi =>
    intro b hb
    match b, hb with
    | ⟨0, _⟩, _ => rfl
    | ⟨1, _⟩, hb => exact absurd rfl hb
  case ha => exact rfl

/-- The three 128×64 weight matrices laid side by side: a column among the last 64 of the 128×192 matrix reads the
    last matrix (the pieces before it are 128 columns wide). -/
theorem wcat_right (k : Fin 128) (j : Fin 64) :
    (StableHlo.after (hostOps1_4 (F := Ideal)) W main_v34 : S128x192.Idx → EReal) (ix2 k ⟨128 + j, by omega⟩)
      = (W main_arg10 : S128x64.Idx → EReal) (ix2 k j) := by
  dsimp only [hostOps1_4]; after_results
  refine concatenate_apply_piece (t := S128x192) (1 : Fin 2) _ _ _ 2 ?hk S128x64 (W main_arg10 : S128x64.Idx → EReal) ?hxk rfl 128 ?hpre (ix2 k j) ?hi ?ha
  case hk => exact (by decide : 2 < 3)
  case hxk => rfl
  case hpre => rfl
  case hi =>
    intro b hb
    match b, hb with
    | ⟨0, _⟩, _ => rfl
    | ⟨1, _⟩, hb => exact absurd rfl hb
  case ha => exact rfl

/-! ## The zero bias rows -/

/-- The projection's bias row is zero: the reshape to 1×192 of the broadcast of the zero constant, read at column `j`. -/
theorem zero_row192 (j : Fin 192) :
    (StableHlo.after (hostOps1_4 (F := Ideal)) W main_v36 : S1x192.Idx → EReal) (ix2 0 j) = (0 : EReal) := by
  dsimp only [hostOps1_4]; after_results
  show shapeCast _ (broadcastInDim S192 ![] bcast_S_S192 (constant (F := Ideal) S_ .f32 0x00000000#32) : S192.Idx → EReal) _ (ix2 0 j) = (0 : EReal)
  rw [shapeCast_a_1a_apply _ _ 0 j, broadcastInDim_apply _ _ _ _ ix0 (fun a => a.elim0), constant_apply, Ideal.ofBits_zero_f32]

/-- The layer's bias row is zero: the reshape to 1×64 of the broadcast of the zero constant, read at column `j`. -/
theorem zero_row64 (j : Fin 64) :
    (StableHlo.after (hostOps2_2 (F := Ideal)) W main_v60 : S1x64.Idx → EReal) (ix2 0 j) = (0 : EReal) := by
  dsimp only [hostOps2_2]; after_results
  show shapeCast _ (broadcastInDim S64 ![] bcast_S_S64 (constant (F := Ideal) S_ .f32 0x00000000#32) : S64.Idx → EReal) _ (ix2 0 j) = (0 : EReal)
  rw [shapeCast_a_1a_apply _ _ 0 j, broadcastInDim_apply _ _ _ _ ix0 (fun a => a.elim0), constant_apply, Ideal.ofBits_zero_f32]

/-! ## The projection cut into its three blocks of 64 columns -/

/-- The first 64 columns of the projection: the slice at column offset 0 read at row `r`, column `j`. -/
theorem slice_left (r : Fin 100000) (j : Fin 64) :
    (StableHlo.after (hostOps2 (F := Ideal)) W main_v38 : S100000x64.Idx → EReal) (ix2 r j)
      = (W main_v37 : S100000x192.Idx → EReal) (ix2 r ⟨j, by omega⟩) := by
  dsimp only [hostOps2]; after_results
  show extractStridedSlice _ ![0, 0] (W main_v37 : S100000x192.Idx → EReal) _ (ix2 r j) = _
  exact slice2_axis1_apply 0 _ _ r j ⟨j, by omega⟩ (Nat.zero_add _).symm

/-- The middle 64 columns of the projection: the slice at column offset 64. -/
theorem slice_mid (r : Fin 100000) (j : Fin 64) :
    (StableHlo.after (hostOps2 (F := Ideal)) W main_v39 : S100000x64.Idx → EReal) (ix2 r j)
      = (W main_v37 : S100000x192.Idx → EReal) (ix2 r ⟨64 + j, by omega⟩) := by
  dsimp only [hostOps2]; after_results
  show extractStridedSlice _ ![0, 64] (W main_v37 : S100000x192.Idx → EReal) _ (ix2 r j) = _
  exact slice2_axis1_apply 64 _ _ r j ⟨64 + j, by omega⟩ rfl

/-- The last 64 columns of the projection: the slice at column offset 128. -/
theorem slice_right (r : Fin 100000) (j : Fin 64) :
    (StableHlo.after (hostOps2 (F := Ideal)) W main_v40 : S100000x64.Idx → EReal) (ix2 r j)
      = (W main_v37 : S100000x192.Idx → EReal) (ix2 r ⟨128 + j, by omega⟩) := by
  dsimp only [hostOps2]; after_results
  show extractStridedSlice _ ![0, 128] (W main_v37 : S100000x192.Idx → EReal) _ (ix2 r j) = _
  exact slice2_axis1_apply 128 _ _ r j ⟨128 + j, by omega⟩ rfl

end Cert.Bridge.Layout

end
-- ==== Proof.DenseStages.lean ====
/-
  The reference's dense layers are the specification's affine maps.
  Over the extended reals the reference's `dot_general` read at an entry is the plain sum of products, a bias
  vector broadcast to a row and then down the rows adds the bias entry of the column, and `maximum` against the
  broadcast zero constant is `max · 0`.  So
    * the edge network  relu(relu(e·W1 + b1)·W2 + b2)  is `Spec.edgeWeight`, for any bias rows that carry the
      bias vectors' entries (`edge_stage`);
    * a product with one of three 128×64 weight matrices is the matching 64-column band of the affine map with
      the three matrices set side by side and a zero bias row (`proj_stage0`, `proj_stage64`, `proj_stage128`);
    * a product with a 64×64 matrix is the affine map with a zero bias row (`layer_stage`), and with a bias
      vector added it is the affine map with that bias as a row (`head_stage`).
-/
import proofs.«170167_j27212912788334_2_alg».proof.Proof.RefRead
import proofs.«170167_j27212912788334_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Bridge.Dense

open Cert.ReferenceIdeal Cert.ReferenceIdeal.Gen Cert.ReferenceIdeal.Read
open Idealize.ShloMosaic Idealize.ShloMosaic.ValueIdx

/-! ## The edge network -/

/-- The hidden layer: relu(e·W1 + b1) at entry (r, k), the bias read from any row that carries the bias vector. -/
theorem edge_hidden_apply (x2 : (⟨S1600000x16, .f32⟩ : BufTy).Contents (Elt Ideal)) (x3 : (⟨S16x64, .f32⟩ : BufTy).Contents (Elt Ideal)) (x4 : (⟨S64, .f32⟩ : BufTy).Contents (Elt Ideal))
    (b1row : (⟨S1x64, .f32⟩ : BufTy).Contents (Elt Ideal)) (hb1 : ∀ k : Fin 64, b1row (ix2 0 k) = x4 (ix1 k)) (r : Fin 1600000) (k : Fin 64) :
    val_main_v8 (F := Ideal) x2 x3 x4 (ix2 r k) = Cert.Spec.edgeHidden x2 x3 b1row (ix2 r k) := by
  rw [val_main_v8_apply, val_main_v7_apply, val_main_v4_apply, val_main_v6_apply, val_main_v5_apply,
    val_main_call0_v0_apply, val_main_call0_cst_apply]
  simp only [Ideal.maximumf_def, Ideal.addf_def, Ideal.ofBits_def, Ideal.ofBits_zero_f32]
  have e1 : ∀ k' : Fin 16, lidx_main_v4 (ix2 r k) k' = ix2 r k' := fun k' => funext fun a => Fin.ext (by match a with | ⟨0, _⟩ => rfl | ⟨1, _⟩ => rfl)
  have e2 : ∀ k' : Fin 16, ridx_main_v4 (ix2 r k) k' = ix2 k' k := fun k' => funext fun a => Fin.ext (by match a with | ⟨0, _⟩ => rfl | ⟨1, _⟩ => rfl)
  have e3 : idx_main_v5 (idx_main_v6 (ix2 r k)) = ix1 k := funext fun a => Fin.ext (by match a with | ⟨0, _⟩ => rfl)
  simp only [e1, e2, e3]
  rw [← hb1 k]
  rfl

/-- The edge network as the reference computes it is `Spec.edgeWeight`, edge by edge. -/
theorem edge_stage (x2 : (⟨S1600000x16, .f32⟩ : BufTy).Contents (Elt Ideal)) (x3 : (⟨S16x64, .f32⟩ : BufTy).Contents (Elt Ideal)) (x4 : (⟨S64, .f32⟩ : BufTy).Contents (Elt Ideal)) (x5 : (⟨S64x1, .f32⟩ : BufTy).Contents (Elt Ideal)) (x6 : (⟨S1, .f32⟩ : BufTy).Contents (Elt Ideal))
    (b1row : (⟨S1x64, .f32⟩ : BufTy).Contents (Elt Ideal)) (b2row : (⟨S1x1, .f32⟩ : BufTy).Contents (Elt Ideal))
    (hb1 : ∀ k : Fin 64, b1row (ix2 0 k) = x4 (ix1 k)) (hb2 : b2row (ix2 0 0) = x6 (ix1 0)) :
    (fun i : S1600000x1.Idx => Cert.Spec.edgeWeight x2 x3 b1row x5 b2row (i 0)) = val_main_v13 (F := Ideal) x2 x3 x4 x5 x6 := by
  funext i
  obtain ⟨r, q, rfl⟩ : ∃ (r : Fin 1600000) (q : Fin 1), i = ix2 r q := ⟨i 0, i 1, eq_ix2 i⟩
  obtain rfl : q = 0 := Subsingleton.elim _ _
  show max (Cert.Spec.affine (Cert.Spec.edgeHidden x2 x3 b1row) x5 b2row r 0) 0 = _
  rw [val_main_v13_apply, val_main_v12_apply, val_main_v9_apply, val_main_v11_apply, val_main_v10_apply,
    val_main_call1_v0_apply, val_main_call1_cst_apply]
  simp only [Ideal.maximumf_def, Ideal.addf_def, Ideal.ofBits_def, Ideal.ofBits_zero_f32]
  have e4 : ∀ k : Fin 64, lidx_main_v9 (ix2 r 0) k = ix2 r k := fun k => funext fun a => Fin.ext (by match a with | ⟨0, _⟩ => rfl | ⟨1, _⟩ => rfl)
  have e5 : ∀ k : Fin 64, ridx_main_v9 (ix2 r 0) k = ix2 k 0 := fun k => funext fun a => Fin.ext (by match a with | ⟨0, _⟩ => rfl | ⟨1, _⟩ => rfl)
  have e6 : idx_main_v10 (idx_main_v11 (ix2 r 0)) = ix1 0 := funext fun a => Fin.ext (by match a with | ⟨0, _⟩ => rfl)
  simp only [e4, e5, e6, edge_hidden_apply x2 x3 x4 b1row hb1 r]
  rw [← hb2]
  rfl

/-! ## The three projections of the node features -/

/-- A product with a 128×64 matrix `A` is a 64-column band of the affine map whose 128×192 matrix carries `A` in
    the columns `c 0 … c 63` and whose bias row is zero, entry by entry. -/
theorem proj_core (X : (⟨S100000x128, .f32⟩ : BufTy).Contents (Elt Ideal)) (Wc : (⟨(⟨2, ![128, 192]⟩ : Shape), .f32⟩ : BufTy).Contents (Elt Ideal)) (z : (⟨(⟨2, ![1, 192]⟩ : Shape), .f32⟩ : BufTy).Contents (Elt Ideal))
    (hz : ∀ j, z (ix2 0 j) = 0) (A : (⟨S128x64, .f32⟩ : BufTy).Contents (Elt Ideal)) (c : Fin 64 → Fin 192)
    (h : ∀ (k : Fin 128) (j : Fin 64), Wc (ix2 k (c j)) = A (ix2 k j)) (r : Fin 100000) (j : Fin 64) :
    Cert.Spec.affine X Wc z r (c j) = val_main_v41 (F := Ideal) X A (ix2 r j) := by
  unfold Cert.Spec.affine
  rw [hz, add_zero, val_main_v41_apply]
  refine Finset.sum_congr rfl fun k _ => ?_
  have e1 : lidx_main_v41 (ix2 r j) k = ix2 r k := funext fun a => Fin.ext (by match a with | ⟨0, _⟩ => rfl | ⟨1, _⟩ => rfl)
  have e2 : ridx_main_v41 (ix2 r j) k = ix2 k j := funext fun a => Fin.ext (by match a with | ⟨0, _⟩ => rfl | ⟨1, _⟩ => rfl)
  rw [h k j, e1, e2]

/-- Columns 0 … 63: the first matrix. -/
theorem proj_stage0_apply (X : (⟨S100000x128, .f32⟩ : BufTy).Contents (Elt Ideal)) (Wc : (⟨(⟨2, ![128, 192]⟩ : Shape), .f32⟩ : BufTy).Contents (Elt Ideal)) (z : (⟨(⟨2, ![1, 192]⟩ : Shape), .f32⟩ : BufTy).Contents (Elt Ideal))
    (hz : ∀ j, z (ix2 0 j) = 0) (A7 : (⟨S128x64, .f32⟩ : BufTy).Contents (Elt Ideal))
    (h0 : ∀ (k : Fin 128) (j : Fin 64), Wc (ix2 k ⟨j.val, Nat.lt_of_lt_of_le j.isLt (by decide)⟩) = A7 (ix2 k j)) (r : Fin 100000) (j : Fin 64) :
    Cert.Spec.affine X Wc z r ⟨j.val, Nat.lt_of_lt_of_le j.isLt (by decide)⟩ = val_main_v41 (F := Ideal) X A7 (ix2 r j) :=
  proj_core X Wc z hz A7 (fun j => ⟨j.val, Nat.lt_of_lt_of_le j.isLt (by decide)⟩) h0 r j

/-- Columns 64 … 127: the second matrix. -/
theorem proj_stage64_apply (X : (⟨S100000x128, .f32⟩ : BufTy).Contents (Elt Ideal)) (Wc : (⟨(⟨2, ![128, 192]⟩ : Shape), .f32⟩ : BufTy).Contents (Elt Ideal)) (z : (⟨(⟨2, ![1, 192]⟩ : Shape), .f32⟩ : BufTy).Contents (Elt Ideal))
    (hz : ∀ j, z (ix2 0 j) = 0) (A9 : (⟨S128x64, .f32⟩ : BufTy).Contents (Elt Ideal))
    (h1 : ∀ (k : Fin 128) (j : Fin 64), Wc (ix2 k ⟨64 + j.val, by have := j.isLt; omega⟩) = A9 (ix2 k j)) (r : Fin 100000) (j : Fin 64) :
    Cert.Spec.affine X Wc z r ⟨64 + j.val, by have := j.isLt; omega⟩ = val_main_v55 (F := Ideal) X A9 (ix2 r j) :=
  proj_core X Wc z hz A9 (fun j => ⟨64 + j.val, by have := j.isLt; omega⟩) h1 r j

/-- Columns 128 … 191: the third matrix. -/
theorem proj_stage128_apply (X : (⟨S100000x128, .f32⟩ : BufTy).Contents (Elt Ideal)) (Wc : (⟨(⟨2, ![128, 192]⟩ : Shape), .f32⟩ : BufTy).Contents (Elt Ideal)) (z : (⟨(⟨2, ![1, 192]⟩ : Shape), .f32⟩ : BufTy).Contents (Elt Ideal))
    (hz : ∀ j, z (ix2 0 j) = 0) (A10 : (⟨S128x64, .f32⟩ : BufTy).Contents (Elt Ideal))
    (h2 : ∀ (k : Fin 128) (j : Fin 64), Wc (ix2 k ⟨128 + j.val, by have := j.isLt; omega⟩) = A10 (ix2 k j)) (r : Fin 100000) (j : Fin 64) :
    Cert.Spec.affine X Wc z r ⟨128 + j.val, by have := j.isLt; omega⟩ = val_main_v75 (F := Ideal) X A10 (ix2 r j) :=
  proj_core X Wc z hz A10 (fun j => ⟨128 + j.val, by have := j.isLt; omega⟩) h2 r j

/-- The same three as slices of the 100000×192 array of the affine map, for any evidence `hs` that the slice is one. -/
theorem proj_stage0 (X : (⟨S100000x128, .f32⟩ : BufTy).Contents (Elt Ideal)) (Wc : (⟨(⟨2, ![128, 192]⟩ : Shape), .f32⟩ : BufTy).Contents (Elt Ideal)) (z : (⟨(⟨2, ![1, 192]⟩ : Shape), .f32⟩ : BufTy).Contents (Elt Ideal))
    (hz : ∀ j, z (ix2 0 j) = 0) (A7 : (⟨S128x64, .f32⟩ : BufTy).Contents (Elt Ideal))
    (h0 : ∀ (k : Fin 128) (j : Fin 64), Wc (ix2 k ⟨j.val, Nat.lt_of_lt_of_le j.isLt (by decide)⟩) = A7 (ix2 k j))
    (hs : (⟨2, ![100000, 192]⟩ : Shape).Slices ![0, 0] S100000x64) :
    extractStridedSlice S100000x64 ![0, 0] (fun i : (⟨2, ![100000, 192]⟩ : Shape).Idx => Cert.Spec.affine X Wc z (i 0) (i 1)) hs
      = val_main_v41 (F := Ideal) X A7 := by
  funext i
  obtain ⟨r, j, rfl⟩ : ∃ (r : Fin 100000) (j : Fin 64), i = ix2 r j := ⟨i 0, i 1, eq_ix2 i⟩
  rw [extractStridedSlice_apply ![0, 0] _ hs (ix2 r j) (ix2 r ⟨j.val, Nat.lt_of_lt_of_le j.isLt (by decide)⟩) (fun a => match a with
    | ⟨0, _⟩ => by show r.val = 0 + r.val; omega
    | ⟨1, _⟩ => by show j.val = 0 + j.val; omega)]
  exact proj_stage0_apply X Wc z hz A7 h0 r j

theorem proj_stage64 (X : (⟨S100000x128, .f32⟩ : BufTy).Contents (Elt Ideal)) (Wc : (⟨(⟨2, ![128, 192]⟩ : Shape), .f32⟩ : BufTy).Contents (Elt Ideal)) (z : (⟨(⟨2, ![1, 192]⟩ : Shape), .f32⟩ : BufTy).Contents (Elt Ideal))
    (hz : ∀ j, z (ix2 0 j) = 0) (A9 : (⟨S128x64, .f32⟩ : BufTy).Contents (Elt Ideal))
    (h1 : ∀ (k : Fin 128) (j : Fin 64), Wc (ix2 k ⟨64 + j.val, by have := j.isLt; omega⟩) = A9 (ix2 k j))
    (hs : (⟨2, ![100000, 192]⟩ : Shape).Slices ![0, 64] S100000x64) :
    extractStridedSlice S100000x64 ![0, 64] (fun i : (⟨2, ![100000, 192]⟩ : Shape).Idx => Cert.Spec.affine X Wc z (i 0) (i 1)) hs
      = val_main_v55 (F := Ideal) X A9 := by
  funext i
  obtain ⟨r, j, rfl⟩ : ∃ (r : Fin 100000) (j : Fin 64), i = ix2 r j := ⟨i 0, i 1, eq_ix2 i⟩
  rw [extractStridedSlice_apply ![0, 64] _ hs (ix2 r j) (ix2 r ⟨64 + j.val, by have := j.isLt; omega⟩) (fun a => match a with
    | ⟨0, _⟩ => by show r.val = 0 + r.val; omega
    | ⟨1, _⟩ => by show 64 + j.val = 64 + j.val; omega)]
  exact proj_stage64_apply X Wc z hz A9 h1 r j

theorem proj_stage128 (X : (⟨S100000x128, .f32⟩ : BufTy).Contents (Elt Ideal)) (Wc : (⟨(⟨2, ![128, 192]⟩ : Shape), .f32⟩ : BufTy).Contents (Elt Ideal)) (z : (⟨(⟨2, ![1, 192]⟩ : Shape), .f32⟩ : BufTy).Contents (Elt Ideal))
    (hz : ∀ j, z (ix2 0 j) = 0) (A10 : (⟨S128x64, .f32⟩ : BufTy).Contents (Elt Ideal))
    (h2 : ∀ (k : Fin 128) (j : Fin 64), Wc (ix2 k ⟨128 + j.val, by have := j.isLt; omega⟩) = A10 (ix2 k j))
    (hs : (⟨2, ![100000, 192]⟩ : Shape).Slices ![0, 128] S100000x64) :
    extractStridedSlice S100000x64 ![0, 128] (fun i : (⟨2, ![100000, 192]⟩ : Shape).Idx => Cert.Spec.affine X Wc z (i 0) (i 1)) hs
      = val_main_v75 (F := Ideal) X A10 := by
  funext i
  obtain ⟨r, j, rfl⟩ : ∃ (r : Fin 100000) (j : Fin 64), i = ix2 r j := ⟨i 0, i 1, eq_ix2 i⟩
  rw [extractStridedSlice_apply ![0, 128] _ hs (ix2 r j) (ix2 r ⟨128 + j.val, by have := j.isLt; omega⟩) (fun a => match a with
    | ⟨0, _⟩ => by show r.val = 0 + r.val; omega
    | ⟨1, _⟩ => by show 128 + j.val = 128 + j.val; omega)]
  exact proj_stage128_apply X Wc z hz A10 h2 r j

/-! ## The 64×64 layers -/

/-- The reference's product of a 100000×64 array with a 64×64 matrix, read at an entry: the sum of products. -/
theorem dot64_apply (H : (⟨S100000x64, .f32⟩ : BufTy).Contents (Elt Ideal)) (W : (⟨S64x64, .f32⟩ : BufTy).Contents (Elt Ideal)) (i : S100000x64.Idx) :
    Host.dotGeneral (F := Ideal) (φ₁ := .f32) (φ₂ := .f32) dot_S100000x64_S64x64_S100000x64_1_0_0_1_n_n none H W i = ∑ k : Fin 64, H (lidx_main_v61 i k) * W (ridx_main_v61 i k) := by
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx i ((ValueIdx.contrEquiv1 dot_S100000x64_S64x64_S100000x64_1_0_0_1_n_n 64 rfl rfl).symm k) = lidx_main_v61 i k := funext fun a => Fin.ext (by
    match a with
    | ⟨0, _⟩ => exact lhs_main_v61_0 _ _
    | ⟨1, _⟩ => exact (lhs_main_v61_1 _ _).trans hk)
  have er : dot_S100000x64_S64x64_S100000x64_1_0_0_1_n_n.rhsIdx i ((ValueIdx.contrEquiv1 dot_S100000x64_S64x64_S100000x64_1_0_0_1_n_n 64 rfl rfl).symm k) = ridx_main_v61 i k := funext fun a => Fin.ext (by
    match a with
    | ⟨0, _⟩ => exact (rhs_main_v61_0 _ _).trans hk
    | ⟨1, _⟩ => exact rhs_main_v61_1 _ _)
  rw [el, er]

/-- Entry (r, j) of that product is the affine map's with any bias row that vanishes there. -/
theorem dot64_affine (H : (⟨S100000x64, .f32⟩ : BufTy).Contents (Elt Ideal)) (W : (⟨S64x64, .f32⟩ : BufTy).Contents (Elt Ideal)) (r : Fin 100000) (j : Fin 64) :
    Host.dotGeneral (F := Ideal) (φ₁ := .f32) (φ₂ := .f32) dot_S100000x64_S64x64_S100000x64_1_0_0_1_n_n none H W (ix2 r j) = ∑ k : Fin 64, H (ix2 r k) * W (ix2 k j) := by
  rw [dot64_apply]
  refine Finset.sum_congr rfl fun k _ => ?_
  have e1 : lidx_main_v61 (ix2 r j) k = ix2 r k := funext fun a => Fin.ext (by match a with | ⟨0, _⟩ => rfl | ⟨1, _⟩ => rfl)
  have e2 : ridx_main_v61 (ix2 r j) k = ix2 k j := funext fun a => Fin.ext (by match a with | ⟨0, _⟩ => rfl | ⟨1, _⟩ => rfl)
  rw [e1, e2]

/-- A hidden layer's product is the affine map with a zero bias row. -/
theorem layer_stage (H : (⟨S100000x64, .f32⟩ : BufTy).Contents (Elt Ideal)) (x8 : (⟨S64x64, .f32⟩ : BufTy).Contents (Elt Ideal)) (z : (⟨S1x64, .f32⟩ : BufTy).Contents (Elt Ideal)) (hz : ∀ j, z (ix2 0 j) = 0) :
    (fun i : S100000x64.Idx => Cert.Spec.affine H x8 z (i 0) (i 1)) = Host.dotGeneral (F := Ideal) (φ₁ := .f32) (φ₂ := .f32) dot_S100000x64_S64x64_S100000x64_1_0_0_1_n_n none H x8 := by
  funext i
  obtain ⟨r, j, rfl⟩ : ∃ (r : Fin 100000) (j : Fin 64), i = ix2 r j := ⟨i 0, i 1, eq_ix2 i⟩
  rw [dot64_affine]
  show (∑ k : Fin 64, H (ix2 r k) * x8 (ix2 k j)) + z (ix2 0 j) = _
  rw [hz, add_zero]

/-- The output layer: the product plus the bias vector broadcast to a row and down the rows is the affine map with
    any bias row that carries the bias vector. -/
theorem head_stage (H : (⟨S100000x64, .f32⟩ : BufTy).Contents (Elt Ideal)) (x13 : (⟨S64x64, .f32⟩ : BufTy).Contents (Elt Ideal)) (brow : (⟨S1x64, .f32⟩ : BufTy).Contents (Elt Ideal)) (x14 : (⟨S64, .f32⟩ : BufTy).Contents (Elt Ideal))
    (hb : ∀ j : Fin 64, brow (ix2 0 j) = x14 (ix1 j)) :
    (fun i : S100000x64.Idx => Cert.Spec.affine H x13 brow (i 0) (i 1))
      = addf (Host.dotGeneral (F := Ideal) (φ₁ := .f32) (φ₂ := .f32) dot_S100000x64_S64x64_S100000x64_1_0_0_1_n_n none H x13)
          (broadcastInDim S100000x64 ![0, 1] bcast_S1x64_S100000x64_0_1 (broadcastInDim S1x64 ![1] bcast_S64_S1x64_1 x14)) := by
  funext i
  obtain ⟨r, j, rfl⟩ : ∃ (r : Fin 100000) (j : Fin 64), i = ix2 r j := ⟨i 0, i 1, eq_ix2 i⟩
  show (∑ k : Fin 64, H (ix2 r k) * x13 (ix2 k j)) + brow (ix2 0 j)
    = FloatOps.addf (Host.dotGeneral (F := Ideal) (φ₁ := .f32) (φ₂ := .f32) dot_S100000x64_S64x64_S100000x64_1_0_0_1_n_n none H x13 (ix2 r j)) (val_main_v83 (F := Ideal) x14 (ix2 r j))
  rw [val_main_v83_apply, val_main_v82_apply, dot64_affine, Ideal.addf_def, hb j]
  have e3 : idx_main_v82 (idx_main_v83 (ix2 r j)) = ix1 j := funext fun a => Fin.ext (by match a with | ⟨0, _⟩ => rfl)
  rw [e3]

end Cert.Bridge.Dense

end
-- ==== Proof.BridgeNorm.lean ====
/-
  From the launch memory to the start of the node projection: the normalised edge weights.
  The buffers' contents at the boundaries between host stretches and kernel regions are a fold over the launch
  memory.  Assuming the edge network's region leaves `Spec.edgeWeight` of its operands in its output buffer, the
  host stretches that follow compute, stage by stage, exactly the reference's degree, inverse square root and
  normalised weight; the edge list's two index vectors, written by the first stretch, are untouched since.
-/
import proofs.«170167_j27212912788334_2_alg».proof.Proof.HostNorm
import proofs.«170167_j27212912788334_2_alg».proof.Proof.HostLayout
import proofs.«170167_j27212912788334_2_alg».proof.Proof.DenseStages

noncomputable section

namespace Cert.Bridge

open Idealize.ShloMosaic Idealize.ShloMosaic.TcCoe Idealize.SL.Sem Idealize.ShloMosaic.StableHlo Idealize.ShloMosaic.ValueIdx
open Cert.KernelIdeal Cert.KernelIdeal.Gen
open Cert.ReferenceIdeal.Read
open Cert.Bridge.Norm Cert.Bridge.Dense

variable (m : (ℓ : Loc nD τ sig) → Buf (Elt Ideal) ℓ) (outs : Gen.Outs (F := Ideal)) (c : Dev nD)

/-- The source indices of the edges, as the first host stretch leaves them, are still there when the node
    projection starts: no later stretch and no kernel region writes that buffer. -/
theorem row_at_projection : Gen.V7 m outs c main_v1 = val_main_v1 (F := Ideal) (m ((c : Thread nD τ).loc main_arg1)) :=
  (Gen.V7_of m outs c main_v1 (by decide)).trans <| (Gen.V6_of m outs c main_v1 (by decide)).trans <| (Gen.V5_of m outs c main_v1 (by decide)).trans <|
    (Gen.V4_of m outs c main_v1 (by decide)).trans <| (Gen.V3_of m outs c main_v1 (by decide)).trans <| (Gen.V2_of m outs c main_v1 (by decide)).trans <| row_stage (Gen.V0 m c)

/-- The same for the target indices. -/
theorem col_at_projection : Gen.V7 m outs c main_v3 = val_main_v3 (F := Ideal) (m ((c : Thread nD τ).loc main_arg1)) :=
  (Gen.V7_of m outs c main_v3 (by decide)).trans <| (Gen.V6_of m outs c main_v3 (by decide)).trans <| (Gen.V5_of m outs c main_v3 (by decide)).trans <|
    (Gen.V4_of m outs c main_v3 (by decide)).trans <| (Gen.V3_of m outs c main_v3 (by decide)).trans <| (Gen.V2_of m outs c main_v3 (by decide)).trans <| col_stage (Gen.V0 m c)

set_option maxHeartbeats 1600000 in
/-- If the edge network's region leaves `Spec.edgeWeight` of its operands, then when the node projection starts the
    normalised weights dinv[row] · w · dinv[col] are the reference's: each host stretch in between applies the
    reference's operations to buffers that hold the reference's stages. -/
theorem norm_at_projection
    (h2 : outs 2 main_v6 c = fun i => Cert.Spec.edgeWeight (Gen.V1 m c main_arg2) (Gen.V1 m c main_arg3) (Gen.V1 m c main_v4)
      (Gen.V1 m c main_arg5) (Gen.V1 m c main_v5) (i 0)) :
    Gen.V7 m outs c main_v33 = val_main_v40 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  -- the arguments are where the launch put them
  have a2 : Gen.V1 m c main_arg2 = (m ((c : Thread nD τ).loc main_arg2)) := Gen.V1_of m c main_arg2 (by decide)
  have a3 : Gen.V1 m c main_arg3 = (m ((c : Thread nD τ).loc main_arg3)) := Gen.V1_of m c main_arg3 (by decide)
  have a5 : Gen.V1 m c main_arg5 = (m ((c : Thread nD τ).loc main_arg5)) := Gen.V1_of m c main_arg5 (by decide)
  -- after the edge network's region
  have e6 : Gen.V2 m outs c main_v6 = val_main_v13 (F := Ideal) (m ((c : Thread nD τ).loc main_arg2)) (m ((c : Thread nD τ).loc main_arg3)) (m ((c : Thread nD τ).loc main_arg4)) (m ((c : Thread nD τ).loc main_arg5)) (m ((c : Thread nD τ).loc main_arg6)) := by
    have h : Gen.V2 m outs c main_v6 = outs 2 main_v6 c := by simp only [Gen.V2, Function.update_self]
    rw [h, h2, a2, a3, a5]
    exact edge_stage (m ((c : Thread nD τ).loc main_arg2)) (m ((c : Thread nD τ).loc main_arg3)) (m ((c : Thread nD τ).loc main_arg4)) (m ((c : Thread nD τ).loc main_arg5)) (m ((c : Thread nD τ).loc main_arg6)) (Gen.V1 m c main_v4) (Gen.V1 m c main_v5)
      (Layout.bias1_row (Gen.V0 m c)) (Layout.bias2_row (Gen.V0 m c))
  have e3 : Gen.V2 m outs c main_v3 = val_main_v3 (F := Ideal) (m ((c : Thread nD τ).loc main_arg1)) := (Gen.V2_of m outs c main_v3 (by decide)).trans (col_stage (Gen.V0 m c))
  -- weights as a vector, degrees, the test, the constant one
  have e7 : Gen.V3 m outs c main_v7 = val_main_v14 (F := Ideal) (m ((c : Thread nD τ).loc main_arg2)) (m ((c : Thread nD τ).loc main_arg3)) (m ((c : Thread nD τ).loc main_arg4)) (m ((c : Thread nD τ).loc main_arg5)) (m ((c : Thread nD τ).loc main_arg6)) := weight_stage (Gen.V2 m outs c) (m ((c : Thread nD τ).loc main_arg2)) (m ((c : Thread nD τ).loc main_arg3)) (m ((c : Thread nD τ).loc main_arg4)) (m ((c : Thread nD τ).loc main_arg5)) (m ((c : Thread nD τ).loc main_arg6)) e6
  have e10 : Gen.V3 m outs c main_v10 = val_main_v17 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := degree_stage (Gen.V2 m outs c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) e3 e6
  have e12 : Gen.V3 m outs c main_v12 = val_main_v19 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := positive_stage (Gen.V2 m outs c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) e3 e6
  have ec1 : Gen.V3 m outs c main_cst_1 = val_main_cst_1 (F := Ideal) := one_stage (Gen.V2 m outs c)
  -- safe
  have e13 : Gen.V4 m outs c main_v13 = val_main_v20 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := safe_stage (Gen.V3 m outs c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) e12 e10 ec1
  have e10' : Gen.V4 m outs c main_v10 = val_main_v17 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := (Gen.V4_of m outs c main_v10 (by decide)).trans e10
  -- rsqrt, second test, zero
  have e15 : Gen.V5 m outs c main_v15 = val_main_v22 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := positive2_stage (Gen.V4 m outs c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) e10'
  have e16 : Gen.V5 m outs c main_v16 = val_main_v23 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := rsqrt_stage (Gen.V4 m outs c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) e13
  have ec3 : Gen.V5 m outs c main_cst_3 = val_main_cst_3 (F := Ideal) := zero_stage (Gen.V4 m outs c)
  -- dinv
  have e17 : Gen.V6 m outs c main_v17 = val_main_v24 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := dinv_stage (Gen.V5 m outs c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) e15 e16 ec3
  -- what the last stretch reads besides dinv
  have f1 : Gen.V6 m outs c main_v1 = val_main_v1 (F := Ideal) (m ((c : Thread nD τ).loc main_arg1)) :=
    (Gen.V6_of m outs c main_v1 (by decide)).trans <| (Gen.V5_of m outs c main_v1 (by decide)).trans <| (Gen.V4_of m outs c main_v1 (by decide)).trans <|
      (Gen.V3_of m outs c main_v1 (by decide)).trans <| (Gen.V2_of m outs c main_v1 (by decide)).trans <| row_stage (Gen.V0 m c)
  have f3 : Gen.V6 m outs c main_v3 = val_main_v3 (F := Ideal) (m ((c : Thread nD τ).loc main_arg1)) :=
    (Gen.V6_of m outs c main_v3 (by decide)).trans <| (Gen.V5_of m outs c main_v3 (by decide)).trans <| (Gen.V4_of m outs c main_v3 (by decide)).trans <| (Gen.V3_of m outs c main_v3 (by decide)).trans e3
  have f7 : Gen.V6 m outs c main_v7 = val_main_v14 (F := Ideal) (m ((c : Thread nD τ).loc main_arg2)) (m ((c : Thread nD τ).loc main_arg3)) (m ((c : Thread nD τ).loc main_arg4)) (m ((c : Thread nD τ).loc main_arg5)) (m ((c : Thread nD τ).loc main_arg6)) :=
    (Gen.V6_of m outs c main_v7 (by decide)).trans <| (Gen.V5_of m outs c main_v7 (by decide)).trans <| (Gen.V4_of m outs c main_v7 (by decide)).trans e7
  exact norm_stage (Gen.V6 m outs c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) f1 f3 f7 e17

end Cert.Bridge

end
-- ==== Proof.HostLayers.lean ====
/-
  The two propagation layers on the host, operation by operation.
  After the node projection the kernel's program runs on the host what the reference runs:
    h  = relu( scatter-add over target nodes of  norm · P0[row]  +  P1  +  b0 ),
  with P0, P1, P2 the three 64-column slices of the projection, and after the layer matrix
    h2 = relu( scatter-add over target nodes of  norm · (h·A)[row]  +  P2  +  b1 ).
  Each lemma takes the contents W of the buffers before one stretch of operations, assumes the buffers the
  stretch reads hold the reference's stages, and concludes that the buffer the stretch writes holds the reference's
  next stage: the two programs apply the same operations to equal operands.
-/
import proofs.«170167_j27212912788334_2_alg».proof.Proof.Gen.KernelIdeal.Regions
import proofs.«170167_j27212912788334_2_alg».proof.Proof.RefRead
import proofs.«170167_j27212912788334_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Bridge.Layers

open Idealize.ShloMosaic Idealize.ShloMosaic.TcCoe Idealize.SL.Sem Idealize.ShloMosaic.StableHlo Idealize.ShloMosaic.ValueIdx
open Cert.KernelIdeal Cert.KernelIdeal.Gen
open Cert.ReferenceIdeal.Read

-- the buffers' contents before the stretch of host operations at hand: any valuation
variable (W : Valuation τ sig (Elt Ideal))

variable (x0 : (⟨Cert.ReferenceIdeal.S100000x128, .f32⟩ : BufTy).Contents (Elt Ideal)) (x1 : (⟨Cert.ReferenceIdeal.S2x1600000, .i32⟩ : BufTy).Contents (Elt Ideal))
  (x2 : (⟨Cert.ReferenceIdeal.S1600000x16, .f32⟩ : BufTy).Contents (Elt Ideal)) (x3 : (⟨Cert.ReferenceIdeal.S16x64, .f32⟩ : BufTy).Contents (Elt Ideal)) (x4 : (⟨Cert.ReferenceIdeal.S64, .f32⟩ : BufTy).Contents (Elt Ideal)) (x5 : (⟨Cert.ReferenceIdeal.S64x1, .f32⟩ : BufTy).Contents (Elt Ideal)) (x6 : (⟨Cert.ReferenceIdeal.S1, .f32⟩ : BufTy).Contents (Elt Ideal))
  (x7 : (⟨Cert.ReferenceIdeal.S128x64, .f32⟩ : BufTy).Contents (Elt Ideal)) (x8 : (⟨Cert.ReferenceIdeal.S64x64, .f32⟩ : BufTy).Contents (Elt Ideal)) (x9 x10 : (⟨Cert.ReferenceIdeal.S128x64, .f32⟩ : BufTy).Contents (Elt Ideal)) (x11 x12 : (⟨Cert.ReferenceIdeal.S64, .f32⟩ : BufTy).Contents (Elt Ideal))

/-! ## The first layer before its relu -/

set_option maxHeartbeats 1600000 in
theorem layer1_stage (h1 : W main_v1 = val_main_v1 (F := Ideal) x1) (h3 : W main_v3 = val_main_v3 (F := Ideal) x1)
    (h33 : W main_v33 = val_main_v40 (F := Ideal) x1 x2 x3 x4 x5 x6)
    (h38 : extractStridedSlice S100000x64 ![0, 0] (W main_v37) slices_S100000x192_S100000x64_0_0 = val_main_v41 (F := Ideal) x0 x7)
    (h39 : extractStridedSlice S100000x64 ![0, 64] (W main_v37) slices_S100000x192_S100000x64_0_64 = val_main_v55 (F := Ideal) x0 x9)
    (h11 : W main_arg11 = x11) :
    StableHlo.after (hostOps2 (F := Ideal)) W main_v57 = val_main_v59 (F := Ideal) x0 x1 x2 x3 x4 x5 x6 x7 x9 x11 := by
  dsimp only [hostOps2]; after_results
  rw [h1, h3, h33, h38, h39, h11]; rfl

/-- The third slice of the projection is carried to the second layer unchanged. -/
theorem slice2_stage : StableHlo.after (hostOps2 (F := Ideal)) W main_v40 =
    extractStridedSlice S100000x64 ![0, 128] (W main_v37) slices_S100000x192_S100000x64_0_128 := by
  dsimp only [hostOps2]; after_results

/-! ## Its relu -/

theorem hidden1_stage (h57 : W main_v57 = val_main_v59 (F := Ideal) x0 x1 x2 x3 x4 x5 x6 x7 x9 x11) :
    StableHlo.after (hostOps2_1 (F := Ideal)) W main_v58 = val_main_v60 (F := Ideal) x0 x1 x2 x3 x4 x5 x6 x7 x9 x11 := by
  have e1 : StableHlo.after (hostOps2_1 (F := Ideal)) W main_v58 =
      (maximumf (F := Ideal) (W main_v57 : FVec Ideal S100000x64 .f32) (broadcastInDim S100000x64 ![] bcast_S_S100000x64 (constant (F := Ideal) S_ .f32 0x00000000#32)) : FVec Ideal S100000x64 .f32) := by
    dsimp only [hostOps2_1]; after_results; rfl
  rw [e1, h57]; rfl

/-! ## The second layer before its relu -/

set_option maxHeartbeats 1600000 in
theorem layer2_stage (h1 : W main_v1 = val_main_v1 (F := Ideal) x1) (h3 : W main_v3 = val_main_v3 (F := Ideal) x1)
    (h33 : W main_v33 = val_main_v40 (F := Ideal) x1 x2 x3 x4 x5 x6)
    (h61 : W main_v61 = val_main_v61 (F := Ideal) x0 x1 x2 x3 x4 x5 x6 x7 x8 x9 x11)
    (h40 : W main_v40 = val_main_v75 (F := Ideal) x0 x10) (h12 : W main_arg12 = x12) :
    StableHlo.after (hostOps3 (F := Ideal)) W main_v78 = val_main_v79 (F := Ideal) x0 x1 x2 x3 x4 x5 x6 x7 x8 x9 x10 x11 x12 := by
  dsimp only [hostOps3]; after_results
  rw [h1, h3, h33, h61, h40, h12]; rfl

/-! ## Its relu -/

theorem hidden2_stage (h78 : W main_v78 = val_main_v79 (F := Ideal) x0 x1 x2 x3 x4 x5 x6 x7 x8 x9 x10 x11 x12) :
    StableHlo.after (hostOps3_1 (F := Ideal)) W main_v79 = val_main_v80 (F := Ideal) x0 x1 x2 x3 x4 x5 x6 x7 x8 x9 x10 x11 x12 := by
  have e1 : StableHlo.after (hostOps3_1 (F := Ideal)) W main_v79 =
      (maximumf (F := Ideal) (W main_v78 : FVec Ideal S100000x64 .f32) (broadcastInDim S100000x64 ![] bcast_S_S100000x64 (constant (F := Ideal) S_ .f32 0x00000000#32)) : FVec Ideal S100000x64 .f32) := by
    dsimp only [hostOps3_1]; after_results; rfl
  rw [e1, h78]; rfl

end Cert.Bridge.Layers

end
-- ==== Proof.BridgeLayer1.lean ====
/-
  From the node projection to the second layer's entry.
  At the entry of the second kernel region the buffers hold the edge normalisation and the edge list (hypotheses
  here, proved from the earlier part of the run).  The region leaves X·Wc + 0, where Wc carries the three 128×64
  projection matrices side by side, so the three 64-column slices of what it leaves are the reference's three
  projections P0, P1, P2; the host then forms h = relu(propagate(P0) + P1 + b0) as the reference does and carries P2 on.
  Concluded: what the buffers hold at the entry of the third kernel region.
-/
import proofs.«170167_j27212912788334_2_alg».proof.Proof.HostLayers
import proofs.«170167_j27212912788334_2_alg».proof.Proof.HostLayout
import proofs.«170167_j27212912788334_2_alg».proof.Proof.DenseStages

noncomputable section

namespace Cert.Bridge

open Idealize.ShloMosaic Idealize.ShloMosaic.TcCoe Idealize.SL.Sem Idealize.ShloMosaic.StableHlo Idealize.ShloMosaic.ValueIdx
open Cert.KernelIdeal Cert.KernelIdeal.Gen
open Cert.ReferenceIdeal.Read

variable (m : (ℓ : Loc nD τ sig) → Buf (Elt Ideal) ℓ) (outs : Gen.Outs (F := Ideal)) (c : Dev nD)

/-! ## Arguments reach these boundaries as launched -/

theorem V7_arg0 : Gen.V7 m outs c main_arg0 = (m ((c.tc : Thread nD τ).loc main_arg0)) :=
  (Gen.V7_of m outs c main_arg0 (by decide)).trans <| (Gen.V6_of m outs c main_arg0 (by decide)).trans <| (Gen.V5_of m outs c main_arg0 (by decide)).trans <| (Gen.V4_of m outs c main_arg0 (by decide)).trans <| (Gen.V3_of m outs c main_arg0 (by decide)).trans <| (Gen.V2_of m outs c main_arg0 (by decide)).trans <| (Gen.V1_of m c main_arg0 (by decide)).trans rfl
theorem V6_arg7 : Gen.V6 m outs c main_arg7 = (m ((c.tc : Thread nD τ).loc main_arg7)) :=
  (Gen.V6_of m outs c main_arg7 (by decide)).trans <| (Gen.V5_of m outs c main_arg7 (by decide)).trans <| (Gen.V4_of m outs c main_arg7 (by decide)).trans <| (Gen.V3_of m outs c main_arg7 (by decide)).trans <| (Gen.V2_of m outs c main_arg7 (by decide)).trans <| (Gen.V1_of m c main_arg7 (by decide)).trans rfl
theorem V6_arg9 : Gen.V6 m outs c main_arg9 = (m ((c.tc : Thread nD τ).loc main_arg9)) :=
  (Gen.V6_of m outs c main_arg9 (by decide)).trans <| (Gen.V5_of m outs c main_arg9 (by decide)).trans <| (Gen.V4_of m outs c main_arg9 (by decide)).trans <| (Gen.V3_of m outs c main_arg9 (by decide)).trans <| (Gen.V2_of m outs c main_arg9 (by decide)).trans <| (Gen.V1_of m c main_arg9 (by decide)).trans rfl
theorem V6_arg10 : Gen.V6 m outs c main_arg10 = (m ((c.tc : Thread nD τ).loc main_arg10)) :=
  (Gen.V6_of m outs c main_arg10 (by decide)).trans <| (Gen.V5_of m outs c main_arg10 (by decide)).trans <| (Gen.V4_of m outs c main_arg10 (by decide)).trans <| (Gen.V3_of m outs c main_arg10 (by decide)).trans <| (Gen.V2_of m outs c main_arg10 (by decide)).trans <| (Gen.V1_of m c main_arg10 (by decide)).trans rfl
theorem V8_arg11 : Gen.V8 m outs c main_arg11 = (m ((c.tc : Thread nD τ).loc main_arg11)) :=
  (Gen.V8_of m outs c main_arg11 (by decide)).trans <| (Gen.V7_of m outs c main_arg11 (by decide)).trans <| (Gen.V6_of m outs c main_arg11 (by decide)).trans <| (Gen.V5_of m outs c main_arg11 (by decide)).trans <| (Gen.V4_of m outs c main_arg11 (by decide)).trans <| (Gen.V3_of m outs c main_arg11 (by decide)).trans <| (Gen.V2_of m outs c main_arg11 (by decide)).trans <| (Gen.V1_of m c main_arg11 (by decide)).trans rfl

/-! ## What the second region leaves, and its three slices -/

/-- The bias row the region adds is zero. -/
theorem proj_bias_zero (j : Fin 192) : (Gen.V7 m outs c main_v36 : S1x192.Idx → EReal) (ix2 0 j) = (0 : EReal) :=
  Layout.zero_row192 (Gen.V6 m outs c) j

/-- Columns 0 … 63 of the region's matrix are the first projection matrix. -/
theorem proj_cols_left (k : Fin 128) (j : Fin 64) :
    (Gen.V7 m outs c main_v34 : S128x192.Idx → EReal) (ix2 k ⟨j.val, Nat.lt_of_lt_of_le j.isLt (by decide)⟩) = (m ((c.tc : Thread nD τ).loc main_arg7)) (ix2 k j) :=
  (Layout.wcat_left (Gen.V6 m outs c) k j).trans (congrFun (V6_arg7 m outs c) (ix2 k j))
/-- Columns 64 … 127 are the second. -/
theorem proj_cols_mid (k : Fin 128) (j : Fin 64) :
    (Gen.V7 m outs c main_v34 : S128x192.Idx → EReal) (ix2 k ⟨64 + j.val, by have := j.isLt; omega⟩) = (m ((c.tc : Thread nD τ).loc main_arg9)) (ix2 k j) :=
  (Layout.wcat_mid (Gen.V6 m outs c) k j).trans (congrFun (V6_arg9 m outs c) (ix2 k j))
/-- Columns 128 … 191 are the third. -/
theorem proj_cols_right (k : Fin 128) (j : Fin 64) :
    (Gen.V7 m outs c main_v34 : S128x192.Idx → EReal) (ix2 k ⟨128 + j.val, by have := j.isLt; omega⟩) = (m ((c.tc : Thread nD τ).loc main_arg10)) (ix2 k j) :=
  (Layout.wcat_right (Gen.V6 m outs c) k j).trans (congrFun (V6_arg10 m outs c) (ix2 k j))

/-- After the region its output buffer holds X·Wc + z of the node features and the region's matrix and bias row. -/
theorem proj_left
    (h8 : outs 8 main_v37 c = fun i => Cert.Spec.affine (Gen.V7 m outs c main_arg0) (Gen.V7 m outs c main_v34) (Gen.V7 m outs c main_v36) (i 0) (i 1)) :
    Gen.V8 m outs c main_v37 = fun i => Cert.Spec.affine (m ((c.tc : Thread nD τ).loc main_arg0)) (Gen.V7 m outs c main_v34) (Gen.V7 m outs c main_v36) (i 0) (i 1) := by
  have e : Gen.V8 m outs c main_v37 = outs 8 main_v37 c := by simp only [Gen.V8, Function.update_self]
  rw [e, h8, V7_arg0]

/-- Its first 64 columns are the reference's first projection … -/
theorem proj_slice0
    (h8 : outs 8 main_v37 c = fun i => Cert.Spec.affine (Gen.V7 m outs c main_arg0) (Gen.V7 m outs c main_v34) (Gen.V7 m outs c main_v36) (i 0) (i 1)) :
    extractStridedSlice S100000x64 ![0, 0] (Gen.V8 m outs c main_v37) slices_S100000x192_S100000x64_0_0 = val_main_v41 (F := Ideal) (m ((c.tc : Thread nD τ).loc main_arg0)) (m ((c.tc : Thread nD τ).loc main_arg7)) := by
  rw [proj_left m outs c h8]
  exact Dense.proj_stage0 _ _ _ (proj_bias_zero m outs c) _ (proj_cols_left m outs c) _
/-- … the next 64 the second … -/
theorem proj_slice64
    (h8 : outs 8 main_v37 c = fun i => Cert.Spec.affine (Gen.V7 m outs c main_arg0) (Gen.V7 m outs c main_v34) (Gen.V7 m outs c main_v36) (i 0) (i 1)) :
    extractStridedSlice S100000x64 ![0, 64] (Gen.V8 m outs c main_v37) slices_S100000x192_S100000x64_0_64 = val_main_v55 (F := Ideal) (m ((c.tc : Thread nD τ).loc main_arg0)) (m ((c.tc : Thread nD τ).loc main_arg9)) := by
  rw [proj_left m outs c h8]
  exact Dense.proj_stage64 _ _ _ (proj_bias_zero m outs c) _ (proj_cols_mid m outs c) _
/-- … and the last 64 the third. -/
theorem proj_slice128
    (h8 : outs 8 main_v37 c = fun i => Cert.Spec.affine (Gen.V7 m outs c main_arg0) (Gen.V7 m outs c main_v34) (Gen.V7 m outs c main_v36) (i 0) (i 1)) :
    extractStridedSlice S100000x64 ![0, 128] (Gen.V8 m outs c main_v37) slices_S100000x192_S100000x64_0_128 = val_main_v75 (F := Ideal) (m ((c.tc : Thread nD τ).loc main_arg0)) (m ((c.tc : Thread nD τ).loc main_arg10)) := by
  rw [proj_left m outs c h8]
  exact Dense.proj_stage128 _ _ _ (proj_bias_zero m outs c) _ (proj_cols_right m outs c) _

/-! ## The first layer on the host, up to the third region's entry -/

set_option maxHeartbeats 1600000 in
/-- The first layer's output h = relu(propagate(P0) + P1 + b0) is in place when the third region is entered. -/
theorem hidden_at_layer2
    (hn : Gen.V7 m outs c main_v33 = val_main_v40 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
    (hr : Gen.V7 m outs c main_v1 = val_main_v1 (F := Ideal) (m ((c.tc : Thread nD τ).loc main_arg1)))
    (hc : Gen.V7 m outs c main_v3 = val_main_v3 (F := Ideal) (m ((c.tc : Thread nD τ).loc main_arg1)))
    (h8 : outs 8 main_v37 c = fun i => Cert.Spec.affine (Gen.V7 m outs c main_arg0) (Gen.V7 m outs c main_v34) (Gen.V7 m outs c main_v36) (i 0) (i 1)) :
    Gen.V11 m outs c main_v58 = val_main_v60 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9)) (m ((c.tc : Thread nD τ).loc main_arg11)) := by
  have e9 : Gen.V9 m outs c main_v57 = val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9)) (m ((c.tc : Thread nD τ).loc main_arg11)) :=
    Layers.layer1_stage (Gen.V8 m outs c) _ _ _ _ _ _ _ _ _ _
      ((Gen.V8_of m outs c main_v1 (by decide)).trans hr) ((Gen.V8_of m outs c main_v3 (by decide)).trans hc)
      ((Gen.V8_of m outs c main_v33 (by decide)).trans hn) (proj_slice0 m outs c h8) (proj_slice64 m outs c h8)
      (V8_arg11 m outs c)
  have e10 : Gen.V10 m outs c main_v58 = val_main_v60 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9)) (m ((c.tc : Thread nD τ).loc main_arg11)) :=
    Layers.hidden1_stage (Gen.V9 m outs c) _ _ _ _ _ _ _ _ _ _ e9
  exact (Gen.V11_of m outs c main_v58 (by decide)).trans e10

/-- The third projection P2 is carried to the third region's entry. -/
theorem root1_at_layer2
    (h8 : outs 8 main_v37 c = fun i => Cert.Spec.affine (Gen.V7 m outs c main_arg0) (Gen.V7 m outs c main_v34) (Gen.V7 m outs c main_v36) (i 0) (i 1)) :
    Gen.V11 m outs c main_v40 = val_main_v75 (F := Ideal) (m ((c.tc : Thread nD τ).loc main_arg0)) (m ((c.tc : Thread nD τ).loc main_arg10)) :=
  (Gen.V11_of m outs c main_v40 (by decide)).trans <| (Gen.V10_of m outs c main_v40 (by decide)).trans <|
    (Layers.slice2_stage (Gen.V8 m outs c)).trans (proj_slice128 m outs c h8)

/-- The edge normalisation is carried to the third region's entry. -/
theorem norm_at_layer2 (hn : Gen.V7 m outs c main_v33 = val_main_v40 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) :
    Gen.V11 m outs c main_v33 = val_main_v40 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (Gen.V11_of m outs c main_v33 (by decide)).trans <| (Gen.V10_of m outs c main_v33 (by decide)).trans <|
    (Gen.V9_of m outs c main_v33 (by decide)).trans <| (Gen.V8_of m outs c main_v33 (by decide)).trans hn

/-- So are the edges' source indices … -/
theorem row_at_layer2 (hr : Gen.V7 m outs c main_v1 = val_main_v1 (F := Ideal) (m ((c.tc : Thread nD τ).loc main_arg1))) :
    Gen.V11 m outs c main_v1 = val_main_v1 (F := Ideal) (m ((c.tc : Thread nD τ).loc main_arg1)) :=
  (Gen.V11_of m outs c main_v1 (by decide)).trans <| (Gen.V10_of m outs c main_v1 (by decide)).trans <|
    (Gen.V9_of m outs c main_v1 (by decide)).trans <| (Gen.V8_of m outs c main_v1 (by decide)).trans hr

/-- … and their target indices. -/
theorem col_at_layer2 (hc : Gen.V7 m outs c main_v3 = val_main_v3 (F := Ideal) (m ((c.tc : Thread nD τ).loc main_arg1))) :
    Gen.V11 m outs c main_v3 = val_main_v3 (F := Ideal) (m ((c.tc : Thread nD τ).loc main_arg1)) :=
  (Gen.V11_of m outs c main_v3 (by decide)).trans <| (Gen.V10_of m outs c main_v3 (by decide)).trans <|
    (Gen.V9_of m outs c main_v3 (by decide)).trans <| (Gen.V8_of m outs c main_v3 (by decide)).trans hc

/-- The bias row the third region adds is zero. -/
theorem zero_at_layer2 (j : Fin 64) : (Gen.V11 m outs c main_v60 : S1x64.Idx → EReal) (ix2 0 j) = (0 : EReal) :=
  Layout.zero_row64 (Gen.V10 m outs c) j

end Cert.Bridge

end
-- ==== Proof.BridgeLayer2.lean ====
/-
  From the second layer to the result.
  At the entry of the third kernel region the buffers hold the reference's first-layer output h, the third slice of
  the projection, the edge normalisation and the edge list (hypotheses here, proved from the earlier part of the
  run).  The region leaves h·A (its bias row is zero), the host forms h2 = relu(propagate(h·A) + P2 + b1) as the reference
  does, and the last region leaves h2·L + l, the reference's result.
-/
import proofs.«170167_j27212912788334_2_alg».proof.Proof.HostLayers
import proofs.«170167_j27212912788334_2_alg».proof.Proof.HostLayout
import proofs.«170167_j27212912788334_2_alg».proof.Proof.DenseStages

noncomputable section

namespace Cert.Bridge

open Idealize.ShloMosaic Idealize.ShloMosaic.TcCoe Idealize.SL.Sem Idealize.ShloMosaic.StableHlo Idealize.ShloMosaic.ValueIdx
open Cert.KernelIdeal Cert.KernelIdeal.Gen
open Cert.ReferenceIdeal.Read

variable (m : (ℓ : Loc nD τ sig) → Buf (Elt Ideal) ℓ) (outs : Gen.Outs (F := Ideal)) (c : Dev nD)

/-! ## Arguments reach the later boundaries as launched -/

theorem V11_arg8 : Gen.V11 m outs c main_arg8 = (m ((c.tc : Thread nD τ).loc main_arg8)) :=
  (Gen.V11_of m outs c main_arg8 (by decide)).trans <| (Gen.V10_of m outs c main_arg8 (by decide)).trans <| (Gen.V9_of m outs c main_arg8 (by decide)).trans <| (Gen.V8_of m outs c main_arg8 (by decide)).trans <| (Gen.V7_of m outs c main_arg8 (by decide)).trans <| (Gen.V6_of m outs c main_arg8 (by decide)).trans <| (Gen.V5_of m outs c main_arg8 (by decide)).trans <| (Gen.V4_of m outs c main_arg8 (by decide)).trans <| (Gen.V3_of m outs c main_arg8 (by decide)).trans <| (Gen.V2_of m outs c main_arg8 (by decide)).trans <| (Gen.V1_of m c main_arg8 (by decide)).trans rfl
theorem V12_arg12 : Gen.V12 m outs c main_arg12 = (m ((c.tc : Thread nD τ).loc main_arg12)) :=
  (Gen.V12_of m outs c main_arg12 (by decide)).trans <| (Gen.V11_of m outs c main_arg12 (by decide)).trans <| (Gen.V10_of m outs c main_arg12 (by decide)).trans <| (Gen.V9_of m outs c main_arg12 (by decide)).trans <| (Gen.V8_of m outs c main_arg12 (by decide)).trans <| (Gen.V7_of m outs c main_arg12 (by decide)).trans <| (Gen.V6_of m outs c main_arg12 (by decide)).trans <| (Gen.V5_of m outs c main_arg12 (by decide)).trans <| (Gen.V4_of m outs c main_arg12 (by decide)).trans <| (Gen.V3_of m outs c main_arg12 (by decide)).trans <| (Gen.V2_of m outs c main_arg12 (by decide)).trans <| (Gen.V1_of m c main_arg12 (by decide)).trans rfl
theorem V14_arg14 : Gen.V14 m outs c main_arg14 = (m ((c.tc : Thread nD τ).loc main_arg14)) :=
  (Gen.V14_of m outs c main_arg14 (by decide)).trans <| (Gen.V13_of m outs c main_arg14 (by decide)).trans <| (Gen.V12_of m outs c main_arg14 (by decide)).trans <| (Gen.V11_of m outs c main_arg14 (by decide)).trans <| (Gen.V10_of m outs c main_arg14 (by decide)).trans <| (Gen.V9_of m outs c main_arg14 (by decide)).trans <| (Gen.V8_of m outs c main_arg14 (by decide)).trans <| (Gen.V7_of m outs c main_arg14 (by decide)).trans <| (Gen.V6_of m outs c main_arg14 (by decide)).trans <| (Gen.V5_of m outs c main_arg14 (by decide)).trans <| (Gen.V4_of m outs c main_arg14 (by decide)).trans <| (Gen.V3_of m outs c main_arg14 (by decide)).trans <| (Gen.V2_of m outs c main_arg14 (by decide)).trans <| (Gen.V1_of m c main_arg14 (by decide)).trans rfl
theorem V15_arg13 : Gen.V15 m outs c main_arg13 = (m ((c.tc : Thread nD τ).loc main_arg13)) :=
  (Gen.V15_of m outs c main_arg13 (by decide)).trans <| (Gen.V14_of m outs c main_arg13 (by decide)).trans <| (Gen.V13_of m outs c main_arg13 (by decide)).trans <| (Gen.V12_of m outs c main_arg13 (by decide)).trans <| (Gen.V11_of m outs c main_arg13 (by decide)).trans <| (Gen.V10_of m outs c main_arg13 (by decide)).trans <| (Gen.V9_of m outs c main_arg13 (by decide)).trans <| (Gen.V8_of m outs c main_arg13 (by decide)).trans <| (Gen.V7_of m outs c main_arg13 (by decide)).trans <| (Gen.V6_of m outs c main_arg13 (by decide)).trans <| (Gen.V5_of m outs c main_arg13 (by decide)).trans <| (Gen.V4_of m outs c main_arg13 (by decide)).trans <| (Gen.V3_of m outs c main_arg13 (by decide)).trans <| (Gen.V2_of m outs c main_arg13 (by decide)).trans <| (Gen.V1_of m c main_arg13 (by decide)).trans rfl

/-! ## The chain -/

set_option maxHeartbeats 1600000 in
theorem result_stage
    (hh : Gen.V11 m outs c main_v58 = val_main_v60 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9)) (m ((c.tc : Thread nD τ).loc main_arg11)))
    (hp2 : Gen.V11 m outs c main_v40 = val_main_v75 (F := Ideal) (m ((c.tc : Thread nD τ).loc main_arg0)) (m ((c.tc : Thread nD τ).loc main_arg10)))
    (hn : Gen.V11 m outs c main_v33 = val_main_v40 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
    (hr : Gen.V11 m outs c main_v1 = val_main_v1 (F := Ideal) (m ((c.tc : Thread nD τ).loc main_arg1)))
    (hc : Gen.V11 m outs c main_v3 = val_main_v3 (F := Ideal) (m ((c.tc : Thread nD τ).loc main_arg1)))
    (hz : ∀ j : Fin 64, (Gen.V11 m outs c main_v60 : S1x64.Idx → EReal) (ix2 0 j) = (0 : EReal))
    (h12 : outs 12 main_v61 c = fun i => Cert.Spec.affine (Gen.V11 m outs c main_v58) (Gen.V11 m outs c main_arg8) (Gen.V11 m outs c main_v60) (i 0) (i 1))
    (h16 : outs 16 main_v81 c = fun i => Cert.Spec.affine (Gen.V15 m outs c main_v79) (Gen.V15 m outs c main_arg13) (Gen.V15 m outs c main_v80) (i 0) (i 1)) :
    Gen.V16 m outs c main_v81 = val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  -- the third region leaves h·A: its bias row is zero
  have e12 : Gen.V12 m outs c main_v61 = val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)) := by
    have e : Gen.V12 m outs c main_v61 = outs 12 main_v61 c := by simp only [Gen.V12, Function.update_self]
    rw [e, h12, V11_arg8, hh]
    exact Dense.layer_stage _ _ _ hz
  -- the second layer before its relu, then the relu
  have e13 : Gen.V13 m outs c main_v78 = val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
    Layers.layer2_stage (Gen.V12 m outs c) _ _ _ _ _ _ _ _ _ _ _ _ _
      ((Gen.V12_of m outs c main_v1 (by decide)).trans hr) ((Gen.V12_of m outs c main_v3 (by decide)).trans hc)
      ((Gen.V12_of m outs c main_v33 (by decide)).trans hn) e12 ((Gen.V12_of m outs c main_v40 (by decide)).trans hp2)
      (V12_arg12 m outs c)
  have e14 : Gen.V14 m outs c main_v79 = val_main_v80 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
    Layers.hidden2_stage (Gen.V13 m outs c) _ _ _ _ _ _ _ _ _ _ _ _ _ e13
  have e15 : Gen.V15 m outs c main_v79 = val_main_v80 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
    (Gen.V15_of m outs c main_v79 (by decide)).trans e14
  -- the head's bias as a row
  have hb : ∀ j : Fin 64, (Gen.V15 m outs c main_v80 : S1x64.Idx → EReal) (ix2 0 j) = (m ((c.tc : Thread nD τ).loc main_arg14)) (ix1 j) := fun j =>
    (Layout.headbias_row (Gen.V14 m outs c) j).trans (congrFun (V14_arg14 m outs c) (ix1 j))
  -- the last region leaves h2·L + l
  have e : Gen.V16 m outs c main_v81 = outs 16 main_v81 c := by simp only [Gen.V16, Function.update_self]
  rw [e, h16, V15_arg13, e15]
  exact Dense.head_stage _ _ _ _ hb

end Cert.Bridge

end
-- ==== Proof.Value.lean ====
/-
  The kernel's result is the reference's result.
  The kernel's program runs four kernel regions among host operations.  Region by region the array a region leaves is
  one function of the arrays it finds (the edge network's weights; the node projection against the three weight
  matrices laid side by side; the layer matrix; the head), and between the regions the host runs the operations the
  reference runs.  Chaining these from the launch memory, the result buffer ends holding the reference's result term
  of the same arguments: relu-ed ARMA layers of the symmetric-normalised graph, then the linear head.
-/
import proofs.«170167_j27212912788334_2_alg».proof.Proof.RunCond
import proofs.«170167_j27212912788334_2_alg».proof.Proof.EdgeValue
import proofs.«170167_j27212912788334_2_alg».proof.Proof.LinearValue1
import proofs.«170167_j27212912788334_2_alg».proof.Proof.LinearValue2
import proofs.«170167_j27212912788334_2_alg».proof.Proof.LinearValue3
import proofs.«170167_j27212912788334_2_alg».proof.Proof.BridgeNorm
import proofs.«170167_j27212912788334_2_alg».proof.Proof.BridgeLayer1
import proofs.«170167_j27212912788334_2_alg».proof.Proof.BridgeLayer2

noncomputable section

namespace Cert.Bridge

open Idealize.ShloMosaic Idealize.ShloMosaic.TcCoe Idealize.SL.Sem Idealize.ShloMosaic.StableHlo Idealize.ShloMosaic.ValueIdx
open Cert.KernelIdeal Cert.KernelIdeal.Gen
open Cert.ReferenceIdeal.Read

variable (m : (ℓ : Loc nD τ sig) → Buf (Elt Ideal) ℓ) (c : Dev nD)

set_option maxHeartbeats 1600000 in
/-- What the last region leaves in the result buffer is the reference's result stage of the launch arguments. -/
theorem kernel_value :
    Gen.V16 m (Cert.KernelIdeal.Frame.outs (F := Ideal) m) c main_v81 = val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  have h2 := (Cert.KernelIdeal.Frame.outs_2 (F := Ideal) m c).trans
    (Cert.KernelIdeal.RegionValue.final0 (fun c b => Gen.V1 m c b) c)
  have h8 := (Cert.KernelIdeal.Frame.outs_8 (F := Ideal) m c).trans
    (Cert.KernelIdeal.RegionValue.final1 (fun c b => Gen.V7 m (Cert.KernelIdeal.Frame.outs m) c b) c)
  have h12 := (Cert.KernelIdeal.Frame.outs_12 (F := Ideal) m c).trans
    (Cert.KernelIdeal.RegionValue.final2 (fun c b => Gen.V11 m (Cert.KernelIdeal.Frame.outs m) c b) c)
  have h16 := (Cert.KernelIdeal.Frame.outs_16 (F := Ideal) m c).trans
    (Cert.KernelIdeal.RegionValue.final3 (fun c b => Gen.V15 m (Cert.KernelIdeal.Frame.outs m) c b) c)
  have hn := norm_at_projection m (Cert.KernelIdeal.Frame.outs m) c h2
  have hr := row_at_projection m (Cert.KernelIdeal.Frame.outs m) c
  have hc := col_at_projection m (Cert.KernelIdeal.Frame.outs m) c
  exact result_stage m (Cert.KernelIdeal.Frame.outs m) c
    (hidden_at_layer2 m (Cert.KernelIdeal.Frame.outs m) c hn hr hc h8)
    (root1_at_layer2 m (Cert.KernelIdeal.Frame.outs m) c h8)
    (norm_at_layer2 m (Cert.KernelIdeal.Frame.outs m) c hn)
    (row_at_layer2 m (Cert.KernelIdeal.Frame.outs m) c hr)
    (col_at_layer2 m (Cert.KernelIdeal.Frame.outs m) c hc)
    (zero_at_layer2 m (Cert.KernelIdeal.Frame.outs m) c)
    h12 h16

end Cert.Bridge

end
-- ==== Proof.lean ====
/-
  The certificate: an ARMA graph convolution (an edge network giving nonnegative edge weights, their symmetric
  normalisation, two propagation layers, a linear head) written with four kernel regions, against its plain reference.
  Frames: each region's body run gives that region's launch, and the launches chain through the host operations
  between them, so every execution ends with the arguments unchanged; the reference's frame is its run with the
  result dropped.  Equivalence at exact arithmetic: the kernel's result buffer ends holding the reference's own
  result term of the same arguments — a bf16 rounding before a matrix product is the identity, a product accumulated
  from zero is the plain sum, the projection against three weight matrices laid side by side and sliced is the
  three projections, and a zero bias row adds nothing.
-/
import proofs.«170167_j27212912788334_2_alg».proof.Defs
import proofs.«170167_j27212912788334_2_alg».proof.Proof.Gen.Kernel
import proofs.«170167_j27212912788334_2_alg».proof.Proof.Gen.KernelIdeal
import proofs.«170167_j27212912788334_2_alg».proof.Proof.Gen.ReferenceIdeal
import proofs.«170167_j27212912788334_2_alg».proof.Proof.Gen.Pre_finite_inputs
import proofs.«170167_j27212912788334_2_alg».proof.Proof.Run
import proofs.«170167_j27212912788334_2_alg».proof.Proof.KRun
import proofs.«170167_j27212912788334_2_alg».proof.Proof.Value
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Frame.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Frame.frame m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the reference's result term of the (agreeing) arguments in their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.V16 m (Cert.KernelIdeal.Frame.outs (F := Ideal) m) c Cert.KernelIdeal.main_v81,
    Cert.KernelIdeal.Frame.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v84_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]
  exact (Cert.Bridge.kernel_value m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
